-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v140)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v140) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v309) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S64 : S_.BroadcastsInDim S64 (![] : Fin 0 → Fin S64.rank)
  reducesTo_S64_S_d0 : S64.ReducesTo [0] S_

variable [Facts]

def fn_part4 {F : FTy → Type} [FloatOps F] (main_arg15 : FVec F S64 .f32) (main_v63 : IVec S_ 1) (main_v67 : IVec S_ 1) : IVec S_ 1 :=
  let main_v68 : IVec S_ 1 := andi main_v63 main_v67
  let main_v69 : FVec F S64 .f32 := Host.absf main_arg15
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  main_v73

def fn_part3 {F : FTy → Type} [FloatOps F] (main_arg12 : FVec F S64 .f32) (main_arg13 : FVec F S64 .f32) (main_arg14 : FVec F S64 .f32) (main_arg15 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_v63 main_v67

def fn_part2 {F : FTy → Type} [FloatOps F] (main_arg8 : FVec F S3x64x64 .f32) (main_arg9 : FVec F S3x64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_v33 : IVec S_ 1) : IVec S_ 1 :=
  let main_v34 : FVec F S3x64x64 .f32 := Host.absf main_arg8
  let main_cst_12 : FVec F S_ .f32 := constant S_ .f32 0x7F800000#32
  let main_v35 : FVec F S3x64x64 .f32 := broadcastInDim S3x64x64 ![] bcast_S_S3x64x64 main_cst_12
  let main_v36 : IVec S3x64x64 1 := cmpf .olt main_v34 main_v35
  let main_c_13 : IVec S_ 1 := constantI S_ 1 1#1
  let main_v37 : IVec S_ 1 := (fun x v => Host.reduce IntOp.andi x v reducesTo_S3x64x64_S_d0_1_2 h_S_) main_v36 main_c_13
  let main_v38 : IVec S_ 1 := andi main_v33 main_v37
  let main_v39 : FVec F S3x64x64 .f32 := Host.absf main_arg9
  let main_cst_14 : FVec F S_ .f32 := constant S_ .f32 0x7F800000#32
  let main_v40 : FVec F S3x64x64 .f32 := broadcastInDim S3x64x64 ![] bcast_S_S3x64x64 main_cst_14
  let main_v41 : IVec S3x64x64 1 := cmpf .olt main_v39 main_v40
  let main_c_15 : IVec S_ 1 := constantI S_ 1 1#1
  let main_v42 : IVec S_ 1 := (fun x v => Host.reduce IntOp.andi x v reducesTo_S3x64x64_S_d0_1_2 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_v48 main_v49 main_v50

def fn_part1 {F : FTy → Type} [FloatOps F] (main_arg5 : FVec F S3x64x64 .f32) (main_arg6 : FVec F S3x64x64 .f32) (main_arg7 : FVec F S3x64x64 .f32) (main_arg8 : FVec F S3x64x64 .f32) (main_arg9 : FVec F S3x64x64 .f32) (main_arg10 : FVec F S64 .f32) (main_arg11 : FVec F S64 .f32) (main_arg12 : FVec F S64 .f32) (main_arg13 : FVec F S64 .f32) (main_arg14 : FVec F S64 .f32) (main_arg15 : FVec F S64 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64x64 .f32 := Host.absf main_arg5
  let main_cst_6 : FVec F S_ .f32 := constant S_ .f32 0x7F800000#32
  let main_v20 : FVec F S3x64x64 .f32 := broadcastInDim S3x64x64 ![] bcast_S_S3x64x64 main_cst_6
  let main_v21 : IVec S3x64x64 1 := cmpf .olt main_v19 main_v20
  let main_c_7 : IVec S_ 1 := constantI S_ 1 1#1
  let main_v22 : IVec S_ 1 := (fun x v => Host.reduce IntOp.andi x v reducesTo_S3x64x64_S_d0_1_2 h_S_) main_v21 main_c_7
  let main_v23 : IVec S_ 1 := andi main_v18 main_v22
  let main_v24 : FVec F S3x64x64 .f32 := Host.absf main_arg6
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64x64 .f32 := Host.absf main_arg7
  let main_cst_10 : FVec F S_ .f32 := constant S_ .f32 0x7F800000#32
  let main_v30 : FVec F S3x64x64 .f32 := broadcastInDim S3x64x64 ![] bcast_S_S3x64x64 main_cst_10
  let main_v31 : IVec S3x64x64 1 := cmpf .olt main_v29 main_v30
  let main_c_11 : IVec S_ 1 := constantI S_ 1 1#1
  let main_v32 : IVec S_ 1 := (fun x v => Host.reduce IntOp.andi x v reducesTo_S3x64x64_S_d0_1_2 h_S_) main_v31 main_c_11
  let main_v33 : IVec S_ 1 := andi main_v28 main_v32
  fn_part2 (F := F) main_arg8 main_arg9 main_arg10 main_arg11 main_arg12 main_arg13 main_arg14 main_arg15 main_v33

def fn {F : FTy → Type} [FloatOps F] (main_arg0 : FVec F S50000x64 .f32) (main_arg1 : IVec S2x800000 32) (main_arg2 : FVec F S800000 .f32) (main_arg3 : FVec F S50000x64 .f32) (main_arg4 : FVec F S3x64x64 .f32) (main_arg5 : FVec F S3x64x64 .f32) (main_arg6 : FVec F S3x64x64 .f32) (main_arg7 : FVec F S3x64x64 .f32) (main_arg8 : FVec F S3x64x64 .f32) (main_arg9 : FVec F S3x64x64 .f32) (main_arg10 : FVec F S64 .f32) (main_arg11 : FVec F S64 .f32) (main_arg12 : FVec F S64 .f32) (main_arg13 : FVec F S64 .f32) (main_arg14 : FVec F S64 .f32) (main_arg15 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S50000x64 .f32 := Host.absf main_arg3
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S3x64x64 .f32 := Host.absf main_arg4
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg5 main_arg6 main_arg7 main_arg8 main_arg9 main_arg10 main_arg11 main_arg12 main_arg13 main_arg14 main_arg15 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S800000x64 : Shape := ⟨2, ![800000, 64]⟩
abbrev S1x64 : Shape := ⟨2, ![1, 64]⟩
abbrev S5000x64 : Shape := ⟨2, ![5000, 64]⟩
abbrev S1x64x64 : Shape := ⟨3, ![1, 64, 64]⟩
abbrev S64x64 : Shape := ⟨2, ![64, 64]⟩

abbrev nBuf : Space → Nat
  | .hbm => 190
  | .vmem => 44
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000x64, .f32⟩
  | 4 => ⟨S3x64x64, .f32⟩
  | 5 => ⟨S3x64x64, .f32⟩
  | 6 => ⟨S3x64x64, .f32⟩
  | 7 => ⟨S3x64x64, .f32⟩
  | 8 => ⟨S3x64x64, .f32⟩
  | 9 => ⟨S3x64x64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S800000x1, .f32⟩
  | 57 => ⟨S_, .i32⟩
  | 58 => ⟨S800000, .i32⟩
  | 59 => ⟨S800000, .i1⟩
  | 60 => ⟨S_, .i32⟩
  | 61 => ⟨S800000, .i32⟩
  | 62 => ⟨S800000, .i32⟩
  | 63 => ⟨S800000, .i32⟩
  | 64 => ⟨S800000x1, .i32⟩
  | 65 => ⟨S800000x64, .f32⟩
  | 66 => ⟨S800000x64, .f32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S_, .f32⟩
  | 89 => ⟨S50000x64, .f32⟩
  | 90 => ⟨S50000x64, .f32⟩
  | 91 => ⟨S50000x64, .f32⟩
  | 92 => ⟨S800000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S800000x1, .f32⟩
  | 109 => ⟨S_, .i32⟩
  | 110 => ⟨S800000, .i32⟩
  | 111 => ⟨S800000, .i1⟩
  | 112 => ⟨S_, .i32⟩
  | 113 => ⟨S800000, .i32⟩
  | 114 => ⟨S800000, .i32⟩
  | 115 => ⟨S800000, .i32⟩
  | 116 => ⟨S800000x1, .i32⟩
  | 117 => ⟨S800000x64, .f32⟩
  | 118 => ⟨S800000x64, .f32⟩
  | 119 => ⟨S800000x64, .f32⟩
  | 120 => ⟨S_, .f32⟩
  | 121 => ⟨S50000x64, .f32⟩
  | 122 => ⟨S800000x1, .i32⟩
  | 123 => ⟨S50000x64, .f32⟩
  | 124 => ⟨S_, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S50000x64, .bf16⟩
  | 1 => ⟨S50000x64, .bf16⟩
  | 2 => ⟨S50000x64, .bf16⟩
  | 3 => ⟨S50000x64, .bf16⟩
  | 4 => ⟨S50000x64, .bf16⟩
  | 5 => ⟨S50000x64, .bf16⟩
  | 6 => ⟨S3x64x64, .bf16⟩
  | 7 => ⟨S3x64x64, .bf16⟩
  | 8 => ⟨S3x64x64, .bf16⟩
  | 9 => ⟨S3x64x64, .bf16⟩
  | 10 => ⟨S3x64x64, .bf16⟩
  | 11 => ⟨S3x64x64, .bf16⟩
  | 12 => ⟨S1x64, .f32⟩
  | 13 => ⟨S1x64, .f32⟩
  | 14 => ⟨S1x64, .f32⟩
  | 15 => ⟨S1x64, .f32⟩
  | 16 => ⟨S1x64, .f32⟩
  | 17 => ⟨S1x64, .f32⟩
  | 18 => ⟨S50000x64, .f32⟩
  | 19 => ⟨S50000x64, .f32⟩
  | 20 => ⟨S50000x64, .f32⟩
  | 21 => ⟨S50000x64, .f32⟩
  | 22 => ⟨S800000x1, .f32⟩
  | 23 => ⟨S_, .i32⟩
  | 24 => ⟨S800000, .i32⟩
  | 25 => ⟨S800000, .i1⟩
  | 26 => ⟨S_, .i32⟩
  | 27 => ⟨S800000, .i32⟩
  | 28 => ⟨S800000, .i32⟩
  | 29 => ⟨S800000, .i32⟩
  | 30 => ⟨S800000x1, .i32⟩
  | 31 => ⟨S800000x64, .f32⟩
  | 32 => ⟨S800000x64, .f32⟩
  | 33 => ⟨S800000x64, .f32⟩
  | 34 => ⟨S_, .f32⟩
  | 35 => ⟨S50000x64, .f32⟩
  | 36 => ⟨S800000x1, .i32⟩
  | 37 => ⟨S50000x64, .f32⟩
  | 38 => ⟨S800000x1, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x64, .f32⟩
  | 48 => ⟨S800000x64, .f32⟩
  | 49 => ⟨S800000x64, .f32⟩
  | 50 => ⟨S_, .f32⟩
  | 51 => ⟨S50000x64, .f32⟩
  | 52 => ⟨S800000x1, .i32⟩
  | 53 => ⟨S50000x64, .f32⟩
  | 54 => ⟨S_, .f32⟩
  | 55 => ⟨S50000x64, .f32⟩
  | 56 => ⟨S50000x64, .f32⟩
  | 57 => ⟨S50000x64, .f32⟩
  | 58 => ⟨S50000x64, .bf16⟩
  | 59 => ⟨S50000x64, .bf16⟩
  | 60 => ⟨S50000x64, .bf16⟩
  | 61 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .bf16⟩
  | .local _ .vmem, ⟨1, _⟩ => ⟨S5000x64, .bf16⟩
  | .local _ .vmem, ⟨2, _⟩ => ⟨S5000x64, .bf16⟩
  | .local _ .vmem, ⟨3, _⟩ => ⟨S5000x64, .bf16⟩
  | .local _ .vmem, ⟨4, _⟩ => ⟨S5000x64, .bf16⟩
  | .local _ .vmem, ⟨5, _⟩ => ⟨S5000x64, .bf16⟩
  | .local _ .vmem, ⟨6, _⟩ => ⟨S5000x64, .bf16⟩
  | .local _ .vmem, ⟨7, _⟩ => ⟨S5000x64, .bf16⟩
  | .local _ .vmem, ⟨8, _⟩ => ⟨S5000x64, .bf16⟩
  | .local _ .vmem, ⟨9, _⟩ => ⟨S5000x64, .bf16⟩
  | .local _ .vmem, ⟨10, _⟩ => ⟨S5000x64, .bf16⟩
  | .local _ .vmem, ⟨11, _⟩ => ⟨S5000x64, .bf16⟩
  | .local _ .vmem, ⟨12, _⟩ => ⟨S3x64x64, .bf16⟩
  | .local _ .vmem, ⟨13, _⟩ => ⟨S3x64x64, .bf16⟩
  | .local _ .vmem, ⟨14, _⟩ => ⟨S3x64x64, .bf16⟩
  | .local _ .vmem, ⟨15, _⟩ => ⟨S3x64x64, .bf16⟩
  | .local _ .vmem, ⟨16, _⟩ => ⟨S3x64x64, .bf16⟩
  | .local _ .vmem, ⟨17, _⟩ => ⟨S1x64, .f32⟩
  | .local _ .vmem, ⟨18, _⟩ => ⟨S1x64, .f32⟩
  | .local _ .vmem, ⟨19, _⟩ => ⟨S1x64, .f32⟩
  | .local _ .vmem, ⟨20, _⟩ => ⟨S1x64, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S5000x64, .f32⟩
  | .local _ .vmem, ⟨27, _⟩ => ⟨S5000x64, .f32⟩
  | .local _ .vmem, ⟨28, _⟩ => ⟨S5000x64, .bf16⟩
  | .local _ .vmem, ⟨29, _⟩ => ⟨S5000x64, .bf16⟩
  | .local _ .vmem, ⟨30, _⟩ => ⟨S5000x64, .bf16⟩
  | .local _ .vmem, ⟨31, _⟩ => ⟨S5000x64, .bf16⟩
  | .local _ .vmem, ⟨32, _⟩ => ⟨S5000x64, .bf16⟩
  | .local _ .vmem, ⟨33, _⟩ => ⟨S5000x64, .bf16⟩
  | .local _ .vmem, ⟨34, _⟩ => ⟨S3x64x64, .bf16⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_6 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_c_9 : Ref sig .tc := ⟨.hbm, 73, rfl⟩
abbrev main_v44 : Ref sig .tc := ⟨.hbm, 74, rfl⟩
abbrev main_v45 : Ref sig .tc := ⟨.hbm, 75, rfl⟩
abbrev main_c_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_11 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_12 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_13 : Ref sig .tc := ⟨.hbm, 93, rfl⟩
abbrev main_v60 : Ref sig .tc := ⟨.hbm, 94, rfl⟩
abbrev main_v61 : Ref sig .tc := ⟨.hbm, 95, rfl⟩
abbrev main_c_14 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_c_16 : Ref sig .tc := ⟨.hbm, 109, rfl⟩
abbrev main_v73 : Ref sig .tc := ⟨.hbm, 110, rfl⟩
abbrev main_v74 : Ref sig .tc := ⟨.hbm, 111, rfl⟩
abbrev main_c_17 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_cst_18 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_cst_19 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106_0 : Ref sig .tc := ⟨.hbm, 146, rfl⟩
abbrev main_v106_1 : Ref sig .tc := ⟨.hbm, 147, rfl⟩
abbrev main_v106_2 : Ref sig .tc := ⟨.hbm, 148, rfl⟩
abbrev main_v107 : Ref sig .tc := ⟨.hbm, 149, rfl⟩
abbrev main_v108 : Ref sig .tc := ⟨.hbm, 150, rfl⟩
abbrev main_c_20 : Ref sig .tc := ⟨.hbm, 151, rfl⟩
abbrev main_v109 : Ref sig .tc := ⟨.hbm, 152, rfl⟩
abbrev main_v110 : Ref sig .tc := ⟨.hbm, 153, rfl⟩
abbrev main_c_21 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_22 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_c_23 : Ref sig .tc := ⟨.hbm, 167, rfl⟩
abbrev main_v122 : Ref sig .tc := ⟨.hbm, 168, rfl⟩
abbrev main_v123 : Ref sig .tc := ⟨.hbm, 169, rfl⟩
abbrev main_c_24 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_25 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_26 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc1_stg0_0 : Ref sig .tc := ⟨.vmem, 28, rfl⟩
abbrev cc1_stg0_1 : Ref sig .tc := ⟨.vmem, 29, rfl⟩
abbrev cc1_stg1_0 : Ref sig .tc := ⟨.vmem, 30, rfl⟩
abbrev cc1_stg1_1 : Ref sig .tc := ⟨.vmem, 31, rfl⟩
abbrev cc1_stg2_0 : Ref sig .tc := ⟨.vmem, 32, rfl⟩
abbrev cc1_stg2_1 : Ref sig .tc := ⟨.vmem, 33, rfl⟩
abbrev cc1_stg3_0 : Ref sig .tc := ⟨.vmem, 34, rfl⟩
abbrev cc1_stg4_0 : Ref sig .tc := ⟨.vmem, 35, rfl⟩
abbrev cc1_stg5_0 : Ref sig .tc := ⟨.vmem, 36, rfl⟩
abbrev cc1_stg5_1 : Ref sig .tc := ⟨.vmem, 37, rfl⟩
abbrev cc1_stg6_0 : Ref sig .tc := ⟨.vmem, 38, rfl⟩
abbrev cc1_stg6_1 : Ref sig .tc := ⟨.vmem, 39, rfl⟩
abbrev cc1_stg7_0 : Ref sig .tc := ⟨.vmem, 40, rfl⟩
abbrev cc1_stg7_1 : Ref sig .tc := ⟨.vmem, 41, rfl⟩
abbrev cc1_stg8_0 : Ref sig .tc := ⟨.vmem, 42, rfl⟩
abbrev cc1_stg8_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc1_sem0_0 : DmaSem sig := 28
abbrev cc1_sem0_1 : DmaSem sig := 29
abbrev cc1_sem1_0 : DmaSem sig := 30
abbrev cc1_sem1_1 : DmaSem sig := 31
abbrev cc1_sem2_0 : DmaSem sig := 32
abbrev cc1_sem2_1 : DmaSem sig := 33
abbrev cc1_sem3_0 : DmaSem sig := 34
abbrev cc1_sem4_0 : DmaSem sig := 35
abbrev cc1_sem5_0 : DmaSem sig := 36
abbrev cc1_sem5_1 : DmaSem sig := 37
abbrev cc1_sem6_0 : DmaSem sig := 38
abbrev cc1_sem6_1 : DmaSem sig := 39
abbrev cc1_sem7_0 : DmaSem sig := 40
abbrev cc1_sem7_1 : DmaSem sig := 41
abbrev cc1_sem8_0 : DmaSem sig := 42
abbrev cc1_sem8_1 : DmaSem sig := 43

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x64x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x64x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x64x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x64x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x64x64 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S5000x64 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S5000x64 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S5000x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S5000x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bitsLt_bf16_f32 : FTy.bits .bf16 < FTy.bits .f32
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S3x64x64_S3x64x64_0_0_0 : ∀ a, (![0, 0, 0] : Fin 3 → Nat) a + S3x64x64.size a ≤ S3x64x64.size a
  h_S3x64x64 : 0 < S3x64x64.numel
  shapeCasts_S3x64x64_S3x64x64 : S3x64x64.ShapeCasts S3x64x64
  slices_S3x64x64_o0_0_0_S1x64x64 : S3x64x64.Slices ![0, 0, 0] S1x64x64
  shapeCasts_S1x64x64_S64x64 : S1x64x64.ShapeCasts S64x64
  slices_S3x64x64_o1_0_0_S1x64x64 : S3x64x64.Slices ![1, 0, 0] S1x64x64
  slices_S3x64x64_o2_0_0_S1x64x64 : S3x64x64.Slices ![2, 0, 0] S1x64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .bf16 = 32 ∨ (Rect.block (s := S50000x64) S5000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .bf16 = 32 ∨ (Rect.block (s := S50000x64) S5000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .bf16 = 32 ∨ (Rect.block (s := S50000x64) S5000x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S50000x64.size a
  hwx0_4 : ∀ i : grid0.Coords, EltTy.bits .bf16 = 32 ∨ (Rect.block (s := S50000x64) S5000x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x64.size a ≤ S50000x64.size a
  hwx0_5 : ∀ i : grid0.Coords, EltTy.bits .bf16 = 32 ∨ (Rect.block (s := S50000x64) S5000x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x64x64.size a ≤ S3x64x64.size a
  hwx0_6 : ∀ i : grid0.Coords, EltTy.bits .bf16 = 32 ∨ (Rect.block (s := S3x64x64) S3x64x64.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x64x64.size a ≤ S3x64x64.size a
  hwx0_7 : ∀ i : grid0.Coords, EltTy.bits .bf16 = 32 ∨ (Rect.block (s := S3x64x64) S3x64x64.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x64x64.size a ≤ S3x64x64.size a
  hwx0_8 : ∀ i : grid0.Coords, EltTy.bits .bf16 = 32 ∨ (Rect.block (s := S3x64x64) S3x64x64.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x64x64.size a ≤ S3x64x64.size a
  hwx0_9 : ∀ i : grid0.Coords, EltTy.bits .bf16 = 32 ∨ (Rect.block (s := S3x64x64) S3x64x64.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x64x64.size a ≤ S3x64x64.size a
  hwx0_10 : ∀ i : grid0.Coords, EltTy.bits .bf16 = 32 ∨ (Rect.block (s := S3x64x64) S3x64x64.size (cc0_transform_10 i) (hinb0_10 i)).WholeWords (EltTy.packing .bf16)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x64.size a ≤ S1x64.size a
  hwx0_14 : ∀ i : grid0.Coords, EltTy.bits .f32 = 32 ∨ (Rect.block (s := S1x64) S1x64.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x64.size a ≤ S1x64.size a
  hwx0_15 : ∀ i : grid0.Coords, EltTy.bits .f32 = 32 ∨ (Rect.block (s := S1x64) S1x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S5000x64.size a ≤ S50000x64.size a
  hwx0_16 : ∀ i : grid0.Coords, EltTy.bits .f32 = 32 ∨ (Rect.block (s := S50000x64) S5000x64.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S5000x64.size a ≤ S50000x64.size a
  hwx0_17 : ∀ i : grid0.Coords, EltTy.bits .f32 = 32 ∨ (Rect.block (s := S50000x64) S5000x64.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S5000x64.size a ≤ S50000x64.size a
  hwx0_18 : ∀ i : grid0.Coords, EltTy.bits .f32 = 32 ∨ (Rect.block (s := S50000x64) S5000x64.size (cc0_transform_18 i) (hinb0_18 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .bf16 = 32 ∨ (Rect.block (s := S50000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .bf16 = 32 ∨ (Rect.block (s := S50000x64) S5000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .bf16 = 32 ∨ (Rect.block (s := S50000x64) S5000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x64.size a ≤ S3x64x64.size a
  hwx1_3 : ∀ i : grid1.Coords, EltTy.bits .bf16 = 32 ∨ (Rect.block (s := S3x64x64) S3x64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S5000x64.size a ≤ S50000x64.size a
  hwx1_8 : ∀ i : grid1.Coords, EltTy.bits .f32 = 32 ∨ (Rect.block (s := S50000x64) S5000x64.size (cc1_transform_8 i) (hinb1_8 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_v88) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v89) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v90) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v91) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v92) S5000x64.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v93) S5000x64.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v94) S3x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v95) S3x64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v96) S3x64x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v97) S3x64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v98) S3x64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v100) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v101) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v102) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v103) S1x64.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v104) S1x64.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v106_0) S5000x64.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v106_1) S5000x64.size cc0_transform_17 reads0_17 true false 2 stage0_17 sem0_17
    hrank0 hreads0_17 hinb0_17 nbuf0_17 (Memref.isWhole_whole _) hwx0_17 hstage0_17

abbrev win0_18 : Pipeline.Window sig grid0 :=
  Pipeline.Window.ofSpec (Memref.whole main_v106_2) S5000x64.size cc0_transform_18 reads0_18 true false 2 stage0_18 sem0_18
    hrank0 hreads0_18 hinb0_18 nbuf0_18 (Memref.isWhole_whole _) hwx0_18 hstage0_18

abbrev win0 : Fin 19 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | ⟨_ + 19, h⟩ => absurd h (Nat.not_lt.2 (Nat.le_add_left _ _))
abbrev spec0 : Fin 19 → Pipeline.WinSpec sig grid0.rank := fun w => (win0 w).toWinSpec

abbrev win1_0 : Pipeline.Window sig grid1 :=
  Pipeline.Window.ofSpec (Memref.whole main_v137) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v138) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v139) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v99) S3x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v105) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v106_2) S5000x64.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v106_0) S5000x64.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_arg3) S5000x64.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v140) S5000x64.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S3x64x64 : Shape := ⟨3, ![3, 64, 64]⟩
abbrev S64 : Shape := ⟨1, ![64]⟩
abbrev S1x800000 : Shape := ⟨2, ![1, 800000]⟩
abbrev S_ : Shape := ⟨0, ![]⟩
abbrev S50000 : Shape := ⟨1, ![50000]⟩
abbrev S800000x1 : Shape := ⟨2, ![800000, 1]⟩
abbrev S1x64x64 : Shape := ⟨3, ![1, 64, 64]⟩
abbrev S64x64 : Shape := ⟨2, ![64, 64]⟩
abbrev S800000x64 : Shape := ⟨2, ![800000, 64]⟩
abbrev S1x64 : Shape := ⟨2, ![1, 64]⟩

abbrev nBuf : Space → Nat
  | .hbm => 383
  | .vmem => 0
  | .smem => 0
  | _ => 0

abbrev hbmTy0_0 (i : Nat) : BufTy := match i % 128 with
  | 0 => ⟨S50000x64, .f32⟩
  | 1 => ⟨S2x800000, .i32⟩
  | 2 => ⟨S800000, .f32⟩
  | 3 => ⟨S50000x64, .f32⟩
  | 4 => ⟨S3x64x64, .f32⟩
  | 5 => ⟨S3x64x64, .f32⟩
  | 6 => ⟨S3x64x64, .f32⟩
  | 7 => ⟨S3x64x64, .f32⟩
  | 8 => ⟨S3x64x64, .f32⟩
  | 9 => ⟨S3x64x64, .f32⟩
  | 10 => ⟨S64, .f32⟩
  | 11 => ⟨S64, .f32⟩
  | 12 => ⟨S64, .f32⟩
  | 13 => ⟨S64, .f32⟩
  | 14 => ⟨S64, .f32⟩
  | 15 => ⟨S64, .f32⟩
  | 16 => ⟨S1x800000, .i32⟩
  | 17 => ⟨S800000, .i32⟩
  | 18 => ⟨S1x800000, .i32⟩
  | 19 => ⟨S800000, .i32⟩
  | 20 => ⟨S_, .f32⟩
  | 21 => ⟨S50000, .f32⟩
  | 22 => ⟨S800000x1, .i32⟩
  | 23 => ⟨S50000, .f32⟩
  | 24 => ⟨S_, .f32⟩
  | 25 => ⟨S50000, .f32⟩
  | 26 => ⟨S50000, .i1⟩
  | 27 => ⟨S_, .f32⟩
  | 28 => ⟨S50000, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S800000, .f32⟩
  | 46 => ⟨S_, .i32⟩
  | 47 => ⟨S800000, .i32⟩
  | 48 => ⟨S800000, .i1⟩
  | 49 => ⟨S_, .i32⟩
  | 50 => ⟨S800000, .i32⟩
  | 51 => ⟨S800000, .i32⟩
  | 52 => ⟨S800000, .i32⟩
  | 53 => ⟨S800000x1, .i32⟩
  | 54 => ⟨S800000, .f32⟩
  | 55 => ⟨S800000, .f32⟩
  | 56 => ⟨S1x64x64, .f32⟩
  | 57 => ⟨S64x64, .f32⟩
  | 58 => ⟨S50000x64, .f32⟩
  | 59 => ⟨S800000x1, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x64, .f32⟩
  | 69 => ⟨S800000x64, .f32⟩
  | 70 => ⟨S800000x64, .f32⟩
  | 71 => ⟨S_, .f32⟩
  | 72 => ⟨S50000x64, .f32⟩
  | 73 => ⟨S800000x1, .i32⟩
  | 74 => ⟨S50000x64, .f32⟩
  | 75 => ⟨S1x64x64, .f32⟩
  | 76 => ⟨S64x64, .f32⟩
  | 77 => ⟨S50000x64, .f32⟩
  | 78 => ⟨S50000x64, .f32⟩
  | 79 => ⟨S800000x1, .f32⟩
  | 80 => ⟨S_, .i32⟩
  | 81 => ⟨S800000, .i32⟩
  | 82 => ⟨S800000, .i1⟩
  | 83 => ⟨S_, .i32⟩
  | 84 => ⟨S800000, .i32⟩
  | 85 => ⟨S800000, .i32⟩
  | 86 => ⟨S800000, .i32⟩
  | 87 => ⟨S800000x1, .i32⟩
  | 88 => ⟨S800000x64, .f32⟩
  | 89 => ⟨S800000x64, .f32⟩
  | 90 => ⟨S800000x64, .f32⟩
  | 91 => ⟨S_, .f32⟩
  | 92 => ⟨S50000x64, .f32⟩
  | 93 => ⟨S800000x1, .i32⟩
  | 94 => ⟨S50000x64, .f32⟩
  | 95 => ⟨S_, .f32⟩
  | 96 => ⟨S50000x64, .f32⟩
  | 97 => ⟨S50000x64, .f32⟩
  | 98 => ⟨S50000x64, .f32⟩
  | 99 => ⟨S1x64x64, .f32⟩
  | 100 => ⟨S64x64, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S1x64x64, .f32⟩
  | 107 => ⟨S64x64, .f32⟩
  | 108 => ⟨S50000x64, .f32⟩
  | 109 => ⟨S800000x1, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000x64, .f32⟩
  | 119 => ⟨S800000x64, .f32⟩
  | 120 => ⟨S800000x64, .f32⟩
  | 121 => ⟨S_, .f32⟩
  | 122 => ⟨S50000x64, .f32⟩
  | 123 => ⟨S800000x1, .i32⟩
  | 124 => ⟨S50000x64, .f32⟩
  | 125 => ⟨S1x64x64, .f32⟩
  | 126 => ⟨S64x64, .f32⟩
  | 127 => ⟨S50000x64, .f32⟩
  | _ => ⟨S50000x64, .f32⟩

abbrev hbmTy0_1 (i : Nat) : BufTy := match i % 128 with
  | 0 => ⟨S50000x64, .f32⟩
  | 1 => ⟨S800000x1, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x64, .f32⟩
  | 11 => ⟨S800000x64, .f32⟩
  | 12 => ⟨S800000x64, .f32⟩
  | 13 => ⟨S_, .f32⟩
  | 14 => ⟨S50000x64, .f32⟩
  | 15 => ⟨S800000x1, .i32⟩
  | 16 => ⟨S50000x64, .f32⟩
  | 17 => ⟨S_, .f32⟩
  | 18 => ⟨S50000x64, .f32⟩
  | 19 => ⟨S50000x64, .f32⟩
  | 20 => ⟨S50000x64, .f32⟩
  | 21 => ⟨S1x64x64, .f32⟩
  | 22 => ⟨S64x64, .f32⟩
  | 23 => ⟨S50000x64, .f32⟩
  | 24 => ⟨S50000x64, .f32⟩
  | 25 => ⟨S1x64, .f32⟩
  | 26 => ⟨S50000x64, .f32⟩
  | 27 => ⟨S50000x64, .f32⟩
  | 28 => ⟨S50000x64, .f32⟩
  | 29 => ⟨S50000x64, .f32⟩
  | 30 => ⟨S50000x64, .f32⟩
  | 31 => ⟨S_, .f32⟩
  | 32 => ⟨S50000x64, .f32⟩
  | 33 => ⟨S50000x64, .f32⟩
  | 34 => ⟨S_, .f32⟩
  | 35 => ⟨S50000x64, .f32⟩
  | 36 => ⟨S50000x64, .f32⟩
  | 37 => ⟨S1x64x64, .f32⟩
  | 38 => ⟨S64x64, .f32⟩
  | 39 => ⟨S50000x64, .f32⟩
  | 40 => ⟨S800000x1, .f32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x64, .f32⟩
  | 50 => ⟨S800000x64, .f32⟩
  | 51 => ⟨S800000x64, .f32⟩
  | 52 => ⟨S_, .f32⟩
  | 53 => ⟨S50000x64, .f32⟩
  | 54 => ⟨S800000x1, .i32⟩
  | 55 => ⟨S50000x64, .f32⟩
  | 56 => ⟨S1x64x64, .f32⟩
  | 57 => ⟨S64x64, .f32⟩
  | 58 => ⟨S50000x64, .f32⟩
  | 59 => ⟨S50000x64, .f32⟩
  | 60 => ⟨S800000x1, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000x64, .f32⟩
  | 70 => ⟨S800000x64, .f32⟩
  | 71 => ⟨S800000x64, .f32⟩
  | 72 => ⟨S_, .f32⟩
  | 73 => ⟨S50000x64, .f32⟩
  | 74 => ⟨S800000x1, .i32⟩
  | 75 => ⟨S50000x64, .f32⟩
  | 76 => ⟨S_, .f32⟩
  | 77 => ⟨S50000x64, .f32⟩
  | 78 => ⟨S50000x64, .f32⟩
  | 79 => ⟨S50000x64, .f32⟩
  | 80 => ⟨S1x64x64, .f32⟩
  | 81 => ⟨S64x64, .f32⟩
  | 82 => ⟨S50000x64, .f32⟩
  | 83 => ⟨S50000x64, .f32⟩
  | 84 => ⟨S1x64, .f32⟩
  | 85 => ⟨S50000x64, .f32⟩
  | 86 => ⟨S50000x64, .f32⟩
  | 87 => ⟨S1x64x64, .f32⟩
  | 88 => ⟨S64x64, .f32⟩
  | 89 => ⟨S50000x64, .f32⟩
  | 90 => ⟨S800000x1, .f32⟩
  | 91 => ⟨S_, .i32⟩
  | 92 => ⟨S800000, .i32⟩
  | 93 => ⟨S800000, .i1⟩
  | 94 => ⟨S_, .i32⟩
  | 95 => ⟨S800000, .i32⟩
  | 96 => ⟨S800000, .i32⟩
  | 97 => ⟨S800000, .i32⟩
  | 98 => ⟨S800000x1, .i32⟩
  | 99 => ⟨S800000x64, .f32⟩
  | 100 => ⟨S800000x64, .f32⟩
  | 101 => ⟨S800000x64, .f32⟩
  | 102 => ⟨S_, .f32⟩
  | 103 => ⟨S50000x64, .f32⟩
  | 104 => ⟨S800000x1, .i32⟩
  | 105 => ⟨S50000x64, .f32⟩
  | 106 => ⟨S1x64x64, .f32⟩
  | 107 => ⟨S64x64, .f32⟩
  | 108 => ⟨S50000x64, .f32⟩
  | 109 => ⟨S50000x64, .f32⟩
  | 110 => ⟨S800000x1, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x64, .f32⟩
  | 120 => ⟨S800000x64, .f32⟩
  | 121 => ⟨S800000x64, .f32⟩
  | 122 => ⟨S_, .f32⟩
  | 123 => ⟨S50000x64, .f32⟩
  | 124 => ⟨S800000x1, .i32⟩
  | 125 => ⟨S50000x64, .f32⟩
  | 126 => ⟨S_, .f32⟩
  | 127 => ⟨S50000x64, .f32⟩
  | _ => ⟨S50000x64, .f32⟩

abbrev hbmTy0_2 (i : Nat) : BufTy := match i % 128 with
  | 0 => ⟨S50000x64, .f32⟩
  | 1 => ⟨S50000x64, .f32⟩
  | 2 => ⟨S1x64x64, .f32⟩
  | 3 => ⟨S64x64, .f32⟩
  | 4 => ⟨S50000x64, .f32⟩
  | 5 => ⟨S50000x64, .f32⟩
  | 6 => ⟨S1x64, .f32⟩
  | 7 => ⟨S50000x64, .f32⟩
  | 8 => ⟨S50000x64, .f32⟩
  | 9 => ⟨S50000x64, .f32⟩
  | 10 => ⟨S50000x64, .f32⟩
  | 11 => ⟨S50000x64, .f32⟩
  | 12 => ⟨S_, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S1x64x64, .f32⟩
  | 19 => ⟨S64x64, .f32⟩
  | 20 => ⟨S50000x64, .f32⟩
  | 21 => ⟨S800000x1, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S800000x64, .f32⟩
  | 32 => ⟨S800000x64, .f32⟩
  | 33 => ⟨S_, .f32⟩
  | 34 => ⟨S50000x64, .f32⟩
  | 35 => ⟨S800000x1, .i32⟩
  | 36 => ⟨S50000x64, .f32⟩
  | 37 => ⟨S1x64x64, .f32⟩
  | 38 => ⟨S64x64, .f32⟩
  | 39 => ⟨S50000x64, .f32⟩
  | 40 => ⟨S50000x64, .f32⟩
  | 41 => ⟨S800000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S800000x64, .f32⟩
  | 52 => ⟨S800000x64, .f32⟩
  | 53 => ⟨S_, .f32⟩
  | 54 => ⟨S50000x64, .f32⟩
  | 55 => ⟨S800000x1, .i32⟩
  | 56 => ⟨S50000x64, .f32⟩
  | 57 => ⟨S_, .f32⟩
  | 58 => ⟨S50000x64, .f32⟩
  | 59 => ⟨S50000x64, .f32⟩
  | 60 => ⟨S50000x64, .f32⟩
  | 61 => ⟨S1x64x64, .f32⟩
  | 62 => ⟨S64x64, .f32⟩
  | 63 => ⟨S50000x64, .f32⟩
  | 64 => ⟨S50000x64, .f32⟩
  | 65 => ⟨S1x64, .f32⟩
  | 66 => ⟨S50000x64, .f32⟩
  | 67 => ⟨S50000x64, .f32⟩
  | 68 => ⟨S50000x64, .f32⟩
  | 69 => ⟨S1x64x64, .f32⟩
  | 70 => ⟨S64x64, .f32⟩
  | 71 => ⟨S50000x64, .f32⟩
  | 72 => ⟨S800000x1, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000x64, .f32⟩
  | 82 => ⟨S800000x64, .f32⟩
  | 83 => ⟨S800000x64, .f32⟩
  | 84 => ⟨S_, .f32⟩
  | 85 => ⟨S50000x64, .f32⟩
  | 86 => ⟨S800000x1, .i32⟩
  | 87 => ⟨S50000x64, .f32⟩
  | 88 => ⟨S1x64x64, .f32⟩
  | 89 => ⟨S64x64, .f32⟩
  | 90 => ⟨S50000x64, .f32⟩
  | 91 => ⟨S50000x64, .f32⟩
  | 92 => ⟨S800000x1, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S_, .f32⟩
  | 109 => ⟨S50000x64, .f32⟩
  | 110 => ⟨S50000x64, .f32⟩
  | 111 => ⟨S50000x64, .f32⟩
  | 112 => ⟨S1x64x64, .f32⟩
  | 113 => ⟨S64x64, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S50000x64, .f32⟩
  | 120 => ⟨S50000x64, .f32⟩
  | 121 => ⟨S50000x64, .f32⟩
  | 122 => ⟨S_, .f32⟩
  | 123 => ⟨S50000x64, .f32⟩
  | 124 => ⟨S50000x64, .f32⟩
  | 125 => ⟨S50000x64, .f32⟩
  | 126 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst_0 : Ref sig .tc := ⟨.hbm, 24, rfl⟩
abbrev main_v7 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v12 : Ref sig .tc := ⟨.hbm, 34, rfl⟩
abbrev main_c : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_4 : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_c_6 : Ref sig .tc := ⟨.hbm, 60, rfl⟩
abbrev main_v34 : Ref sig .tc := ⟨.hbm, 61, rfl⟩
abbrev main_v35 : Ref sig .tc := ⟨.hbm, 62, rfl⟩
abbrev main_c_7 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_8 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_9 : Ref sig .tc := ⟨.hbm, 80, rfl⟩
abbrev main_v51 : Ref sig .tc := ⟨.hbm, 81, rfl⟩
abbrev main_v52 : Ref sig .tc := ⟨.hbm, 82, rfl⟩
abbrev main_c_10 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_c_13 : Ref sig .tc := ⟨.hbm, 110, rfl⟩
abbrev main_v77 : Ref sig .tc := ⟨.hbm, 111, rfl⟩
abbrev main_v78 : Ref sig .tc := ⟨.hbm, 112, rfl⟩
abbrev main_c_14 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_15 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_c_16 : Ref sig .tc := ⟨.hbm, 130, rfl⟩
abbrev main_v94 : Ref sig .tc := ⟨.hbm, 131, rfl⟩
abbrev main_v95 : Ref sig .tc := ⟨.hbm, 132, rfl⟩
abbrev main_c_17 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_18 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_cst_19 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_cst_20 : Ref sig .tc := ⟨.hbm, 159, rfl⟩
abbrev main_v119 : Ref sig .tc := ⟨.hbm, 160, rfl⟩
abbrev main_v120 : Ref sig .tc := ⟨.hbm, 161, rfl⟩
abbrev main_cst_21 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_c_22 : Ref sig .tc := ⟨.hbm, 169, rfl⟩
abbrev main_v127 : Ref sig .tc := ⟨.hbm, 170, rfl⟩
abbrev main_v128 : Ref sig .tc := ⟨.hbm, 171, rfl⟩
abbrev main_c_23 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_cst_24 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_c_25 : Ref sig .tc := ⟨.hbm, 189, rfl⟩
abbrev main_v144 : Ref sig .tc := ⟨.hbm, 190, rfl⟩
abbrev main_v145 : Ref sig .tc := ⟨.hbm, 191, rfl⟩
abbrev main_c_26 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_cst_27 : Ref sig .tc := ⟨.hbm, 200, rfl⟩
abbrev main_v153 : Ref sig .tc := ⟨.hbm, 201, rfl⟩
abbrev main_v154 : Ref sig .tc := ⟨.hbm, 202, rfl⟩
abbrev main_v155 : Ref sig .tc := ⟨.hbm, 203, rfl⟩
abbrev main_cst_28 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_v162 : Ref sig .tc := ⟨.hbm, 211, rfl⟩
abbrev main_v163 : Ref sig .tc := ⟨.hbm, 212, rfl⟩
abbrev main_v164 : Ref sig .tc := ⟨.hbm, 213, rfl⟩
abbrev main_v165 : Ref sig .tc := ⟨.hbm, 214, rfl⟩
abbrev main_v166 : Ref sig .tc := ⟨.hbm, 215, rfl⟩
abbrev main_v167 : Ref sig .tc := ⟨.hbm, 216, rfl⟩
abbrev main_v168 : Ref sig .tc := ⟨.hbm, 217, rfl⟩
abbrev main_v169 : Ref sig .tc := ⟨.hbm, 218, rfl⟩
abbrev main_c_29 : Ref sig .tc := ⟨.hbm, 219, rfl⟩
abbrev main_v170 : Ref sig .tc := ⟨.hbm, 220, rfl⟩
abbrev main_v171 : Ref sig .tc := ⟨.hbm, 221, rfl⟩
abbrev main_c_30 : Ref sig .tc := ⟨.hbm, 222, rfl⟩
abbrev main_v172 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_cst_31 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_v182 : Ref sig .tc := ⟨.hbm, 234, rfl⟩
abbrev main_v183 : Ref sig .tc := ⟨.hbm, 235, rfl⟩
abbrev main_v184 : Ref sig .tc := ⟨.hbm, 236, rfl⟩
abbrev main_v185 : Ref sig .tc := ⟨.hbm, 237, rfl⟩
abbrev main_v186 : Ref sig .tc := ⟨.hbm, 238, rfl⟩
abbrev main_c_32 : Ref sig .tc := ⟨.hbm, 239, rfl⟩
abbrev main_v187 : Ref sig .tc := ⟨.hbm, 240, rfl⟩
abbrev main_v188 : Ref sig .tc := ⟨.hbm, 241, rfl⟩
abbrev main_c_33 : Ref sig .tc := ⟨.hbm, 242, rfl⟩
abbrev main_v189 : Ref sig .tc := ⟨.hbm, 243, rfl⟩
abbrev main_v190 : Ref sig .tc := ⟨.hbm, 244, rfl⟩
abbrev main_v191 : Ref sig .tc := ⟨.hbm, 245, rfl⟩
abbrev main_v192 : Ref sig .tc := ⟨.hbm, 246, rfl⟩
abbrev main_v193 : Ref sig .tc := ⟨.hbm, 247, rfl⟩
abbrev main_v194 : Ref sig .tc := ⟨.hbm, 248, rfl⟩
abbrev main_v195 : Ref sig .tc := ⟨.hbm, 249, rfl⟩
abbrev main_cst_34 : Ref sig .tc := ⟨.hbm, 250, rfl⟩
abbrev main_v196 : Ref sig .tc := ⟨.hbm, 251, rfl⟩
abbrev main_v197 : Ref sig .tc := ⟨.hbm, 252, rfl⟩
abbrev main_v198 : Ref sig .tc := ⟨.hbm, 253, rfl⟩
abbrev main_cst_35 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_cst_36 : Ref sig .tc := ⟨.hbm, 268, rfl⟩
abbrev main_v212 : Ref sig .tc := ⟨.hbm, 269, rfl⟩
abbrev main_v213 : Ref sig .tc := ⟨.hbm, 270, rfl⟩
abbrev main_cst_37 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_v217 : Ref sig .tc := ⟨.hbm, 275, rfl⟩
abbrev main_v218 : Ref sig .tc := ⟨.hbm, 276, rfl⟩
abbrev main_v219 : Ref sig .tc := ⟨.hbm, 277, rfl⟩
abbrev main_c_38 : Ref sig .tc := ⟨.hbm, 278, rfl⟩
abbrev main_v220 : Ref sig .tc := ⟨.hbm, 279, rfl⟩
abbrev main_v221 : Ref sig .tc := ⟨.hbm, 280, rfl⟩
abbrev main_c_39 : Ref sig .tc := ⟨.hbm, 281, rfl⟩
abbrev main_v222 : Ref sig .tc := ⟨.hbm, 282, rfl⟩
abbrev main_v223 : Ref sig .tc := ⟨.hbm, 283, rfl⟩
abbrev main_v224 : Ref sig .tc := ⟨.hbm, 284, rfl⟩
abbrev main_v225 : Ref sig .tc := ⟨.hbm, 285, rfl⟩
abbrev main_v226 : Ref sig .tc := ⟨.hbm, 286, rfl⟩
abbrev main_v227 : Ref sig .tc := ⟨.hbm, 287, rfl⟩
abbrev main_v228 : Ref sig .tc := ⟨.hbm, 288, rfl⟩
abbrev main_cst_40 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_c_41 : Ref sig .tc := ⟨.hbm, 298, rfl⟩
abbrev main_v237 : Ref sig .tc := ⟨.hbm, 299, rfl⟩
abbrev main_v238 : Ref sig .tc := ⟨.hbm, 300, rfl⟩
abbrev main_c_42 : Ref sig .tc := ⟨.hbm, 301, rfl⟩
abbrev main_v239 : Ref sig .tc := ⟨.hbm, 302, rfl⟩
abbrev main_v240 : Ref sig .tc := ⟨.hbm, 303, rfl⟩
abbrev main_v241 : Ref sig .tc := ⟨.hbm, 304, rfl⟩
abbrev main_v242 : Ref sig .tc := ⟨.hbm, 305, rfl⟩
abbrev main_v243 : Ref sig .tc := ⟨.hbm, 306, rfl⟩
abbrev main_v244 : Ref sig .tc := ⟨.hbm, 307, rfl⟩
abbrev main_v245 : Ref sig .tc := ⟨.hbm, 308, rfl⟩
abbrev main_cst_43 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_cst_44 : Ref sig .tc := ⟨.hbm, 313, rfl⟩
abbrev main_v249 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_c_45 : Ref sig .tc := ⟨.hbm, 329, rfl⟩
abbrev main_v264 : Ref sig .tc := ⟨.hbm, 330, rfl⟩
abbrev main_v265 : Ref sig .tc := ⟨.hbm, 331, rfl⟩
abbrev main_c_46 : Ref sig .tc := ⟨.hbm, 332, rfl⟩
abbrev main_v266 : Ref sig .tc := ⟨.hbm, 333, rfl⟩
abbrev main_v267 : Ref sig .tc := ⟨.hbm, 334, rfl⟩
abbrev main_v268 : Ref sig .tc := ⟨.hbm, 335, rfl⟩
abbrev main_v269 : Ref sig .tc := ⟨.hbm, 336, rfl⟩
abbrev main_v270 : Ref sig .tc := ⟨.hbm, 337, rfl⟩
abbrev main_v271 : Ref sig .tc := ⟨.hbm, 338, rfl⟩
abbrev main_v272 : Ref sig .tc := ⟨.hbm, 339, rfl⟩
abbrev main_cst_47 : Ref sig .tc := ⟨.hbm, 340, rfl⟩
abbrev main_v273 : Ref sig .tc := ⟨.hbm, 341, rfl⟩
abbrev main_v274 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_c_48 : Ref sig .tc := ⟨.hbm, 349, rfl⟩
abbrev main_v281 : Ref sig .tc := ⟨.hbm, 350, rfl⟩
abbrev main_v282 : Ref sig .tc := ⟨.hbm, 351, rfl⟩
abbrev main_c_49 : Ref sig .tc := ⟨.hbm, 352, rfl⟩
abbrev main_v283 : Ref sig .tc := ⟨.hbm, 353, rfl⟩
abbrev main_v284 : Ref sig .tc := ⟨.hbm, 354, rfl⟩
abbrev main_v285 : Ref sig .tc := ⟨.hbm, 355, rfl⟩
abbrev main_v286 : Ref sig .tc := ⟨.hbm, 356, rfl⟩
abbrev main_v287 : Ref sig .tc := ⟨.hbm, 357, rfl⟩
abbrev main_v288 : Ref sig .tc := ⟨.hbm, 358, rfl⟩
abbrev main_v289 : Ref sig .tc := ⟨.hbm, 359, rfl⟩
abbrev main_cst_50 : Ref sig .tc := ⟨.hbm, 360, rfl⟩
abbrev main_v290 : Ref sig .tc := ⟨.hbm, 361, rfl⟩
abbrev main_v291 : Ref sig .tc := ⟨.hbm, 362, rfl⟩
abbrev main_v292 : Ref sig .tc := ⟨.hbm, 363, rfl⟩
abbrev main_cst_51 : Ref sig .tc := ⟨.hbm, 364, rfl⟩
abbrev main_v293 : Ref sig .tc := ⟨.hbm, 365, rfl⟩
abbrev main_v294 : Ref sig .tc := ⟨.hbm, 366, rfl⟩
abbrev main_v295 : Ref sig .tc := ⟨.hbm, 367, rfl⟩
abbrev main_v296 : Ref sig .tc := ⟨.hbm, 368, rfl⟩
abbrev main_v297 : Ref sig .tc := ⟨.hbm, 369, rfl⟩
abbrev main_v298 : Ref sig .tc := ⟨.hbm, 370, rfl⟩
abbrev main_v299 : Ref sig .tc := ⟨.hbm, 371, rfl⟩
abbrev main_v300 : Ref sig .tc := ⟨.hbm, 372, rfl⟩
abbrev main_v301 : Ref sig .tc := ⟨.hbm, 373, rfl⟩
abbrev main_v302 : Ref sig .tc := ⟨.hbm, 374, rfl⟩
abbrev main_v303 : Ref sig .tc := ⟨.hbm, 375, rfl⟩
abbrev main_v304 : Ref sig .tc := ⟨.hbm, 376, rfl⟩
abbrev main_v305 : Ref sig .tc := ⟨.hbm, 377, rfl⟩
abbrev main_cst_52 : Ref sig .tc := ⟨.hbm, 378, rfl⟩
abbrev main_v306 : Ref sig .tc := ⟨.hbm, 379, rfl⟩
abbrev main_v307 : Ref sig .tc := ⟨.hbm, 380, rfl⟩
abbrev main_v308 : Ref sig .tc := ⟨.hbm, 381, rfl⟩
abbrev main_v309 : Ref sig .tc := ⟨.hbm, 382, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S800000_S800000x1_0 : S800000.BroadcastsInDim S800000x1 (![0] : Fin 1 → Fin S800000x1.rank)
  bcast_S_S800000 : S_.BroadcastsInDim S800000 (![] : Fin 0 → Fin S800000.rank)
  slices_S3x64x64_S1x64x64_0_0_0 : S3x64x64.Slices ![0, 0, 0] S1x64x64
  shapeCasts_S1x64x64_S64x64 : S1x64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x64x64_S1x64x64_1_0_0 : S3x64x64.Slices ![1, 0, 0] S1x64x64
  slices_S3x64x64_S1x64x64_2_0_0 : S3x64x64.Slices ![2, 0, 0] S1x64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.KRun.lean ====
/-
  The idealized kernel program's run with its result kept: every weakly fair execution of @main terminates, nothing
  faulting, and in the final state the result array holds what the last boundary of the run's fold holds for it —
  the contents `W6` of the buffers after the second grid has written its blocks back — while the sixteen argument
  arrays are as launched. @main is six segments (three stretches of host operations, the first grid, a stretch of
  host operations, the second grid); the thread state after the last one holds every unscoped buffer at `W6`, and
  the result buffer is one of them, read off the final state like the arguments.
-/
import proofs.«120836_j21062519620361_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this one, which takes unfolding
-- plain definitions in a metavariable's type
set_option backward.isDefEq.respectTransparency.types false in
/-- The run, with the result array named: after the six segments the result buffer holds the last boundary's
    contents for it, and every argument array its launch contents. -/
theorem run_value : θ_run defs (onTc (τ := τ) (main (F := F))) ⟨m, fun _ => 0, ρ⟩ (fun r => ∀ c : Dev nD,
      r.2.mem ((c.tc : Thread nD τ).loc main_v140) = W6 m ρ c (Proc.devRef .tc main_v140)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v140 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c)⟩)

end Cert.KernelIdeal.KRun

end
-- ==== Proof.Spec.lean ====
/-
  One step of a gated recurrent unit whose six linear maps are Chebyshev graph convolutions of order three, on the
  extended reals. The sparse propagation t ↦ L̂ t (gather along the edges, scale by the Laplacian weights, sum into the
  destination nodes) enters only as ONE function `P` of a node-feature array: nothing here looks inside it.

  A Chebyshev convolution of order three at node r and feature c is
      cheb t0 t1 t2 w b r c = ((Σ_k t0 r k · w 0 k c + Σ_k t1 r k · w 1 k c) + Σ_k t2 r k · w 2 k c) + b c
  with t1 = P t0 and t2 = 2 · P (P t0) − t0 (`step2`). It reads row r of each feature array only, so a tile of rows
  of the result is `cheb` of the same tile of rows of t0, t1, t2 (`cheb_rows`): this is what lets a kernel that
  walks the nodes tile by tile compute the whole array. Matrices are curried functions of their coordinates inside
  `cheb`, `gate`, `blend`, so that restriction to a tile is plain composition; `mat` / `unmat` pass between an array
  indexed by a shape's index type and that form.

  The step: z = σ(cheb X + cheb H) and r = σ(cheb X + cheb H) with their own weights (`gate`), h̃ = tanh(cheb X + cheb (H ⊙ r)),
  and the result z ⊙ H + (1 − z) ⊙ h̃ (`blend`); `gru` is the whole of it as one function of the arguments.
-/
import Idealize.ShloMosaic.PureOps.Ideal
import Idealize.ShloMosaic.Lib.ValueIdx

noncomputable section

open scoped BigOperators

namespace Cert.ChebGru

open Idealize.ShloMosaic Idealize.ShloMosaic.ValueIdx

/-- A node-feature array: 50000 nodes, 64 features. -/
abbrev Arr : Type := (⟨2, ![50000, 64]⟩ : Shape).Idx → EReal

/-- The float word of 1 and of 2, read at the extended reals (never evaluated: both programs print the same words). -/
abbrev one : EReal := Ideal.ofBits .f32 0x3F800000#32
abbrev two : EReal := Ideal.ofBits .f32 0x40000000#32

/-! ## Arrays and curried functions of coordinates -/

/-- A matrix read at its two coordinates. -/
def mat {a b : Nat} (x : (⟨2, ![a, b]⟩ : Shape).Idx → EReal) : Fin a → Fin b → EReal := fun r c => x (ix2 r c)
/-- A stack of matrices read at its three coordinates. -/
def cube {a b c : Nat} (x : (⟨3, ![a, b, c]⟩ : Shape).Idx → EReal) : Fin a → Fin b → Fin c → EReal :=
  fun s k q => x (ix3 s k q)
/-- A vector read at its coordinate. -/
def vec {n : Nat} (x : (⟨1, ![n]⟩ : Shape).Idx → EReal) : Fin n → EReal := fun q => x (ix1 q)
/-- A one-row matrix read at its column. -/
def row {n : Nat} (x : (⟨2, ![1, n]⟩ : Shape).Idx → EReal) : Fin n → EReal := fun q => x (ix2 0 q)
/-- A function of two coordinates as an array. -/
def unmat {a b : Nat} (f : Fin a → Fin b → EReal) : (⟨2, ![a, b]⟩ : Shape).Idx → EReal := fun i => f (i 0) (i 1)

@[simp] theorem unmat_ix2 {a b : Nat} (f : Fin a → Fin b → EReal) (r : Fin a) (c : Fin b) : unmat f (ix2 r c) = f r c := rfl
@[simp] theorem mat_unmat {a b : Nat} (f : Fin a → Fin b → EReal) : mat (unmat f) = f := rfl
theorem unmat_mat {a b : Nat} (x : (⟨2, ![a, b]⟩ : Shape).Idx → EReal) : unmat (mat x) = x := by
  funext i
  conv_rhs => rw [eq_ix2 i]
  rfl
theorem mat_apply {a b : Nat} (x : (⟨2, ![a, b]⟩ : Shape).Idx → EReal) (r : Fin a) (c : Fin b) : mat x r c = x (ix2 r c) := rfl

/-- Tile `t` of `B` rows of a matrix of `n` rows. -/
def rows {n : Nat} (B : Nat) (x : Fin n → Fin 64 → EReal) (t : Nat) (h : (t + 1) * B ≤ n) : Fin B → Fin 64 → EReal :=
  fun p k => x ⟨t * B + p.val, by have := p.isLt; nlinarith⟩ k

/-! ## The convolution, the gates and the combination, entry by entry -/

/-- A Chebyshev convolution of order three at row `r`, column `c`: three products of a feature row with a weight
    matrix, added left to right, plus the bias. -/
def cheb {n : Nat} (t0 t1 t2 : Fin n → Fin 64 → EReal) (w : Fin 3 → Fin 64 → Fin 64 → EReal) (b : Fin 64 → EReal)
    (r : Fin n) (c : Fin 64) : EReal :=
  (((∑ k : Fin 64, t0 r k * w 0 k c) + ∑ k : Fin 64, t1 r k * w 1 k c) + ∑ k : Fin 64, t2 r k * w 2 k c) + b c

/-- A gate: the logistic function of the sum of a convolution of the input features and one of the state. -/
def gate {n : Nat} (x0 x1 x2 h0 h1 h2 : Fin n → Fin 64 → EReal) (wx wh : Fin 3 → Fin 64 → Fin 64 → EReal)
    (bx bh : Fin 64 → EReal) (r : Fin n) (c : Fin 64) : EReal :=
  Ideal.logistic (cheb x0 x1 x2 wx bx r c + cheb h0 h1 h2 wh bh r c)

/-- The candidate state and the convex combination: z · h + (1 − z) · tanh (xh + cheb g). -/
def blend {n : Nat} (g0 g1 g2 : Fin n → Fin 64 → EReal) (w : Fin 3 → Fin 64 → Fin 64 → EReal) (b : Fin 64 → EReal)
    (xh z h : Fin n → Fin 64 → EReal) (r : Fin n) (c : Fin 64) : EReal :=
  z r c * h r c + (one - z r c) * Ideal.tanh (xh r c + cheb g0 g1 g2 w b r c)

/-- A convolution reads one row of each feature matrix: on a tile of rows it is the convolution of the tiles. -/
theorem cheb_rows {n : Nat} (B : Nat) (t0 t1 t2 : Fin n → Fin 64 → EReal) (w : Fin 3 → Fin 64 → Fin 64 → EReal)
    (b : Fin 64 → EReal) (t : Nat) (h : (t + 1) * B ≤ n) (p : Fin B) (c : Fin 64) :
    cheb (rows B t0 t h) (rows B t1 t h) (rows B t2 t h) w b p c
      = cheb t0 t1 t2 w b ⟨t * B + p.val, by have := p.isLt; nlinarith⟩ c := rfl

theorem gate_rows {n : Nat} (B : Nat) (x0 x1 x2 h0 h1 h2 : Fin n → Fin 64 → EReal) (wx wh : Fin 3 → Fin 64 → Fin 64 → EReal)
    (bx bh : Fin 64 → EReal) (t : Nat) (h : (t + 1) * B ≤ n) (p : Fin B) (c : Fin 64) :
    gate (rows B x0 t h) (rows B x1 t h) (rows B x2 t h) (rows B h0 t h) (rows B h1 t h) (rows B h2 t h) wx wh bx bh p c
      = gate x0 x1 x2 h0 h1 h2 wx wh bx bh ⟨t * B + p.val, by have := p.isLt; nlinarith⟩ c := rfl

theorem blend_rows {n : Nat} (B : Nat) (g0 g1 g2 : Fin n → Fin 64 → EReal) (w : Fin 3 → Fin 64 → Fin 64 → EReal)
    (b : Fin 64 → EReal) (xh z h' : Fin n → Fin 64 → EReal) (t : Nat) (h : (t + 1) * B ≤ n) (p : Fin B) (c : Fin 64) :
    blend (rows B g0 t h) (rows B g1 t h) (rows B g2 t h) w b (rows B xh t h) (rows B z t h) (rows B h' t h) p c
      = blend g0 g1 g2 w b xh z h' ⟨t * B + p.val, by have := p.isLt; nlinarith⟩ c := rfl

/-! ## Whole arrays -/

/-- A gate over whole node-feature arrays. -/
def gateA (X X1 X2 H H1 H2 : Arr) (wx wh : Fin 3 → Fin 64 → Fin 64 → EReal) (bx bh : Fin 64 → EReal) : Arr :=
  unmat (gate (mat X) (mat X1) (mat X2) (mat H) (mat H1) (mat H2) wx wh bx bh)

/-- A convolution over whole node-feature arrays. -/
def chebA (X X1 X2 : Arr) (w : Fin 3 → Fin 64 → Fin 64 → EReal) (b : Fin 64 → EReal) : Arr :=
  unmat (cheb (mat X) (mat X1) (mat X2) w b)

/-- The combination over whole node-feature arrays. -/
def blendA (G G1 G2 : Arr) (w : Fin 3 → Fin 64 → Fin 64 → EReal) (b : Fin 64 → EReal) (XH Z H : Arr) : Arr :=
  unmat (blend (mat G) (mat G1) (mat G2) w b (mat XH) (mat Z) (mat H))

/-- The second Chebyshev term: 2 · P (P t) − t. -/
def step2 (P : Arr → Arr) (t : Arr) : Arr := fun i => two * P (P t) i - t i

/-- The state gated by the reset gate, entry by entry. -/
def had (H R : Arr) : Arr := fun i => H i * R i

/-- The whole step as one function of the propagation `P`, the features `X`, the state `H`, six weight stacks and
    six biases. -/
def gru (P : Arr → Arr) (X H : Arr) (wxz whz wxr whr wxh whh : Fin 3 → Fin 64 → Fin 64 → EReal)
    (bxz bhz bxr bhr bxh bhh : Fin 64 → EReal) : Arr :=
  let Z := gateA X (P X) (step2 P X) H (P H) (step2 P H) wxz whz bxz bhz
  let R := gateA X (P X) (step2 P X) H (P H) (step2 P H) wxr whr bxr bhr
  let G := had H R
  blendA G (P G) (step2 P G) whh bhh (chebA X (P X) (step2 P X) wxh bxh) Z H

end Cert.ChebGru

end
-- ==== Proof.KHost.lean ====
import proofs.«120836_j21062519620361_1_alg».proof.Proof.Gen.KernelIdeal.Frame
import proofs.«120836_j21062519620361_1_alg».proof.Proof.Spec
import proofs.«120836_j21062519620361_1_alg».proof.Proof.RefReadP
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option pp.maxSteps 5000
set_option pp.deepTerms false

noncomputable section

namespace Cert.KernelIdeal.KHost

open Cert.KernelIdeal Cert.KernelIdeal.Gen Cert.ChebGru Idealize.ShloMosaic Idealize.ShloMosaic.ValueIdx
open Idealize.ShloMosaic.StableHlo Idealize.ShloMosaic.TcCoe Idealize.SL.Sem

variable (m : (ℓ : Loc nD τ sig) → Buf (Elt Ideal) ℓ) (ρ : Dev nD → PrngReg) (c : Dev nD)

/-! ## The sparse propagation, in the kernel program's own operations

The edge list `x1` holds a source word and a destination word per edge, `x2` a weight per edge. The degree of a node
is the sum of the weights of the edges leaving it; the Laplacian weight of an edge is
`-(d⁻¹ᐟ² at its source) · weight · (d⁻¹ᐟ² at its destination)`, with `d⁻¹ᐟ²` read as zero where the degree is not
positive. The propagation of a node-feature array gathers it along the sources, scales each row by the edge's
Laplacian weight and sums the rows into the destinations. -/

/-- The source node words: row 0 of the edge list. -/
def srcW (x1 : IVec S2x800000 32) : IVec S800000 32 :=
  shapeCast _ (extractStridedSlice S1x800000 ![0, 0] x1 slices_S2x800000_S1x800000_0_0) shapeCasts_S1x800000_S800000

/-- The destination node words: row 1 of the edge list. -/
def dstW (x1 : IVec S2x800000 32) : IVec S800000 32 :=
  shapeCast _ (extractStridedSlice S1x800000 ![1, 0] x1 slices_S2x800000_S1x800000_1_0) shapeCasts_S1x800000_S800000

/-- A node word wrapped into range: a negative word has the node count added. -/
def wrapW (w : IVec S800000 32) : IVec S800000 32 :=
  select (cmpi .slt w (broadcastInDim S800000 ![] bcast_S_S800000 (constantI S_ 32 0#32)))
    (addi w (broadcastInDim S800000 ![] bcast_S_S800000 (constantI S_ 32 50000#32))) w

/-- The degree of each node: the edge weights summed into the source nodes. -/
def degW (x1 : IVec S2x800000 32) (x2 : FVec Ideal S800000 .f32) : FVec Ideal S50000 .f32 :=
  Host.scatterAdd (F := Ideal) (φ := .f32) scatter_S50000_S800000x1_S800000_n_0_0_1
    (broadcastInDim S50000 ![] bcast_S_S50000 (constant (F := Ideal) S_ .f32 0x00000000#32))
    (broadcastInDim S800000x1 ![0] bcast_S800000_S800000x1_0 (srcW x1)) x2

/-- The inverse square root of the degree, zero where the degree is not positive. -/
def dinvW (x1 : IVec S2x800000 32) (x2 : FVec Ideal S800000 .f32) : FVec Ideal S50000 .f32 :=
  select (cmpf (F := Ideal) (φ := .f32) .ogt (degW x1 x2)
      (broadcastInDim S50000 ![] bcast_S_S50000 (constant (F := Ideal) S_ .f32 0x00000000#32)))
    (Host.rsqrt (F := Ideal) (φ := .f32) (maximumf (F := Ideal) (φ := .f32) (degW x1 x2)
      (broadcastInDim S50000 ![] bcast_S_S50000 (constant (F := Ideal) S_ .f32 0x2B8CBCCC#32))))
    (broadcastInDim S50000 ![] bcast_S_S50000 (constant (F := Ideal) S_ .f32 0x00000000#32))

/-- The Laplacian weight of each edge, from the edge words, the nodes' inverse square root degrees and the edge
    weights. -/
def lapOf (s d : IVec S800000 32) (q : FVec Ideal S50000 .f32) (x2 : FVec Ideal S800000 .f32) : FVec Ideal S800000 .f32 :=
  mulf (F := Ideal) (φ := .f32)
    (mulf (F := Ideal) (φ := .f32)
      (Host.negf (F := Ideal) (φ := .f32) (Host.gather gather_S50000_S800000x1_S800000_n_0_n_n_0_1_1 q
        (broadcastInDim S800000x1 ![0] bcast_S800000_S800000x1_0 (wrapW s)))) x2)
    (Host.gather gather_S50000_S800000x1_S800000_n_0_n_n_0_1_1 q
      (broadcastInDim S800000x1 ![0] bcast_S800000_S800000x1_0 (wrapW d)))

/-- The Laplacian weight of each edge. -/
def lapW (x1 : IVec S2x800000 32) (x2 : FVec Ideal S800000 .f32) : FVec Ideal S800000 .f32 :=
  lapOf (srcW x1) (dstW x1) (dinvW x1 x2) x2

/-- The propagation of a node-feature array from its edge words and Laplacian weights: rows gathered at the
    wrapped source words, scaled by the weights, summed into the destination words. -/
def propOf (s d : IVec S800000 32) (w : FVec Ideal S800000 .f32) (t : FVec Ideal S50000x64 .f32) : FVec Ideal S50000x64 .f32 :=
  Host.scatterAdd (F := Ideal) (φ := .f32) scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (mulf (F := Ideal) (φ := .f32)
      (broadcastInDim S800000x64 ![0, 1] bcast_S800000x1_S800000x64_0_1
        (broadcastInDim S800000x1 ![0] bcast_S800000_S800000x1_0 w))
      (Host.gather gather_S50000x64_S800000x1_S800000x64_1_0_n_n_0_1_164 t
        (broadcastInDim S800000x1 ![0] bcast_S800000_S800000x1_0 (wrapW s))))

/-- The float word of 2 on every entry of a node-feature array. -/
def twoA : FVec Ideal S50000x64 .f32 :=
  broadcastInDim S50000x64 ![] bcast_S_S50000x64 (constant (F := Ideal) S_ .f32 0x40000000#32)

/-- The second Chebyshev term of a node-feature array, in the program's operations: twice the propagation of the
    propagation, less the array. -/
def step2Of (s d : IVec S800000 32) (w : FVec Ideal S800000 .f32) (t : FVec Ideal S50000x64 .f32) : FVec Ideal S50000x64 .f32 :=
  subf (F := Ideal) (φ := .f32) (mulf (F := Ideal) (φ := .f32) twoA (propOf s d w (propOf s d w t))) t

/-- The float word of 2 at every entry. -/
theorem twoA_apply (i : S50000x64.Idx) : twoA i = two := rfl

theorem step2Of_eq (s d : IVec S800000 32) (w : FVec Ideal S800000 .f32) (t : FVec Ideal S50000x64 .f32) :
    step2Of s d w t = step2 (propOf s d w) t := by
  funext i
  show subf (F := Ideal) (φ := .f32) (mulf (F := Ideal) (φ := .f32) twoA (propOf s d w (propOf s d w t))) t i
    = two * propOf s d w (propOf s d w t) i - t i
  rw [subf_apply, mulf_apply, twoA_apply]

/-- A change of float format is the identity on the extended reals. -/
theorem truncf_bf16_id {s : Shape} (x : FVec Ideal s .f32) (h : FTy.bf16.bits < FTy.f32.bits) :
    (truncf (F := Ideal) .bf16 x h : s.Idx → EReal) = x := rfl

/-! ## The first two stretches: the edge words, the degrees, the inverse square roots -/

/-- The called selection writes, into its result's buffer, the selection of its operands' contents. -/
theorem sel_v12 (V : Valuation τ sig (Elt Ideal)) :
    after hostOps0_1 V (Proc.devRef .tc main_v12) =
      select (V (Proc.devRef .tc main_v8) : IVec S50000 1) (V (Proc.devRef .tc main_v11) : FVec Ideal S50000 .f32)
        (broadcastInDim S50000 ![] bcast_S_S50000 (V (Proc.devRef .tc main_cst_2) : FVec Ideal S_ .f32)) := rfl

theorem w1_v8 : W1 m ρ c (Proc.devRef .tc main_v8) = cmpf (F := Ideal) (φ := .f32) .ogt (degW (m ((c : Thread nD τ).loc main_arg1)) (m ((c : Thread nD τ).loc main_arg2)))
    (broadcastInDim S50000 ![] bcast_S_S50000 (constant (F := Ideal) S_ .f32 0x00000000#32)) := by
  show W1 m ρ c (Proc.devRef .tc main_v8) = _
  dsimp only [W1]
  simp only [hostOps0]
  after_results_simp <;> rfl

theorem w1_v11 : W1 m ρ c (Proc.devRef .tc main_v11) = Host.rsqrt (F := Ideal) (φ := .f32) (maximumf (F := Ideal) (φ := .f32)
    (degW (m ((c : Thread nD τ).loc main_arg1)) (m ((c : Thread nD τ).loc main_arg2))) (broadcastInDim S50000 ![] bcast_S_S50000 (constant (F := Ideal) S_ .f32 0x2B8CBCCC#32))) := by
  show W1 m ρ c (Proc.devRef .tc main_v11) = _
  dsimp only [W1]
  simp only [hostOps0]
  after_results_simp <;> rfl

theorem w1_cst_2 : W1 m ρ c (Proc.devRef .tc main_cst_2) = constant (F := Ideal) S_ .f32 0x00000000#32 := by
  show W1 m ρ c (Proc.devRef .tc main_cst_2) = _
  dsimp only [W1]
  simp only [hostOps0]
  after_results_simp <;> rfl

theorem w2_dinv : W2 m ρ c (Proc.devRef .tc main_v12) = dinvW (m ((c : Thread nD τ).loc main_arg1)) (m ((c : Thread nD τ).loc main_arg2)) := by
  show after hostOps0_1 (W1 m ρ c) (Proc.devRef .tc main_v12) = _
  rw [sel_v12 (W1 m ρ c), w1_v8, w1_v11, w1_cst_2]
  rfl

theorem w2_src : W2 m ρ c (Proc.devRef .tc main_v1) = srcW (m ((c : Thread nD τ).loc main_arg1)) := by
  show W2 m ρ c (Proc.devRef .tc main_v1) = _
  dsimp only [W2, W1]
  simp only [hostOps0_1, hostOps0]
  after_results_simp <;> rfl

theorem w2_dst : W2 m ρ c (Proc.devRef .tc main_v3) = dstW (m ((c : Thread nD τ).loc main_arg1)) := by
  show W2 m ρ c (Proc.devRef .tc main_v3) = _
  dsimp only [W2, W1]
  simp only [hostOps0_1, hostOps0]
  after_results_simp <;> rfl

theorem w2_arg0 : W2 m ρ c (Proc.devRef .tc main_arg0) = m ((c : Thread nD τ).loc main_arg0) := by
  show W2 m ρ c (Proc.devRef .tc main_arg0) = _
  dsimp only [W2, W1]
  simp only [hostOps0_1, hostOps0]
  after_results_simp <;> rfl

theorem w2_arg2 : W2 m ρ c (Proc.devRef .tc main_arg2) = m ((c : Thread nD τ).loc main_arg2) := by
  show W2 m ρ c (Proc.devRef .tc main_arg2) = _
  dsimp only [W2, W1]
  simp only [hostOps0_1, hostOps0]
  after_results_simp <;> rfl

theorem w2_arg3 : W2 m ρ c (Proc.devRef .tc main_arg3) = m ((c : Thread nD τ).loc main_arg3) := by
  show W2 m ρ c (Proc.devRef .tc main_arg3) = _
  dsimp only [W2, W1]
  simp only [hostOps0_1, hostOps0]
  after_results_simp <;> rfl

theorem w2_arg4 : W2 m ρ c (Proc.devRef .tc main_arg4) = m ((c : Thread nD τ).loc main_arg4) := by
  show W2 m ρ c (Proc.devRef .tc main_arg4) = _
  dsimp only [W2, W1]
  simp only [hostOps0_1, hostOps0]
  after_results_simp <;> rfl

theorem w2_arg5 : W2 m ρ c (Proc.devRef .tc main_arg5) = m ((c : Thread nD τ).loc main_arg5) := by
  show W2 m ρ c (Proc.devRef .tc main_arg5) = _
  dsimp only [W2, W1]
  simp only [hostOps0_1, hostOps0]
  after_results_simp <;> rfl

theorem w2_arg6 : W2 m ρ c (Proc.devRef .tc main_arg6) = m ((c : Thread nD τ).loc main_arg6) := by
  show W2 m ρ c (Proc.devRef .tc main_arg6) = _
  dsimp only [W2, W1]
  simp only [hostOps0_1, hostOps0]
  after_results_simp <;> rfl

theorem w2_arg7 : W2 m ρ c (Proc.devRef .tc main_arg7) = m ((c : Thread nD τ).loc main_arg7) := by
  show W2 m ρ c (Proc.devRef .tc main_arg7) = _
  dsimp only [W2, W1]
  simp only [hostOps0_1, hostOps0]
  after_results_simp <;> rfl

theorem w2_arg8 : W2 m ρ c (Proc.devRef .tc main_arg8) = m ((c : Thread nD τ).loc main_arg8) := by
  show W2 m ρ c (Proc.devRef .tc main_arg8) = _
  dsimp only [W2, W1]
  simp only [hostOps0_1, hostOps0]
  after_results_simp <;> rfl

theorem w2_arg9 : W2 m ρ c (Proc.devRef .tc main_arg9) = m ((c : Thread nD τ).loc main_arg9) := by
  show W2 m ρ c (Proc.devRef .tc main_arg9) = _
  dsimp only [W2, W1]
  simp only [hostOps0_1, hostOps0]
  after_results_simp <;> rfl

theorem w2_arg10 : W2 m ρ c (Proc.devRef .tc main_arg10) = m ((c : Thread nD τ).loc main_arg10) := by
  show W2 m ρ c (Proc.devRef .tc main_arg10) = _
  dsimp only [W2, W1]
  simp only [hostOps0_1, hostOps0]
  after_results_simp <;> rfl

theorem w2_arg11 : W2 m ρ c (Proc.devRef .tc main_arg11) = m ((c : Thread nD τ).loc main_arg11) := by
  show W2 m ρ c (Proc.devRef .tc main_arg11) = _
  dsimp only [W2, W1]
  simp only [hostOps0_1, hostOps0]
  after_results_simp <;> rfl

theorem w2_arg12 : W2 m ρ c (Proc.devRef .tc main_arg12) = m ((c : Thread nD τ).loc main_arg12) := by
  show W2 m ρ c (Proc.devRef .tc main_arg12) = _
  dsimp only [W2, W1]
  simp only [hostOps0_1, hostOps0]
  after_results_simp <;> rfl

theorem w2_arg13 : W2 m ρ c (Proc.devRef .tc main_arg13) = m ((c : Thread nD τ).loc main_arg13) := by
  show W2 m ρ c (Proc.devRef .tc main_arg13) = _
  dsimp only [W2, W1]
  simp only [hostOps0_1, hostOps0]
  after_results_simp <;> rfl

theorem w2_arg14 : W2 m ρ c (Proc.devRef .tc main_arg14) = m ((c : Thread nD τ).loc main_arg14) := by
  show W2 m ρ c (Proc.devRef .tc main_arg14) = _
  dsimp only [W2, W1]
  simp only [hostOps0_1, hostOps0]
  after_results_simp <;> rfl

theorem w2_arg15 : W2 m ρ c (Proc.devRef .tc main_arg15) = m ((c : Thread nD τ).loc main_arg15) := by
  show W2 m ρ c (Proc.devRef .tc main_arg15) = _
  dsimp only [W2, W1]
  simp only [hostOps0_1, hostOps0]
  after_results_simp <;> rfl

/-! ## The long stretch before the first call, over any contents at its start -/

variable (V : Valuation τ sig (Elt Ideal))

set_option maxHeartbeats 1000000 in
theorem s2_lap : after hostOps0_2 V (Proc.devRef .tc main_v29) = (lapOf (V (Proc.devRef .tc main_v1)) (V (Proc.devRef .tc main_v3)) (V (Proc.devRef .tc main_v12)) (V (Proc.devRef .tc main_arg2))) := by
  simp only [hostOps0_2]
  after_results_simp <;> rfl

set_option maxHeartbeats 1000000 in
theorem s2_v88 : after hostOps0_2 V (Proc.devRef .tc main_v88) = V (Proc.devRef .tc main_arg0) := by
  simp only [hostOps0_2]
  after_results_simp <;> rfl

set_option maxHeartbeats 1000000 in
theorem s2_v89 : after hostOps0_2 V (Proc.devRef .tc main_v89) = propOf (V (Proc.devRef .tc main_v1)) (V (Proc.devRef .tc main_v3)) (lapOf (V (Proc.devRef .tc main_v1)) (V (Proc.devRef .tc main_v3)) (V (Proc.devRef .tc main_v12)) (V (Proc.devRef .tc main_arg2))) (V (Proc.devRef .tc main_arg0)) := by
  simp only [hostOps0_2]
  after_results_simp
  exact (truncf_bf16_id _ _).trans rfl

set_option maxHeartbeats 1000000 in
theorem s2_v90 : after hostOps0_2 V (Proc.devRef .tc main_v90) = step2Of (V (Proc.devRef .tc main_v1)) (V (Proc.devRef .tc main_v3)) (lapOf (V (Proc.devRef .tc main_v1)) (V (Proc.devRef .tc main_v3)) (V (Proc.devRef .tc main_v12)) (V (Proc.devRef .tc main_arg2))) (V (Proc.devRef .tc main_arg0)) := by
  simp only [hostOps0_2]
  after_results_simp
  exact (truncf_bf16_id _ _).trans rfl

/-! ## The same functions in the reference's vocabulary -/

theorem src_ref (x1 : IVec S2x800000 32) : srcW x1 = Cert.ReferenceIdeal.ReadP.val_main_v1 (F := Ideal) x1 := rfl
theorem dst_ref (x1 : IVec S2x800000 32) : dstW x1 = Cert.ReferenceIdeal.ReadP.val_main_v3 (F := Ideal) x1 := rfl
theorem lap_ref (x1 : IVec S2x800000 32) (x2 : FVec Ideal S800000 .f32) :
    lapW x1 x2 = Cert.ReferenceIdeal.ReadP.val_main_v29 (F := Ideal) x1 x2 := rfl
theorem prop_ref (x1 : IVec S2x800000 32) (x2 : FVec Ideal S800000 .f32) (t : FVec Ideal S50000x64 .f32) :
    propOf (srcW x1) (dstW x1) (lapW x1 x2) t = Cert.ReferenceIdeal.ReadP.val_main_v45 (F := Ideal) t x1 x2 := rfl

end Cert.KernelIdeal.KHost
end
-- ==== Proof.KHostB.lean ====
/-
  The long stretch of host operations before the first grid, continued: what it leaves for the state's three
  Chebyshev terms, for the six weight stacks and for the six biases, over any contents at its start.

  The state side repeats the input side's chain on the state array: its propagation, and twice the propagation of the
  propagation less the array. A weight stack is passed on with only its float format changed, which at the extended
  reals changes nothing. A bias [64] is passed on reshaped to one row [1,64]. The edge words, the Laplacian weights'
  inputs and the state array themselves are written by no operation of the stretch.
-/
import proofs.«120836_j21062519620361_1_alg».proof.Proof.KHost

noncomputable section

namespace Cert.KernelIdeal.KHost

open Cert.KernelIdeal Cert.KernelIdeal.Gen Cert.ChebGru Idealize.ShloMosaic Idealize.ShloMosaic.ValueIdx
open Idealize.ShloMosaic.StableHlo Idealize.ShloMosaic.TcCoe Idealize.SL.Sem

variable (V : Valuation τ sig (Elt Ideal))

/-! ## The state's three terms -/

set_option maxHeartbeats 1000000 in
/-- The state array itself. -/
theorem s2_v91 : after hostOps0_2 V (Proc.devRef .tc main_v91) = V (Proc.devRef .tc main_arg3) := by
  simp only [hostOps0_2]
  after_results_simp <;> rfl

set_option maxHeartbeats 1000000 in
/-- Its propagation. -/
theorem s2_v92 : after hostOps0_2 V (Proc.devRef .tc main_v92) = propOf (V (Proc.devRef .tc main_v1)) (V (Proc.devRef .tc main_v3)) (lapOf (V (Proc.devRef .tc main_v1)) (V (Proc.devRef .tc main_v3)) (V (Proc.devRef .tc main_v12)) (V (Proc.devRef .tc main_arg2))) (V (Proc.devRef .tc main_arg3)) := by
  simp only [hostOps0_2]
  after_results_simp
  exact (truncf_bf16_id _ _).trans rfl

set_option maxHeartbeats 1000000 in
/-- Its second Chebyshev term. -/
theorem s2_v93 : after hostOps0_2 V (Proc.devRef .tc main_v93) = step2Of (V (Proc.devRef .tc main_v1)) (V (Proc.devRef .tc main_v3)) (lapOf (V (Proc.devRef .tc main_v1)) (V (Proc.devRef .tc main_v3)) (V (Proc.devRef .tc main_v12)) (V (Proc.devRef .tc main_arg2))) (V (Proc.devRef .tc main_arg3)) := by
  simp only [hostOps0_2]
  after_results_simp
  exact (truncf_bf16_id _ _).trans rfl

/-! ## The weight stacks and the biases -/

set_option maxHeartbeats 1000000 in
/-- A weight stack passes with only its float format changed. -/
theorem s2_v94 : after hostOps0_2 V (Proc.devRef .tc main_v94) = V (Proc.devRef .tc main_arg4) := by
  simp only [hostOps0_2]
  after_results_simp <;> rfl

set_option maxHeartbeats 1000000 in
theorem s2_v95 : after hostOps0_2 V (Proc.devRef .tc main_v95) = V (Proc.devRef .tc main_arg5) := by
  simp only [hostOps0_2]
  after_results_simp <;> rfl

set_option maxHeartbeats 1000000 in
theorem s2_v96 : after hostOps0_2 V (Proc.devRef .tc main_v96) = V (Proc.devRef .tc main_arg6) := by
  simp only [hostOps0_2]
  after_results_simp <;> rfl

set_option maxHeartbeats 1000000 in
theorem s2_v97 : after hostOps0_2 V (Proc.devRef .tc main_v97) = V (Proc.devRef .tc main_arg7) := by
  simp only [hostOps0_2]
  after_results_simp <;> rfl

set_option maxHeartbeats 1000000 in
theorem s2_v98 : after hostOps0_2 V (Proc.devRef .tc main_v98) = V (Proc.devRef .tc main_arg8) := by
  simp only [hostOps0_2]
  after_results_simp <;> rfl

set_option maxHeartbeats 1000000 in
theorem s2_v99 : after hostOps0_2 V (Proc.devRef .tc main_v99) = V (Proc.devRef .tc main_arg9) := by
  simp only [hostOps0_2]
  after_results_simp <;> rfl

set_option maxHeartbeats 1000000 in
/-- A bias passes reshaped to one row. -/
theorem s2_v100 : after hostOps0_2 V (Proc.devRef .tc main_v100) = shapeCast S1x64 (V (Proc.devRef .tc main_arg10) : FVec Ideal S64 .f32) shapeCasts_S64_S1x64 := by
  simp only [hostOps0_2]
  after_results_simp <;> rfl

set_option maxHeartbeats 1000000 in
theorem s2_v101 : after hostOps0_2 V (Proc.devRef .tc main_v101) = shapeCast S1x64 (V (Proc.devRef .tc main_arg11) : FVec Ideal S64 .f32) shapeCasts_S64_S1x64 := by
  simp only [hostOps0_2]
  after_results_simp <;> rfl

set_option maxHeartbeats 1000000 in
theorem s2_v102 : after hostOps0_2 V (Proc.devRef .tc main_v102) = shapeCast S1x64 (V (Proc.devRef .tc main_arg12) : FVec Ideal S64 .f32) shapeCasts_S64_S1x64 := by
  simp only [hostOps0_2]
  after_results_simp <;> rfl

set_option maxHeartbeats 1000000 in
theorem s2_v103 : after hostOps0_2 V (Proc.devRef .tc main_v103) = shapeCast S1x64 (V (Proc.devRef .tc main_arg13) : FVec Ideal S64 .f32) shapeCasts_S64_S1x64 := by
  simp only [hostOps0_2]
  after_results_simp <;> rfl

set_option maxHeartbeats 1000000 in
theorem s2_v104 : after hostOps0_2 V (Proc.devRef .tc main_v104) = shapeCast S1x64 (V (Proc.devRef .tc main_arg14) : FVec Ideal S64 .f32) shapeCasts_S64_S1x64 := by
  simp only [hostOps0_2]
  after_results_simp <;> rfl

set_option maxHeartbeats 1000000 in
theorem s2_v105 : after hostOps0_2 V (Proc.devRef .tc main_v105) = shapeCast S1x64 (V (Proc.devRef .tc main_arg15) : FVec Ideal S64 .f32) shapeCasts_S64_S1x64 := by
  simp only [hostOps0_2]
  after_results_simp <;> rfl

/-! ## What the stretch does not write -/

set_option maxHeartbeats 1000000 in
/-- The source words. -/
theorem s2_v1 : after hostOps0_2 V (Proc.devRef .tc main_v1) = V (Proc.devRef .tc main_v1) := by
  simp only [hostOps0_2]
  after_results_simp <;> rfl

set_option maxHeartbeats 1000000 in
/-- The destination words. -/
theorem s2_v3 : after hostOps0_2 V (Proc.devRef .tc main_v3) = V (Proc.devRef .tc main_v3) := by
  simp only [hostOps0_2]
  after_results_simp <;> rfl

set_option maxHeartbeats 1000000 in
/-- The state array. -/
theorem s2_arg3 : after hostOps0_2 V (Proc.devRef .tc main_arg3) = V (Proc.devRef .tc main_arg3) := by
  simp only [hostOps0_2]
  after_results_simp <;> rfl

end Cert.KernelIdeal.KHost

end
-- ==== Proof.KHost1.lean ====
/-
  The stretch of host operations between the two grids, over any contents at its start.

  It multiplies the state by the reset gate entry by entry, propagates the product, and forms the product's second
  Chebyshev term (twice the propagation of the propagation, less the product), reading the edge words and the
  Laplacian weights the first stretch left. It writes none of the second grid's other operands: the candidate's
  state-side weight stack and bias, the first grid's update gate and input-side convolution, and the state array.
-/
import proofs.«120836_j21062519620361_1_alg».proof.Proof.KHost

noncomputable section

namespace Cert.KernelIdeal.KHost

open Cert.KernelIdeal Cert.KernelIdeal.Gen Cert.ChebGru Idealize.ShloMosaic Idealize.ShloMosaic.ValueIdx
open Idealize.ShloMosaic.StableHlo Idealize.ShloMosaic.TcCoe Idealize.SL.Sem

variable (V : Valuation τ sig (Elt Ideal))

/-! ## The gated state's three terms -/

set_option maxHeartbeats 1000000 in
/-- The state times the reset gate. -/
theorem s3_v137 : after hostOps1 V (Proc.devRef .tc main_v137) = (mulf (F := Ideal) (φ := .f32) (V (Proc.devRef .tc main_arg3)) (V (Proc.devRef .tc main_v106_1))) := by
  simp only [hostOps1]
  after_results_simp
  exact (truncf_bf16_id _ _).trans rfl

set_option maxHeartbeats 1000000 in
/-- Its propagation. -/
theorem s3_v138 : after hostOps1 V (Proc.devRef .tc main_v138) = propOf (V (Proc.devRef .tc main_v1)) (V (Proc.devRef .tc main_v3)) (V (Proc.devRef .tc main_v29)) (mulf (F := Ideal) (φ := .f32) (V (Proc.devRef .tc main_arg3)) (V (Proc.devRef .tc main_v106_1))) := by
  simp only [hostOps1]
  after_results_simp
  exact (truncf_bf16_id _ _).trans rfl

set_option maxHeartbeats 1000000 in
/-- Its second Chebyshev term. -/
theorem s3_v139 : after hostOps1 V (Proc.devRef .tc main_v139) = step2Of (V (Proc.devRef .tc main_v1)) (V (Proc.devRef .tc main_v3)) (V (Proc.devRef .tc main_v29)) (mulf (F := Ideal) (φ := .f32) (V (Proc.devRef .tc main_arg3)) (V (Proc.devRef .tc main_v106_1))) := by
  simp only [hostOps1]
  after_results_simp
  exact (truncf_bf16_id _ _).trans rfl

/-! ## What the stretch does not write -/

set_option maxHeartbeats 1000000 in
theorem s3_v99 : after hostOps1 V (Proc.devRef .tc main_v99) = V (Proc.devRef .tc main_v99) := by
  simp only [hostOps1]
  after_results_simp <;> rfl

set_option maxHeartbeats 1000000 in
theorem s3_v105 : after hostOps1 V (Proc.devRef .tc main_v105) = V (Proc.devRef .tc main_v105) := by
  simp only [hostOps1]
  after_results_simp <;> rfl

set_option maxHeartbeats 1000000 in
theorem s3_v106_0 : after hostOps1 V (Proc.devRef .tc main_v106_0) = V (Proc.devRef .tc main_v106_0) := by
  simp only [hostOps1]
  after_results_simp <;> rfl

set_option maxHeartbeats 1000000 in
theorem s3_v106_2 : after hostOps1 V (Proc.devRef .tc main_v106_2) = V (Proc.devRef .tc main_v106_2) := by
  simp only [hostOps1]
  after_results_simp <;> rfl

set_option maxHeartbeats 1000000 in
theorem s3_arg3 : after hostOps1 V (Proc.devRef .tc main_arg3) = V (Proc.devRef .tc main_arg3) := by
  simp only [hostOps1]
  after_results_simp <;> rfl

end Cert.KernelIdeal.KHost

end
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.KCheb.lean ====
/-
  One Chebyshev convolution of order three as the kernel's body computes it on a tile of 5000 rows: three
  matrix products into a zero accumulator, each of a tile of features [5000, 64] with one [64, 64] slice of the
  weight stack [3, 64, 64], added left to right, plus the bias row broadcast over the tile. Read at row p and
  column q this is `cheb` of the three tiles, the weight stack and the bias.
-/
import proofs.«120836_j21062519620361_1_alg».proof.KernelIdeal
import proofs.«120836_j21062519620361_1_alg».proof.Proof.Spec
import proofs.«120836_j21062519620361_1_alg».proof.Proof.LibPlainDot
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.KCheb

open Cert.KernelIdeal Cert.ChebGru Idealize.ShloMosaic Idealize.ShloMosaic.ValueIdx

variable [Facts₀]
open Facts₀

/-- Slice `s` of the weight stack, with its leading unit axis dropped, read at row `k` and column `q`: the stack
    at `(s, k, q)`. The slice starts at offset `o = s` on the first axis and at zero on the other two. -/
theorem wslice_apply (o : ℕ) (s : Fin 3) (hs : s.val = o) (w : FVec Ideal S3x64x64 .bf16)
    (h : S3x64x64.Slices ![o, 0, 0] S1x64x64) (hc : S1x64x64.ShapeCasts S64x64) (k q : Fin 64) :
    shapeCast S64x64 (extractStridedSlice S1x64x64 ![o, 0, 0] w h) hc (ix2 k q) = cube w s k q := by
  rw [shapeCast_1ab_ab_apply]
  refine extractStridedSlice_apply _ w h _ (ix3 s k q) fun a => ?_
  match a with
  | ⟨0, _⟩ => exact hs.trans (Nat.add_zero o).symm
  | ⟨1, _⟩ => exact (Nat.zero_add _).symm
  | ⟨2, _⟩ => exact (Nat.zero_add _).symm

/-- One matrix product of the body into the zero accumulator, read at row `p` and column `q`: the sum over the 64
    contracted features of the tile at `(p, k)` times the weight slice at `(k, q)`. -/
theorem dot_apply (o : ℕ) (s : Fin 3) (hs : s.val = o) (l : FVec Ideal S5000x64 .bf16) (w : FVec Ideal S3x64x64 .bf16)
    (h : S3x64x64.Slices ![o, 0, 0] S1x64x64) (hc : S1x64x64.ShapeCasts S64x64) (p : Fin 5000) (q : Fin 64) :
    matmul dot_S5000x64_S64x64_S5000x64_1_0_0_1_n_n none l
        (shapeCast S64x64 (extractStridedSlice S1x64x64 ![o, 0, 0] w h) hc)
        (constant S5000x64 .f32 0x00000000#32) (ix2 p q)
      = ∑ k : Fin 64, mat l p k * cube w s k q := by
  refine (Ideal.matmul_constant_zero_apply dot_S5000x64_S64x64_S5000x64_1_0_0_1_n_n none l _ (ix2 p q)).trans ?_
  refine (Cert.Lib.PlainDot.sum_rows_cols dot_S5000x64_S64x64_S5000x64_1_0_0_1_n_n rfl rfl
    (fun _ _ => rfl) (fun _ _ => rfl) (fun _ _ => rfl) (fun _ _ => rfl) l _ (ix2 p q)).trans ?_
  refine Finset.sum_congr rfl fun k _ => ?_
  exact congrArg (mat l p k * ·) (wslice_apply o s hs w h hc k q)

/-- The three products of the body, at the literal offsets its weight slices are cut at. -/
theorem dot_apply_0 (l : FVec Ideal S5000x64 .bf16) (w : FVec Ideal S3x64x64 .bf16) (p : Fin 5000) (q : Fin 64) :
    matmul dot_S5000x64_S64x64_S5000x64_1_0_0_1_n_n none l
        (shapeCast S64x64 (extractStridedSlice S1x64x64 ![0, 0, 0] w slices_S3x64x64_o0_0_0_S1x64x64) shapeCasts_S1x64x64_S64x64)
        (constant S5000x64 .f32 0x00000000#32) (ix2 p q)
      = ∑ k : Fin 64, mat l p k * cube w 0 k q :=
  dot_apply 0 0 rfl l w _ _ p q

theorem dot_apply_1 (l : FVec Ideal S5000x64 .bf16) (w : FVec Ideal S3x64x64 .bf16) (p : Fin 5000) (q : Fin 64) :
    matmul dot_S5000x64_S64x64_S5000x64_1_0_0_1_n_n none l
        (shapeCast S64x64 (extractStridedSlice S1x64x64 ![1, 0, 0] w slices_S3x64x64_o1_0_0_S1x64x64) shapeCasts_S1x64x64_S64x64)
        (constant S5000x64 .f32 0x00000000#32) (ix2 p q)
      = ∑ k : Fin 64, mat l p k * cube w 1 k q :=
  dot_apply 1 1 rfl l w _ _ p q

theorem dot_apply_2 (l : FVec Ideal S5000x64 .bf16) (w : FVec Ideal S3x64x64 .bf16) (p : Fin 5000) (q : Fin 64) :
    matmul dot_S5000x64_S64x64_S5000x64_1_0_0_1_n_n none l
        (shapeCast S64x64 (extractStridedSlice S1x64x64 ![2, 0, 0] w slices_S3x64x64_o2_0_0_S1x64x64) shapeCasts_S1x64x64_S64x64)
        (constant S5000x64 .f32 0x00000000#32) (ix2 p q)
      = ∑ k : Fin 64, mat l p k * cube w 2 k q :=
  dot_apply 2 2 rfl l w _ _ p q

/-- The body's convolution read at row `p` and column `q` of the tile: the three products added left to right,
    plus the bias row, which the broadcast repeats on every row of the tile. -/
theorem conv_apply (l0 l1 l2 : FVec Ideal S5000x64 .bf16) (w : FVec Ideal S3x64x64 .bf16) (b : FVec Ideal S1x64 .f32)
    (p : Fin 5000) (q : Fin 64) :
    addf (addf (addf
        (matmul dot_S5000x64_S64x64_S5000x64_1_0_0_1_n_n none l0
          (shapeCast S64x64 (extractStridedSlice S1x64x64 ![0, 0, 0] w slices_S3x64x64_o0_0_0_S1x64x64) shapeCasts_S1x64x64_S64x64)
          (constant S5000x64 .f32 0x00000000#32))
        (matmul dot_S5000x64_S64x64_S5000x64_1_0_0_1_n_n none l1
          (shapeCast S64x64 (extractStridedSlice S1x64x64 ![1, 0, 0] w slices_S3x64x64_o1_0_0_S1x64x64) shapeCasts_S1x64x64_S64x64)
          (constant S5000x64 .f32 0x00000000#32)))
        (matmul dot_S5000x64_S64x64_S5000x64_1_0_0_1_n_n none l2
          (shapeCast S64x64 (extractStridedSlice S1x64x64 ![2, 0, 0] w slices_S3x64x64_o2_0_0_S1x64x64) shapeCasts_S1x64x64_S64x64)
          (constant S5000x64 .f32 0x00000000#32)))
        (broadcastTo S5000x64 b broadcasts_S1x64_S5000x64) (ix2 p q)
      = cheb (mat l0) (mat l1) (mat l2) (cube w) (row b) p q := by
  rw [addf_apply, addf_apply, addf_apply, dot_apply_0, dot_apply_1, dot_apply_2, broadcastTo_1b_ab_apply]
  rfl

end Cert.KernelIdeal.KCheb

end
-- ==== Proof.Body0.lean ====
/-
  The body of region 0 at an entry of a tile of 5000 rows.

  With the six feature tiles x0 … x5 (the same 5000 rows of X, L̂ X, 2 L̂ L̂ X − X and of H, L̂ H, 2 L̂ L̂ H − H), the five
  weight stacks x6 … x10 and the five bias rows x11 … x15, the three stores of the body hold, at row p and column q,

      σ (cheb x0 x1 x2 x6 x11 + cheb x3 x4 x5 x7 x12),   σ (cheb x0 x1 x2 x8 x13 + cheb x3 x4 x5 x9 x14),   cheb x0 x1 x2 x10 x15.

  Each stored value is a tree of one form: three products of a feature tile with a slice of a weight stack, added left
  to right, the bias row added to every row; for the two gates, two such sums added and the logistic function applied.
  A cast between equal shapes is the identity, a load of a whole buffer reads it, and the sum of three products and the
  bias is cheb at (p, q) by the convolution lemma; the additions already stand in cheb's order ((d0 + d1) + d2) + bias.
-/
import proofs.«120836_j21062519620361_1_alg».proof.Proof.Gen.KernelIdeal.Frame
import proofs.«120836_j21062519620361_1_alg».proof.Proof.Spec
import proofs.«120836_j21062519620361_1_alg».proof.Proof.KCheb
import Idealize.ShloMosaic.Lib.ValueIdx
import Idealize.ShloMosaic.Lib.Pipeline.Value

noncomputable section

namespace Cert.KernelIdeal.Region0

open Cert.KernelIdeal Cert.KernelIdeal.Gen Cert.ChebGru Idealize.ShloMosaic Idealize.ShloMosaic.ValueIdx

theorem hz2 : (![0, 0] : Fin 2 → Nat) = fun _ => 0 := funext fun a => by fin_cases a <;> rfl
theorem hz3 : (![0, 0, 0] : Fin 3 → Nat) = fun _ => 0 := funext fun a => by fin_cases a <;> rfl

section Body
variable (x0 x1 x2 x3 x4 x5 : Vec Ideal S5000x64 .bf16) (x6 x7 x8 x9 x10 : Vec Ideal S3x64x64 .bf16)
  (x11 x12 x13 x14 x15 : Vec Ideal S1x64 .f32) (p : Fin 5000) (q : Fin 64)

/-- The first store: the logistic function of the convolution of the input tiles (weights x6, bias x11) plus the
    convolution of the state tiles (weights x7, bias x12). The state side's three products are added in the order
    ((d0 + d1) + d2) + bias, the same as the convolution's. -/
theorem body16 :
    out0_16 x0 x1 x2 x3 x4 x5 x6 x7 x8 x9 x10 x11 x12 x13 x14 x15 (ix2 p q)
      = gate (mat x0) (mat x1) (mat x2) (mat x3) (mat x4) (mat x5) (cube x6) (cube x7) (row x11) (row x12) p q := by
  unfold out0_16
  rw [View.canon_unit_zero hz2]
  simp only [View.ld_unit_zero (S := S5000x64) hz2, View.ld_unit_zero (S := S3x64x64) hz3, View.ld_unit_zero (S := S1x64) hz2]
  unfold k0_pay13 k0_pay9 k0_pay11 k0_pay12
  unfold k0_pay10 k0_pay3 k0_pay4 k0_pay5 k0_pay6 k0_pay7 k0_pay8
  simp only [shapeCast_self]
  exact congrArg Ideal.logistic (congrArg₂ (· + ·) (KCheb.conv_apply x0 x1 x2 x6 x11 p q) (KCheb.conv_apply x3 x4 x5 x7 x12 p q))

/-- The second store: the same with weights x8, x9 and biases x13, x14. -/
theorem body17 :
    out0_17 x0 x1 x2 x3 x4 x5 x6 x7 x8 x9 x10 x11 x12 x13 x14 x15 (ix2 p q)
      = gate (mat x0) (mat x1) (mat x2) (mat x3) (mat x4) (mat x5) (cube x8) (cube x9) (row x13) (row x14) p q := by
  unfold out0_17
  rw [View.canon_unit_zero hz2]
  simp only [View.ld_unit_zero (S := S5000x64) hz2, View.ld_unit_zero (S := S3x64x64) hz3, View.ld_unit_zero (S := S1x64) hz2]
  unfold k0_pay1 k0_pay14 k0_pay16
  unfold k0_pay15 k0_pay3 k0_pay4 k0_pay5 k0_pay6 k0_pay7 k0_pay8
  simp only [shapeCast_self]
  exact congrArg Ideal.logistic (congrArg₂ (· + ·) (KCheb.conv_apply x0 x1 x2 x8 x13 p q) (KCheb.conv_apply x3 x4 x5 x9 x14 p q))

/-- The third store: the convolution of the input tiles with weights x10 and bias x15. -/
theorem body18 :
    out0_18 x0 x1 x2 x3 x4 x5 x6 x7 x8 x9 x10 x11 x12 x13 x14 x15 (ix2 p q)
      = cheb (mat x0) (mat x1) (mat x2) (cube x10) (row x15) p q := by
  unfold out0_18
  rw [View.canon_unit_zero hz2]
  simp only [View.ld_unit_zero (S := S5000x64) hz2, View.ld_unit_zero (S := S3x64x64) hz3, View.ld_unit_zero (S := S1x64) hz2]
  unfold k0_pay2 k0_pay3 k0_pay4 k0_pay5
  simp only [shapeCast_self]
  exact KCheb.conv_apply x0 x1 x2 x10 x15 p q

end Body

end Cert.KernelIdeal.Region0

end
-- ==== Proof.Region0.lean ====
/-
  Region 0 of the step, on whole arrays: after its ten grid points the three output arrays hold

      Z  = σ (cheb X (L̂ X) (2 L̂ L̂ X − X) + cheb H (L̂ H) (2 L̂ L̂ H − H))      with the update gate's weights and biases,
      R  = the same with the reset gate's weights and biases,
      XH = cheb X (L̂ X) (2 L̂ L̂ X − X)                                        with the candidate's input-side weights and bias,

  as functions of the six feature arrays, five weight stacks and five bias rows the region finds on entry.

  Point t of the grid reads tile t (rows 5000 t … 5000 t + 4999) of each feature array and the weight stacks and bias
  rows whole, and writes tile t of each output. An entry of a block sits in its array, on each axis, at
  block index × block size + its coordinate inside the block; so a feature block is a tile of rows of its array, a weight
  or bias block is the whole array, and what point t writes back is tile t of ONE function of the whole arrays, because a
  gate or a convolution at row r reads row r of each feature array only. The ten tiles cover the 50000 rows (row r lies
  in tile r / 5000), so each output array ends holding that function.
-/
import proofs.«120836_j21062519620361_1_alg».proof.Proof.Body0
import Idealize.ShloMosaic.Lib.ValueIdx
import Idealize.ShloMosaic.Lib.Pipeline.Value

noncomputable section

namespace Cert.KernelIdeal.Region0

open Cert.KernelIdeal Cert.KernelIdeal.Gen Cert.ChebGru Idealize.ShloMosaic Idealize.ShloMosaic.ValueIdx
open Idealize.ShloMosaic.TcCoe
open Idealize.ShloMosaic.Pipeline (Dat)

/- The contents of the buffers when the region is entered. -/
variable (V : (c : Dev nD) → (b : Ref sig .tc) → Buf (Elt Ideal) ((c : Thread nD τ).loc b))

/-- Every point of the grid is one of ten. -/
theorem t_lt (t : Fin cfg0.N) : t.val < 10 := by have h : cfg0.N = 10 := N_0; have := t.isLt; omega

/-- Tile t of 5000 rows lies inside the 50000 rows. -/
theorem tile_le (t : Fin cfg0.N) : (t.val + 1) * 5000 ≤ 50000 := by have := t_lt t; omega

/-! ## The block index of every window at every point

A feature window and an output window are at block (t, 0) at point t; a weight window and a bias window stay at
block 0 on every axis. Decided once over the ten points. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx7 : ∀ t : Fin cfg0.N, win0_7.index t (0 : Fin 3) = 0 ∧ win0_7.index t (1 : Fin 3) = 0 ∧ win0_7.index t (2 : Fin 3) = 0 :=
  (by decide +kernel : ∀ t : Fin grid0.N, _)
theorem idx8 : ∀ t : Fin cfg0.N, win0_8.index t (0 : Fin 3) = 0 ∧ win0_8.index t (1 : Fin 3) = 0 ∧ win0_8.index t (2 : Fin 3) = 0 :=
  (by decide +kernel : ∀ t : Fin grid0.N, _)
theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)
theorem idx10 : ∀ t : Fin cfg0.N, win0_10.index t (0 : Fin 3) = 0 ∧ win0_10.index t (1 : Fin 3) = 0 ∧ win0_10.index t (2 : Fin 3) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = 0 ∧ win0_12.index t (1 : Fin 2) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)
theorem idx14 : ∀ t : Fin cfg0.N, win0_14.index t (0 : Fin 2) = 0 ∧ win0_14.index t (1 : Fin 2) = 0 :=
  (by decide +kernel : ∀ t : Fin grid0.N, _)
theorem idx15 : ∀ t : Fin cfg0.N, win0_15.index t (0 : Fin 2) = 0 ∧ win0_15.index t (1 : Fin 2) = 0 :=
  (by decide +kernel : ∀ t : Fin grid0.N, _)
theorem idx16 : ∀ t : Fin cfg0.N, win0_16.index t (0 : Fin 2) = t.val ∧ win0_16.index t (1 : Fin 2) = 0 :=
  (by decide +kernel : ∀ t : Fin grid0.N, _)
theorem idx17 : ∀ t : Fin cfg0.N, win0_17.index t (0 : Fin 2) = t.val ∧ win0_17.index t (1 : Fin 2) = 0 :=
  (by decide +kernel : ∀ t : Fin grid0.N, _)
theorem idx18 : ∀ t : Fin cfg0.N, win0_18.index t (0 : Fin 2) = t.val ∧ win0_18.index t (1 : Fin 2) = 0 :=
  (by decide +kernel : ∀ t : Fin grid0.N, _)

/-! ## A block read off its array, over variables

An entry of a block sits in the array, on each axis, at block index × block size + 1 × its coordinate inside the block.
The three shapes of window are stated once each over an arbitrary map e of block indices into array indices that
satisfies those coordinate equations, with the block indices i0, i1 (, i2) as variables and their values as hypotheses. -/

/-- Two indices of a node-feature array with equal coordinates are equal. -/
theorem arr_idx_ext (i j : S50000x64.Idx) (h0 : (i 0).val = (j 0).val) (h1 : (i 1).val = (j 1).val) : i = j := by
  funext a; apply Fin.ext
  match a with
  | ⟨0, _⟩ => exact h0
  | ⟨1, _⟩ => exact h1

/-- The entry (p, q) of tile n sits at row n · 5000 + p, column q. -/
theorem tile_emb (e : S5000x64.Idx → S50000x64.Idx) (n i0 i1 : Nat) (hn : (n + 1) * 5000 ≤ 50000)
    (h0 : ∀ y, (e y 0).val = i0 * 5000 + 1 * (y 0).val) (h1 : ∀ y, (e y 1).val = i1 * 64 + 1 * (y 1).val)
    (e0 : i0 = n) (e1 : i1 = 0) (p : Fin 5000) (q : Fin 64) :
    e (ix2 p q) = ix2 ⟨n * 5000 + p.val, by have := p.isLt; omega⟩ q := by
  subst e0; subst e1
  refine arr_idx_ext _ _ ?_ ?_
  · rw [h0]; show i0 * 5000 + 1 * p.val = i0 * 5000 + p.val; omega
  · rw [h1]; show 0 * 64 + 1 * q.val = q.val; omega

/-- So a node-feature array read through tile n is its rows n · 5000 … n · 5000 + 4999. -/
theorem tile_read (A : S50000x64.Idx → EReal) (e : S5000x64.Idx → S50000x64.Idx) (n i0 i1 : Nat) (hn : (n + 1) * 5000 ≤ 50000)
    (h0 : ∀ y, (e y 0).val = i0 * 5000 + 1 * (y 0).val) (h1 : ∀ y, (e y 1).val = i1 * 64 + 1 * (y 1).val)
    (e0 : i0 = n) (e1 : i1 = 0) :
    mat (fun y => A (e y)) = rows 5000 (mat A) n hn := by
  funext p k
  show A (e (ix2 p k)) = A (ix2 ⟨n * 5000 + p.val, _⟩ k)
  rw [tile_emb e n i0 i1 hn h0 h1 e0 e1 p k]

/-- A weight stack read through its one block at index 0 is the stack. -/
theorem whole_read3 (A : S3x64x64.Idx → EReal) (e : S3x64x64.Idx → S3x64x64.Idx) (i0 i1 i2 : Nat)
    (h0 : ∀ y, (e y 0).val = i0 * 3 + 1 * (y 0).val) (h1 : ∀ y, (e y 1).val = i1 * 64 + 1 * (y 1).val)
    (h2 : ∀ y, (e y 2).val = i2 * 64 + 1 * (y 2).val) (e0 : i0 = 0) (e1 : i1 = 0) (e2 : i2 = 0) :
    (fun y => A (e y)) = A := by
  funext y
  refine congrArg A (funext fun a => Fin.ext ?_)
  match a with
  | ⟨0, _⟩ => show (e y 0).val = (y 0).val; rw [h0, e0]; omega
  | ⟨1, _⟩ => show (e y 1).val = (y 1).val; rw [h1, e1]; omega
  | ⟨2, _⟩ => show (e y 2).val = (y 2).val; rw [h2, e2]; omega

/-- A bias row read through its one block at index 0 is the row. -/
theorem whole_read2 (A : S1x64.Idx → EReal) (e : S1x64.Idx → S1x64.Idx) (i0 i1 : Nat)
    (h0 : ∀ y, (e y 0).val = i0 * 1 + 1 * (y 0).val) (h1 : ∀ y, (e y 1).val = i1 * 64 + 1 * (y 1).val)
    (e0 : i0 = 0) (e1 : i1 = 0) :
    (fun y => A (e y)) = A := by
  funext y
  refine congrArg A (funext fun a => Fin.ext ?_)
  match a with
  | ⟨0, _⟩ => show (e y 0).val = (y 0).val; rw [h0, e0]; omega
  | ⟨1, _⟩ => show (e y 1).val = (y 1).val; rw [h1, e1]; omega

/-- Row r of a node-feature array lies in the tile r / 5000: the membership conditions of that tile's rectangle. -/
theorem mem_tile (i : S50000x64.Idx) (off size : Fin 2 → Nat) (i0 i1 : Nat)
    (h0 : off 0 = i0 * 5000) (h1 : off 1 = i1 * 64) (s0 : size 0 = 5000) (s1 : size 1 = 64)
    (e0 : i0 = (i 0).val / 5000) (e1 : i1 = 0) :
    ∀ a : Fin 2, off a ≤ (i a).val ∧ (i a).val < off a + size a := by
  have hi1 : (i 1).val < 64 := (i 1).isLt
  intro a
  match a with
  | ⟨0, _⟩ => show off 0 ≤ (i 0).val ∧ (i 0).val < off 0 + size 0; rw [h0, s0, e0]; omega
  | ⟨1, _⟩ => show off 1 ≤ (i 1).val ∧ (i 1).val < off 1 + size 1; rw [h1, s1, e1]; omega

/-! ## The sixteen input blocks of region 0 at point t -/

section Blocks
variable (c : Dev nD) (t : Fin cfg0.N)

theorem feat0 : mat (iblk0 V c 0 t : S5000x64.Idx → EReal) = rows 5000 (mat (V c main_v88)) t.val (tile_le t) :=
  tile_read (V c main_v88) (fun y => ((cfg0.win 0).blk t).view.emb y) t.val (win0_0.index t 0) (win0_0.index t 1) (tile_le t)
    (fun _ => rfl) (fun _ => rfl) (idx0 t).1 (idx0 t).2
theorem feat1 : mat (iblk0 V c 1 t : S5000x64.Idx → EReal) = rows 5000 (mat (V c main_v89)) t.val (tile_le t) :=
  tile_read (V c main_v89) (fun y => ((cfg0.win 1).blk t).view.emb y) t.val (win0_1.index t 0) (win0_1.index t 1) (tile_le t)
    (fun _ => rfl) (fun _ => rfl) (idx1 t).1 (idx1 t).2
theorem feat2 : mat (iblk0 V c 2 t : S5000x64.Idx → EReal) = rows 5000 (mat (V c main_v90)) t.val (tile_le t) :=
  tile_read (V c main_v90) (fun y => ((cfg0.win 2).blk t).view.emb y) t.val (win0_2.index t 0) (win0_2.index t 1) (tile_le t)
    (fun _ => rfl) (fun _ => rfl) (idx2 t).1 (idx2 t).2
theorem feat3 : mat (iblk0 V c 3 t : S5000x64.Idx → EReal) = rows 5000 (mat (V c main_v91)) t.val (tile_le t) :=
  tile_read (V c main_v91) (fun y => ((cfg0.win 3).blk t).view.emb y) t.val (win0_3.index t 0) (win0_3.index t 1) (tile_le t)
    (fun _ => rfl) (fun _ => rfl) (idx3 t).1 (idx3 t).2
theorem feat4 : mat (iblk0 V c 4 t : S5000x64.Idx → EReal) = rows 5000 (mat (V c main_v92)) t.val (tile_le t) :=
  tile_read (V c main_v92) (fun y => ((cfg0.win 4).blk t).view.emb y) t.val (win0_4.index t 0) (win0_4.index t 1) (tile_le t)
    (fun _ => rfl) (fun _ => rfl) (idx4 t).1 (idx4 t).2
theorem feat5 : mat (iblk0 V c 5 t : S5000x64.Idx → EReal) = rows 5000 (mat (V c main_v93)) t.val (tile_le t) :=
  tile_read (V c main_v93) (fun y => ((cfg0.win 5).blk t).view.emb y) t.val (win0_5.index t 0) (win0_5.index t 1) (tile_le t)
    (fun _ => rfl) (fun _ => rfl) (idx5 t).1 (idx5 t).2

theorem wgt6 : (iblk0 V c 6 t : S3x64x64.Idx → EReal) = V c main_v94 :=
  whole_read3 (V c main_v94) (fun y => ((cfg0.win 6).blk t).view.emb y) (win0_6.index t 0) (win0_6.index t 1) (win0_6.index t 2)
    (fun _ => rfl) (fun _ => rfl) (fun _ => rfl) (idx6 t).1 (idx6 t).2.1 (idx6 t).2.2
theorem wgt7 : (iblk0 V c 7 t : S3x64x64.Idx → EReal) = V c main_v95 :=
  whole_read3 (V c main_v95) (fun y => ((cfg0.win 7).blk t).view.emb y) (win0_7.index t 0) (win0_7.index t 1) (win0_7.index t 2)
    (fun _ => rfl) (fun _ => rfl) (fun _ => rfl) (idx7 t).1 (idx7 t).2.1 (idx7 t).2.2
theorem wgt8 : (iblk0 V c 8 t : S3x64x64.Idx → EReal) = V c main_v96 :=
  whole_read3 (V c main_v96) (fun y => ((cfg0.win 8).blk t).view.emb y) (win0_8.index t 0) (win0_8.index t 1) (win0_8.index t 2)
    (fun _ => rfl) (fun _ => rfl) (fun _ => rfl) (idx8 t).1 (idx8 t).2.1 (idx8 t).2.2
theorem wgt9 : (iblk0 V c 9 t : S3x64x64.Idx → EReal) = V c main_v97 :=
  whole_read3 (V c main_v97) (fun y => ((cfg0.win 9).blk t).view.emb y) (win0_9.index t 0) (win0_9.index t 1) (win0_9.index t 2)
    (fun _ => rfl) (fun _ => rfl) (fun _ => rfl) (idx9 t).1 (idx9 t).2.1 (idx9 t).2.2
theorem wgt10 : (iblk0 V c 10 t : S3x64x64.Idx → EReal) = V c main_v98 :=
  whole_read3 (V c main_v98) (fun y => ((cfg0.win 10).blk t).view.emb y) (win0_10.index t 0) (win0_10.index t 1) (win0_10.index t 2)
    (fun _ => rfl) (fun _ => rfl) (fun _ => rfl) (idx10 t).1 (idx10 t).2.1 (idx10 t).2.2

theorem bias11 : (iblk0 V c 11 t : S1x64.Idx → EReal) = V c main_v100 :=
  whole_read2 (V c main_v100) (fun y => ((cfg0.win 11).blk t).view.emb y) (win0_11.index t 0) (win0_11.index t 1)
    (fun _ => rfl) (fun _ => rfl) (idx11 t).1 (idx11 t).2
theorem bias12 : (iblk0 V c 12 t : S1x64.Idx → EReal) = V c main_v101 :=
  whole_read2 (V c main_v101) (fun y => ((cfg0.win 12).blk t).view.emb y) (win0_12.index t 0) (win0_12.index t 1)
    (fun _ => rfl) (fun _ => rfl) (idx12 t).1 (idx12 t).2
theorem bias13 : (iblk0 V c 13 t : S1x64.Idx → EReal) = V c main_v102 :=
  whole_read2 (V c main_v102) (fun y => ((cfg0.win 13).blk t).view.emb y) (win0_13.index t 0) (win0_13.index t 1)
    (fun _ => rfl) (fun _ => rfl) (idx13 t).1 (idx13 t).2
theorem bias14 : (iblk0 V c 14 t : S1x64.Idx → EReal) = V c main_v103 :=
  whole_read2 (V c main_v103) (fun y => ((cfg0.win 14).blk t).view.emb y) (win0_14.index t 0) (win0_14.index t 1)
    (fun _ => rfl) (fun _ => rfl) (idx14 t).1 (idx14 t).2
theorem bias15 : (iblk0 V c 15 t : S1x64.Idx → EReal) = V c main_v104 :=
  whole_read2 (V c main_v104) (fun y => ((cfg0.win 15).blk t).view.emb y) (win0_15.index t 0) (win0_15.index t 1)
    (fun _ => rfl) (fun _ => rfl) (idx15 t).1 (idx15 t).2

end Blocks

/-! ## What each point writes back

Point t writes back, to each output, block t of ONE function of the whole arrays: at (p, q) of the block the body's
store is a gate (or a convolution) of the input tiles, the tiles are rows of the arrays, and a gate or a convolution of
rows is the same rows of the gate or the convolution of the arrays (they read one row of each feature array). -/

section Flushed
variable (c : Dev nD) (t : Fin cfg0.N)

/-- Where an entry of block t of the first output sits in the array: row t · 5000 + p, the same column. -/
theorem out16_emb (p : Fin 5000) (q : Fin 64) :
    ((cfg0.win 16).blk t).view.emb (ix2 p q) = (ix2 ⟨t.val * 5000 + p.val, by have := tile_le t; have := p.isLt; omega⟩ q : S50000x64.Idx) :=
  tile_emb (fun y => ((cfg0.win 16).blk t).view.emb y) t.val (win0_16.index t 0) (win0_16.index t 1) (tile_le t)
    (fun _ => rfl) (fun _ => rfl) (idx16 t).1 (idx16 t).2 p q
/-- The same for the second output. -/
theorem out17_emb (p : Fin 5000) (q : Fin 64) :
    ((cfg0.win 17).blk t).view.emb (ix2 p q) = (ix2 ⟨t.val * 5000 + p.val, by have := tile_le t; have := p.isLt; omega⟩ q : S50000x64.Idx) :=
  tile_emb (fun y => ((cfg0.win 17).blk t).view.emb y) t.val (win0_17.index t 0) (win0_17.index t 1) (tile_le t)
    (fun _ => rfl) (fun _ => rfl) (idx17 t).1 (idx17 t).2 p q
/-- The same for the third output. -/
theorem out18_emb (p : Fin 5000) (q : Fin 64) :
    ((cfg0.win 18).blk t).view.emb (ix2 p q) = (ix2 ⟨t.val * 5000 + p.val, by have := tile_le t; have := p.isLt; omega⟩ q : S50000x64.Idx) :=
  tile_emb (fun y => ((cfg0.win 18).blk t).view.emb y) t.val (win0_18.index t 0) (win0_18.index t 1) (tile_le t)
    (fun _ => rfl) (fun _ => rfl) (idx18 t).1 (idx18 t).2 p q

/-- Point t writes back to the first output block t of the update gate of the whole arrays. -/
theorem flushed16 :
    (dat0 (F := Ideal) V c).flushed 16 t = ((cfg0.win 16).blk t).view.read (Elt Ideal)
      (gateA (V c main_v88) (V c main_v89) (V c main_v90) (V c main_v91) (V c main_v92) (V c main_v93)
        (cube (V c main_v94)) (cube (V c main_v95)) (row (V c main_v100)) (row (V c main_v101))) := by
  show (cfg0.win 16).cut (grid0.coords t) ((dat0 (F := Ideal) V c).after 16 t) = _
  rw [after0_16]
  refine funext fun (j : S5000x64.Idx) => ?_
  obtain ⟨p, q, rfl⟩ : ∃ (p : Fin 5000) (q : Fin 64), j = ix2 p q := ⟨j 0, j 1, eq_ix2 j⟩
  refine (body16 (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t)
    (iblk0 V c 11 t) (iblk0 V c 12 t) (iblk0 V c 13 t) (iblk0 V c 14 t) (iblk0 V c 15 t) p q).trans ?_
  rw [feat0 V c t, feat1 V c t, feat2 V c t, feat3 V c t, feat4 V c t, feat5 V c t,
    wgt6 V c t, wgt7 V c t, bias11 V c t, bias12 V c t]
  show _ = (gateA (V c main_v88) (V c main_v89) (V c main_v90) (V c main_v91) (V c main_v92) (V c main_v93)
    (cube (V c main_v94)) (cube (V c main_v95)) (row (V c main_v100)) (row (V c main_v101)))
      (((cfg0.win 16).blk t).view.emb (ix2 p q))
  rw [out16_emb t p q]
  exact gate_rows 5000 (mat (V c main_v88)) (mat (V c main_v89)) (mat (V c main_v90)) (mat (V c main_v91))
    (mat (V c main_v92)) (mat (V c main_v93)) (cube (V c main_v94)) (cube (V c main_v95)) (row (V c main_v100))
    (row (V c main_v101)) t.val (tile_le t) p q

/-- Point t writes back to the second output block t of the reset gate of the whole arrays. -/
theorem flushed17 :
    (dat0 (F := Ideal) V c).flushed 17 t = ((cfg0.win 17).blk t).view.read (Elt Ideal)
      (gateA (V c main_v88) (V c main_v89) (V c main_v90) (V c main_v91) (V c main_v92) (V c main_v93)
        (cube (V c main_v96)) (cube (V c main_v97)) (row (V c main_v102)) (row (V c main_v103))) := by
  show (cfg0.win 17).cut (grid0.coords t) ((dat0 (F := Ideal) V c).after 17 t) = _
  rw [after0_17]
  refine funext fun (j : S5000x64.Idx) => ?_
  obtain ⟨p, q, rfl⟩ : ∃ (p : Fin 5000) (q : Fin 64), j = ix2 p q := ⟨j 0, j 1, eq_ix2 j⟩
  refine (body17 (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t)
    (iblk0 V c 11 t) (iblk0 V c 12 t) (iblk0 V c 13 t) (iblk0 V c 14 t) (iblk0 V c 15 t) p q).trans ?_
  rw [feat0 V c t, feat1 V c t, feat2 V c t, feat3 V c t, feat4 V c t, feat5 V c t,
    wgt8 V c t, wgt9 V c t, bias13 V c t, bias14 V c t]
  show _ = (gateA (V c main_v88) (V c main_v89) (V c main_v90) (V c main_v91) (V c main_v92) (V c main_v93)
    (cube (V c main_v96)) (cube (V c main_v97)) (row (V c main_v102)) (row (V c main_v103)))
      (((cfg0.win 17).blk t).view.emb (ix2 p q))
  rw [out17_emb t p q]
  exact gate_rows 5000 (mat (V c main_v88)) (mat (V c main_v89)) (mat (V c main_v90)) (mat (V c main_v91))
    (mat (V c main_v92)) (mat (V c main_v93)) (cube (V c main_v96)) (cube (V c main_v97)) (row (V c main_v102))
    (row (V c main_v103)) t.val (tile_le t) p q

/-- Point t writes back to the third output block t of the candidate's input-side convolution of the whole arrays. -/
theorem flushed18 :
    (dat0 (F := Ideal) V c).flushed 18 t = ((cfg0.win 18).blk t).view.read (Elt Ideal)
      (chebA (V c main_v88) (V c main_v89) (V c main_v90) (cube (V c main_v98)) (row (V c main_v104))) := by
  show (cfg0.win 18).cut (grid0.coords t) ((dat0 (F := Ideal) V c).after 18 t) = _
  rw [after0_18]
  refine funext fun (j : S5000x64.Idx) => ?_
  obtain ⟨p, q, rfl⟩ : ∃ (p : Fin 5000) (q : Fin 64), j = ix2 p q := ⟨j 0, j 1, eq_ix2 j⟩
  refine (body18 (iblk0 V c 0 t) (iblk0 V c 1 t) (iblk0 V c 2 t) (iblk0 V c 3 t) (iblk0 V c 4 t) (iblk0 V c 5 t)
    (iblk0 V c 6 t) (iblk0 V c 7 t) (iblk0 V c 8 t) (iblk0 V c 9 t) (iblk0 V c 10 t)
    (iblk0 V c 11 t) (iblk0 V c 12 t) (iblk0 V c 13 t) (iblk0 V c 14 t) (iblk0 V c 15 t) p q).trans ?_
  rw [feat0 V c t, feat1 V c t, feat2 V c t, wgt10 V c t, bias15 V c t]
  show _ = (chebA (V c main_v88) (V c main_v89) (V c main_v90) (cube (V c main_v98)) (row (V c main_v104)))
      (((cfg0.win 18).blk t).view.emb (ix2 p q))
  rw [out18_emb t p q]
  exact cheb_rows 5000 (mat (V c main_v88)) (mat (V c main_v89)) (mat (V c main_v90)) (cube (V c main_v98))
    (row (V c main_v104)) t.val (tile_le t) p q

end Flushed

/-! ## The blocks cover the arrays: row r is in the block of point r / 5000 -/

theorem cover16 (i : S50000x64.Idx) :
    ∃ t : Fin cfg0.N, (cfg0.win 16).flush t = true ∧ i ∈ ((cfg0.win 16).blk t).view.set := by
  have hi0 : (i 0).val < 50000 := (i 0).isLt
  have hN : cfg0.N = 10 := N_0
  obtain ⟨t, ht⟩ : ∃ t : Fin cfg0.N, t.val = (i 0).val / 5000 := ⟨⟨(i 0).val / 5000, by omega⟩, rfl⟩
  refine ⟨t, flush0_16 t, ?_⟩
  show i ∈ ((View.whole main_v106_0).slice (win0_16.rect t)).set
  rw [View.set_slice_whole, Rect.mem_set_unit]
  exact mem_tile i _ _ (win0_16.index t 0) (win0_16.index t 1) rfl rfl rfl rfl ((idx16 t).1.trans ht) (idx16 t).2

theorem cover17 (i : S50000x64.Idx) :
    ∃ t : Fin cfg0.N, (cfg0.win 17).flush t = true ∧ i ∈ ((cfg0.win 17).blk t).view.set := by
  have hi0 : (i 0).val < 50000 := (i 0).isLt
  have hN : cfg0.N = 10 := N_0
  obtain ⟨t, ht⟩ : ∃ t : Fin cfg0.N, t.val = (i 0).val / 5000 := ⟨⟨(i 0).val / 5000, by omega⟩, rfl⟩
  refine ⟨t, flush0_17 t, ?_⟩
  show i ∈ ((View.whole main_v106_1).slice (win0_17.rect t)).set
  rw [View.set_slice_whole, Rect.mem_set_unit]
  exact mem_tile i _ _ (win0_17.index t 0) (win0_17.index t 1) rfl rfl rfl rfl ((idx17 t).1.trans ht) (idx17 t).2

theorem cover18 (i : S50000x64.Idx) :
    ∃ t : Fin cfg0.N, (cfg0.win 18).flush t = true ∧ i ∈ ((cfg0.win 18).blk t).view.set := by
  have hi0 : (i 0).val < 50000 := (i 0).isLt
  have hN : cfg0.N = 10 := N_0
  obtain ⟨t, ht⟩ : ∃ t : Fin cfg0.N, t.val = (i 0).val / 5000 := ⟨⟨(i 0).val / 5000, by omega⟩, rfl⟩
  refine ⟨t, flush0_18 t, ?_⟩
  show i ∈ ((View.whole main_v106_2).slice (win0_18.rect t)).set
  rw [View.set_slice_whole, Rect.mem_set_unit]
  exact mem_tile i _ _ (win0_18.index t 0) (win0_18.index t 1) rfl rfl rfl rfl ((idx18 t).1.trans ht) (idx18 t).2

/-! ## The three arrays after the ten points -/

/-- The first output array ends holding the update gate of the whole arrays. -/
theorem z_eq (c : Dev nD) : (dat0 (F := Ideal) V c).arrAt 16 cfg0.N
    = gateA (V c main_v88) (V c main_v89) (V c main_v90) (V c main_v91) (V c main_v92) (V c main_v93)
        (cube (V c main_v94)) (cube (V c main_v95)) (row (V c main_v100)) (row (V c main_v101)) :=
  (dat0 (F := Ideal) V c).arrAt_eq_of_cover 16 _ (fun t _ => flushed16 V c t) cover16

/-- The second output array ends holding the reset gate of the whole arrays. -/
theorem r_eq (c : Dev nD) : (dat0 (F := Ideal) V c).arrAt 17 cfg0.N
    = gateA (V c main_v88) (V c main_v89) (V c main_v90) (V c main_v91) (V c main_v92) (V c main_v93)
        (cube (V c main_v96)) (cube (V c main_v97)) (row (V c main_v102)) (row (V c main_v103)) :=
  (dat0 (F := Ideal) V c).arrAt_eq_of_cover 17 _ (fun t _ => flushed17 V c t) cover17

/-- The third output array ends holding the candidate's input-side convolution of the whole arrays. -/
theorem xh_eq (c : Dev nD) : (dat0 (F := Ideal) V c).arrAt 18 cfg0.N
    = chebA (V c main_v88) (V c main_v89) (V c main_v90) (cube (V c main_v98)) (row (V c main_v104)) :=
  (dat0 (F := Ideal) V c).arrAt_eq_of_cover 18 _ (fun t _ => flushed18 V c t) cover18

end Cert.KernelIdeal.Region0

end
-- ==== Proof.Region1.lean ====
/-
  The second tile loop of the step: on each tile of 5000 rows the body forms the state-side convolution of the
  candidate from the gated state and its two propagations, adds the feature-side convolution, takes the
  hyperbolic tangent, and combines with the update gate, z · h + (1 − z) · tanh(…). Every tile of the result is
  that combination of the same tile of rows of the operands, so after the ten tiles the whole result array is
  the combination of the whole operand arrays.
-/
import proofs.«120836_j21062519620361_1_alg».proof.Proof.Gen.KernelIdeal.Frame
import proofs.«120836_j21062519620361_1_alg».proof.Proof.Spec
import proofs.«120836_j21062519620361_1_alg».proof.Proof.KCheb
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen Cert.ChebGru Cert.KernelIdeal.KCheb
open Idealize.ShloMosaic Idealize.ShloMosaic.ValueIdx Idealize.ShloMosaic.TcCoe Idealize.SL.Sem
open Idealize.ShloMosaic.Pipeline (Dat)

/-- The zero offsets of a whole-tile access, on two and on three axes. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The hyperbolic tangent of a tile, entry by entry. -/
theorem tanh_apply {s : Shape} {φ : FTy} (a : FVec Ideal s φ) (i : s.Idx) : tanh a i = Ideal.tanh (a i) := rfl

/-- What the body leaves in the result tile, read at row `p` and column `q`: the combination of the eight tiles it
    loads — update gate times state, plus one minus the gate times the hyperbolic tangent of the feature-side
    convolution plus the state-side one. -/
theorem body_apply (x0 x1 x2 : Vec Ideal S5000x64 .bf16) (x3 : Vec Ideal S3x64x64 .bf16) (x4 : Vec Ideal S1x64 .f32)
    (x5 x6 x7 : Vec Ideal S5000x64 .f32) (p : Fin 5000) (q : Fin 64) :
    out1_8 x0 x1 x2 x3 x4 x5 x6 x7 (ix2 p q)
      = blend (mat x0) (mat x1) (mat x2) (cube x3) (row x4) (mat x5) (mat x6) (mat x7) p q := by
  unfold out1_8
  rw [View.canon_unit_zero hz2]
  simp only [View.ld_unit_zero (S := S5000x64) hz2, View.ld_unit_zero (S := S3x64x64) hz3, View.ld_unit_zero (S := S1x64) hz2]
  unfold k1_pay1
  simp only [shapeCast_self]
  rw [addf_apply, mulf_apply, mulf_apply, subf_apply, broadcast_apply, tanh_apply, addf_apply, conv_apply]
  rfl

-- The contents of the buffers when the loop is entered.
variable (V : (c : Dev nD) → (b : Ref sig .tc) → Buf (Elt Ideal) ((c : Thread nD τ).loc b))

/-- Tile `t` of window 0, read at row `p` and column `k`: the array at row `t · 5000 + p`, the same column. -/
theorem iblk0_apply (c : Dev nD) (t : Fin cfg1.N) (p : Fin 5000) (k : Fin 64) (h : t.val * 5000 + p.val < 50000) :
    (iblk1 V c 0 t : Vec Ideal S5000x64 .bf16) (ix2 p k) = (V c main_v137 : S50000x64.Idx → EReal) (ix2 ⟨t.val * 5000 + p.val, h⟩ k) := by
  have e0 : win1_0.index t (0 : Fin 2) = t.val ∧ win1_0.index t (1 : Fin 2) = 0 :=
    (by decide +kernel : ∀ t : Fin grid1.N, win1_0.index t (0 : Fin 2) = t.val ∧ win1_0.index t (1 : Fin 2) = 0) t
  unfold iblk1
  rw [View.read_apply]
  show V c main_v137 _ = V c main_v137 _
  congr 1
  funext a
  apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega

theorem mat_iblk0 (c : Dev nD) (t : Fin cfg1.N) (h : (t.val + 1) * 5000 ≤ 50000) :
    mat (iblk1 V c 0 t : Vec Ideal S5000x64 .bf16) = rows 5000 (mat (V c main_v137 : Arr)) t.val h :=
  funext fun p => funext fun k => iblk0_apply V c t p k _

/-- Tile `t` of window 1, read at row `p` and column `k`: the array at row `t · 5000 + p`, the same column. -/
theorem iblk1_apply (c : Dev nD) (t : Fin cfg1.N) (p : Fin 5000) (k : Fin 64) (h : t.val * 5000 + p.val < 50000) :
    (iblk1 V c 1 t : Vec Ideal S5000x64 .bf16) (ix2 p k) = (V c main_v138 : S50000x64.Idx → EReal) (ix2 ⟨t.val * 5000 + p.val, h⟩ k) := by
  have e0 : win1_1.index t (0 : Fin 2) = t.val ∧ win1_1.index t (1 : Fin 2) = 0 :=
    (by decide +kernel : ∀ t : Fin grid1.N, win1_1.index t (0 : Fin 2) = t.val ∧ win1_1.index t (1 : Fin 2) = 0) t
  unfold iblk1
  rw [View.read_apply]
  show V c main_v138 _ = V c main_v138 _
  congr 1
  funext a
  apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega

theorem mat_iblk1 (c : Dev nD) (t : Fin cfg1.N) (h : (t.val + 1) * 5000 ≤ 50000) :
    mat (iblk1 V c 1 t : Vec Ideal S5000x64 .bf16) = rows 5000 (mat (V c main_v138 : Arr)) t.val h :=
  funext fun p => funext fun k => iblk1_apply V c t p k _

/-- Tile `t` of window 2, read at row `p` and column `k`: the array at row `t · 5000 + p`, the same column. -/
theorem iblk2_apply (c : Dev nD) (t : Fin cfg1.N) (p : Fin 5000) (k : Fin 64) (h : t.val * 5000 + p.val < 50000) :
    (iblk1 V c 2 t : Vec Ideal S5000x64 .bf16) (ix2 p k) = (V c main_v139 : S50000x64.Idx → EReal) (ix2 ⟨t.val * 5000 + p.val, h⟩ k) := by
  have e0 : win1_2.index t (0 : Fin 2) = t.val ∧ win1_2.index t (1 : Fin 2) = 0 :=
    (by decide +kernel : ∀ t : Fin grid1.N, win1_2.index t (0 : Fin 2) = t.val ∧ win1_2.index t (1 : Fin 2) = 0) t
  unfold iblk1
  rw [View.read_apply]
  show V c main_v139 _ = V c main_v139 _
  congr 1
  funext a
  apply Fin.ext
  match a with
  | ⟨0, _⟩ => show win1_2.index t (0 : Fin 2) * 5000 + 1 * p.val = t.val * 5000 + p.val; omega
  | ⟨1, _⟩ => show win1_2.index t (1 : Fin 2) * 64 + 1 * k.val = k.val; omega

theorem mat_iblk2 (c : Dev nD) (t : Fin cfg1.N) (h : (t.val + 1) * 5000 ≤ 50000) :
    mat (iblk1 V c 2 t : Vec Ideal S5000x64 .bf16) = rows 5000 (mat (V c main_v139 : Arr)) t.val h :=
  funext fun p => funext fun k => iblk2_apply V c t p k _

/-- Tile `t` of window 5, read at row `p` and column `k`: the array at row `t · 5000 + p`, the same column. -/
theorem iblk5_apply (c : Dev nD) (t : Fin cfg1.N) (p : Fin 5000) (k : Fin 64) (h : t.val * 5000 + p.val < 50000) :
    (iblk1 V c 5 t : Vec Ideal S5000x64 .f32) (ix2 p k) = (V c main_v106_2 : S50000x64.Idx → EReal) (ix2 ⟨t.val * 5000 + p.val, h⟩ k) := by
  have e0 : win1_5.index t (0 : Fin 2) = t.val ∧ win1_5.index t (1 : Fin 2) = 0 :=
    (by decide +kernel : ∀ t : Fin grid1.N, win1_5.index t (0 : Fin 2) = t.val ∧ win1_5.index t (1 : Fin 2) = 0) t
  unfold iblk1
  rw [View.read_apply]
  show V c main_v106_2 _ = V c main_v106_2 _
  congr 1
  funext a
  apply Fin.ext
  match a with
  | ⟨0, _⟩ => show win1_5.index t (0 : Fin 2) * 5000 + 1 * p.val = t.val * 5000 + p.val; omega
  | ⟨1, _⟩ => show win1_5.index t (1 : Fin 2) * 64 + 1 * k.val = k.val; omega

theorem mat_iblk5 (c : Dev nD) (t : Fin cfg1.N) (h : (t.val + 1) * 5000 ≤ 50000) :
    mat (iblk1 V c 5 t : Vec Ideal S5000x64 .f32) = rows 5000 (mat (V c main_v106_2 : Arr)) t.val h :=
  funext fun p => funext fun k => iblk5_apply V c t p k _

/-- Tile `t` of window 6, read at row `p` and column `k`: the array at row `t · 5000 + p`, the same column. -/
theorem iblk6_apply (c : Dev nD) (t : Fin cfg1.N) (p : Fin 5000) (k : Fin 64) (h : t.val * 5000 + p.val < 50000) :
    (iblk1 V c 6 t : Vec Ideal S5000x64 .f32) (ix2 p k) = (V c main_v106_0 : S50000x64.Idx → EReal) (ix2 ⟨t.val * 5000 + p.val, h⟩ k) := by
  have e0 : win1_6.index t (0 : Fin 2) = t.val ∧ win1_6.index t (1 : Fin 2) = 0 :=
    (by decide +kernel : ∀ t : Fin grid1.N, win1_6.index t (0 : Fin 2) = t.val ∧ win1_6.index t (1 : Fin 2) = 0) t
  unfold iblk1
  rw [View.read_apply]
  show V c main_v106_0 _ = V c main_v106_0 _
  congr 1
  funext a
  apply Fin.ext
  match a with
  | ⟨0, _⟩ => show win1_6.index t (0 : Fin 2) * 5000 + 1 * p.val = t.val * 5000 + p.val; omega
  | ⟨1, _⟩ => show win1_6.index t (1 : Fin 2) * 64 + 1 * k.val = k.val; omega

theorem mat_iblk6 (c : Dev nD) (t : Fin cfg1.N) (h : (t.val + 1) * 5000 ≤ 50000) :
    mat (iblk1 V c 6 t : Vec Ideal S5000x64 .f32) = rows 5000 (mat (V c main_v106_0 : Arr)) t.val h :=
  funext fun p => funext fun k => iblk6_apply V c t p k _

/-- Tile `t` of window 7, read at row `p` and column `k`: the array at row `t · 5000 + p`, the same column. -/
theorem iblk7_apply (c : Dev nD) (t : Fin cfg1.N) (p : Fin 5000) (k : Fin 64) (h : t.val * 5000 + p.val < 50000) :
    (iblk1 V c 7 t : Vec Ideal S5000x64 .f32) (ix2 p k) = (V c main_arg3 : S50000x64.Idx → EReal) (ix2 ⟨t.val * 5000 + p.val, h⟩ k) := by
  have e0 : win1_7.index t (0 : Fin 2) = t.val ∧ win1_7.index t (1 : Fin 2) = 0 :=
    (by decide +kernel : ∀ t : Fin grid1.N, win1_7.index t (0 : Fin 2) = t.val ∧ win1_7.index t (1 : Fin 2) = 0) t
  unfold iblk1
  rw [View.read_apply]
  show V c main_arg3 _ = V c main_arg3 _
  congr 1
  funext a
  apply Fin.ext
  match a with
  | ⟨0, _⟩ => show win1_7.index t (0 : Fin 2) * 5000 + 1 * p.val = t.val * 5000 + p.val; omega
  | ⟨1, _⟩ => show win1_7.index t (1 : Fin 2) * 64 + 1 * k.val = k.val; omega

theorem mat_iblk7 (c : Dev nD) (t : Fin cfg1.N) (h : (t.val + 1) * 5000 ≤ 50000) :
    mat (iblk1 V c 7 t : Vec Ideal S5000x64 .f32) = rows 5000 (mat (V c main_arg3 : Arr)) t.val h :=
  funext fun p => funext fun k => iblk7_apply V c t p k _

/-- The weight stack's window holds the whole stack at every point. -/
theorem iblk3_eq (c : Dev nD) (t : Fin cfg1.N) :
    (iblk1 V c 3 t : Vec Ideal S3x64x64 .bf16) = (V c main_v99 : S3x64x64.Idx → EReal) := by
  have e0 : win1_3.index t (0 : Fin 3) = 0 ∧ win1_3.index t (1 : Fin 3) = 0 ∧ win1_3.index t (2 : Fin 3) = 0 :=
    (by decide +kernel : ∀ t : Fin grid1.N, win1_3.index t (0 : Fin 3) = 0 ∧ win1_3.index t (1 : Fin 3) = 0 ∧ win1_3.index t (2 : Fin 3) = 0) t
  funext x
  unfold iblk1
  rw [View.read_apply]
  show V c main_v99 _ = V c main_v99 _
  congr 1
  funext a
  apply Fin.ext
  match a with
  | ⟨0, _⟩ => show win1_3.index t (0 : Fin 3) * 3 + 1 * (x 0).val = (x 0).val; omega
  | ⟨1, _⟩ => show win1_3.index t (1 : Fin 3) * 64 + 1 * (x 1).val = (x 1).val; omega
  | ⟨2, _⟩ => show win1_3.index t (2 : Fin 3) * 64 + 1 * (x 2).val = (x 2).val; omega

/-- The bias row's window holds the whole row at every point. -/
theorem iblk4_eq (c : Dev nD) (t : Fin cfg1.N) :
    (iblk1 V c 4 t : Vec Ideal S1x64 .f32) = (V c main_v105 : S1x64.Idx → EReal) := by
  have e0 : win1_4.index t (0 : Fin 2) = 0 ∧ win1_4.index t (1 : Fin 2) = 0 :=
    (by decide +kernel : ∀ t : Fin grid1.N, win1_4.index t (0 : Fin 2) = 0 ∧ win1_4.index t (1 : Fin 2) = 0) t
  funext x
  unfold iblk1
  rw [View.read_apply]
  show V c main_v105 _ = V c main_v105 _
  congr 1
  funext a
  apply Fin.ext
  match a with
  | ⟨0, _⟩ => show win1_4.index t (0 : Fin 2) * 1 + 1 * (x 0).val = (x 0).val; omega
  | ⟨1, _⟩ => show win1_4.index t (1 : Fin 2) * 64 + 1 * (x 1).val = (x 1).val; omega

/-- The result array the loop should leave: the combination of the whole operand arrays. -/
abbrev result (c : Dev nD) : Arr :=
  blendA (V c main_v137) (V c main_v138) (V c main_v139) (cube (V c main_v99)) (row (V c main_v105))
    (V c main_v106_2) (V c main_v106_0) (V c main_arg3)

/-- An entry of the result tile at point `t` sits in the result array at row `t · 5000 + p`, the same column. -/
theorem emb8 (t : Fin cfg1.N) (p : Fin 5000) (q : Fin 64) (h : t.val * 5000 + p.val < 50000) :
    (((cfg1.win 8).blk t).view.emb (ix2 p q) : S50000x64.Idx) = ix2 ⟨t.val * 5000 + p.val, h⟩ q := by
  have e0 : win1_8.index t (0 : Fin 2) = t.val ∧ win1_8.index t (1 : Fin 2) = 0 :=
    (by decide +kernel : ∀ t : Fin grid1.N, win1_8.index t (0 : Fin 2) = t.val ∧ win1_8.index t (1 : Fin 2) = 0) t
  funext a
  apply Fin.ext
  match a with
  | ⟨0, _⟩ => show win1_8.index t (0 : Fin 2) * 5000 + 1 * p.val = t.val * 5000 + p.val; omega
  | ⟨1, _⟩ => show win1_8.index t (1 : Fin 2) * 64 + 1 * q.val = q.val; omega

/-- What point `t` writes back is tile `t` of the combination of the whole arrays: the body combines the tiles it
    loads, each of which is tile `t` of rows of its array (the weights and the bias whole), and the combination
    reads one row of each operand. -/
theorem flushed_eq (c : Dev nD) (t : Fin cfg1.N) :
    (dat1 V c).flushed 8 t = ((cfg1.win 8).blk t).view.read (Elt Ideal) (result V c) := by
  have ht : (t.val + 1) * 5000 ≤ 50000 := by have := N_1 ▸ (show t.val < grid1.N from t.isLt); omega
  show (cfg1.win 8).cut (grid1.coords t) ((dat1 V c).after 8 t) = _
  rw [after1_8]
  funext j
  revert j
  show ∀ j : S5000x64.Idx, out1_8 (iblk1 V c 0 t) (iblk1 V c 1 t) (iblk1 V c 2 t) (iblk1 V c 3 t) (iblk1 V c 4 t)
      (iblk1 V c 5 t) (iblk1 V c 6 t) (iblk1 V c 7 t) j = result V c (((cfg1.win 8).blk t).view.emb j)
  intro j
  obtain ⟨p, q, rfl⟩ : ∃ (p : Fin 5000) (q : Fin 64), j = ix2 p q := ⟨j 0, j 1, eq_ix2 j⟩
  have hp : t.val * 5000 + p.val < 50000 := by have := p.isLt; omega
  refine (body_apply (iblk1 V c 0 t) (iblk1 V c 1 t) (iblk1 V c 2 t) (iblk1 V c 3 t) (iblk1 V c 4 t)
    (iblk1 V c 5 t) (iblk1 V c 6 t) (iblk1 V c 7 t) p q).trans ?_
  rw [mat_iblk0 V c t ht, mat_iblk1 V c t ht, mat_iblk2 V c t ht, mat_iblk5 V c t ht, mat_iblk6 V c t ht,
    mat_iblk7 V c t ht, iblk3_eq, iblk4_eq, blend_rows, emb8 t p q hp]
  rfl

/-- Every row of the result array lies in the tile of the point `row / 5000`. -/
theorem cover (i : S50000x64.Idx) : ∃ t : Fin cfg1.N, (cfg1.win 8).flush t = true ∧ i ∈ ((cfg1.win 8).blk t).view.set := by
  have hi0 : (i 0).val < 50000 := (i 0).isLt
  have hi1 : (i 1).val < 64 := (i 1).isLt
  obtain ⟨t, htv⟩ : ∃ t : Fin cfg1.N, t.val = (i 0).val / 5000 :=
    ⟨⟨(i 0).val / 5000, by show _ < grid1.N; rw [N_1]; omega⟩, rfl⟩
  have e0 : win1_8.index t (0 : Fin 2) = t.val ∧ win1_8.index t (1 : Fin 2) = 0 :=
    (by decide +kernel : ∀ t : Fin grid1.N, win1_8.index t (0 : Fin 2) = t.val ∧ win1_8.index t (1 : Fin 2) = 0) t
  refine ⟨t, flush1_8 t, ?_⟩
  show i ∈ ((View.whole main_v140).slice (win1_8.rect t)).set
  rw [View.set_slice_whole, Rect.mem_set_unit]
  intro a
  match a with
  | ⟨0, _⟩ =>
    show win1_8.index t (0 : Fin 2) * 5000 ≤ (i 0).val ∧ (i 0).val < win1_8.index t (0 : Fin 2) * 5000 + 5000
    omega
  | ⟨1, _⟩ =>
    show win1_8.index t (1 : Fin 2) * 64 ≤ (i 1).val ∧ (i 1).val < win1_8.index t (1 : Fin 2) * 64 + 64
    omega

/-- After the ten points the result array is the combination of the whole operand arrays. -/
theorem out_eq (c : Dev nD) :
    (dat1 (F := Ideal) V c).arrAt 8 cfg1.N
      = blendA (V c main_v137) (V c main_v138) (V c main_v139) (cube (V c main_v99)) (row (V c main_v105))
          (V c main_v106_2) (V c main_v106_0) (V c main_arg3) :=
  (dat1 V c).arrAt_eq_of_cover 8 (result V c) (fun t _ => flushed_eq V c t) cover

end Cert.KernelIdeal.Region1

end
-- ==== Proof.KValue.lean ====
/-
  The idealized kernel program's result array is the specification's step of its argument arrays.

  The program runs three stretches of host operations, a grid, a fourth stretch and a second grid. The stretches
  before the first grid leave, for the input features X and for the state H, the array itself, its propagation and
  its second Chebyshev term; the six weight stacks with only their float format changed; and the six biases as single
  rows. The first grid then writes the update gate, the reset gate and the candidate's input-side convolution, each
  over whole arrays. The fourth stretch multiplies the state by the reset gate and forms that product's propagation
  and second Chebyshev term, and the second grid combines everything into z · H + (1 − z) · tanh (xh + conv (H ⊙ r)).

  The propagation is computed by the same chain of operations as the reference's (gather along the source words,
  scale by the Laplacian weights, sum into the destination words), so it is stated here directly as the reference's
  propagation stage applied to the operand, with this program's edge list and edge weights.
-/
import proofs.«120836_j21062519620361_1_alg».proof.Proof.KHostB
import proofs.«120836_j21062519620361_1_alg».proof.Proof.KHost1
import proofs.«120836_j21062519620361_1_alg».proof.Proof.Region0
import proofs.«120836_j21062519620361_1_alg».proof.Proof.Region1

noncomputable section

namespace Cert.KernelIdeal.KValue

open Cert.KernelIdeal Cert.KernelIdeal.Gen Cert.KernelIdeal.KHost Cert.ChebGru Idealize.ShloMosaic Idealize.ShloMosaic.ValueIdx
open Idealize.ShloMosaic.StableHlo Idealize.ShloMosaic.TcCoe Idealize.SL.Sem

/-- A node-feature array, a weight stack and a bias, as the program's operations type them. -/
abbrev FeatT : Type := FVec Ideal S50000x64 .f32
abbrev StackT : Type := FVec Ideal S3x64x64 .f32
abbrev BiasT : Type := FVec Ideal S64 .f32

/-- A bias [64] reshaped to one row [1,64] reads, at column q, the bias at q: both sit at row-major position q. -/
theorem row_reshape (b : BiasT) (h : S64.ShapeCasts S1x64) : row (shapeCast S1x64 b h) = vec b := by
  funext q
  show shapeCast S1x64 b h (ix2 (0 : Fin 1) q) = b (ix1 q)
  exact shapeCast_apply b h (ix2 (0 : Fin 1) q) (ix1 q) (by
    rw [Shape.rowMajor_val_one, Shape.rowMajor_val_two]
    show q.val = (0 : Nat) * 64 + q.val
    omega)

/-- The entrywise product of two node-feature arrays, in the program's operation and in the specification's words. -/
theorem mul_had (H R : FeatT) : mulf (F := Ideal) (φ := .f32) H R = had H R := by
  funext i
  rfl

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The propagation of a node-feature array along this program's edge list with its edge weights. -/
abbrev P : Arr → Arr := fun t => Cert.ReferenceIdeal.ReadP.val_main_v45 (F := Ideal) t (arg m c main_arg1) (arg m c main_arg2)

/-- The program's own chain for the propagation, on the edge words and Laplacian weights of its arguments, is it. -/
theorem prop_fun : propOf (srcW (arg m c main_arg1)) (dstW (arg m c main_arg1)) (lapW (arg m c main_arg1) (arg m c main_arg2)) = P m c :=
  funext fun t => prop_ref (arg m c main_arg1) (arg m c main_arg2) t

/-- The update gate, the reset gate and the candidate's input-side convolution of the arguments. -/
abbrev Zg : Arr := gateA (arg m c main_arg0) ((P m c) (arg m c main_arg0)) (step2 (P m c) (arg m c main_arg0)) (arg m c main_arg3) ((P m c) (arg m c main_arg3)) (step2 (P m c) (arg m c main_arg3))
  (cube (arg m c main_arg4)) (cube (arg m c main_arg5)) (vec (arg m c main_arg10)) (vec (arg m c main_arg11))
abbrev Rg : Arr := gateA (arg m c main_arg0) ((P m c) (arg m c main_arg0)) (step2 (P m c) (arg m c main_arg0)) (arg m c main_arg3) ((P m c) (arg m c main_arg3)) (step2 (P m c) (arg m c main_arg3))
  (cube (arg m c main_arg6)) (cube (arg m c main_arg7)) (vec (arg m c main_arg12)) (vec (arg m c main_arg13))
abbrev XH : Arr := chebA (arg m c main_arg0) ((P m c) (arg m c main_arg0)) (step2 (P m c) (arg m c main_arg0)) (cube (arg m c main_arg8)) (vec (arg m c main_arg14))

/-! ## At the first grid's entry -/

/-- The Laplacian weights the long stretch leaves are those of the arguments. -/
theorem lap3 : W3 m ρ c (Proc.devRef .tc main_v29) = lapW (arg m c main_arg1) (arg m c main_arg2) :=
  (s2_lap (W2 m ρ c)).trans (by rw [w2_src m ρ c, w2_dst m ρ c, w2_dinv m ρ c, w2_arg2 m ρ c]; rfl)

/-- The program's propagation over the contents the first two stretches leave is the propagation. -/
theorem prop2 (t : FeatT) :
    propOf (W2 m ρ c (Proc.devRef .tc main_v1)) (W2 m ρ c (Proc.devRef .tc main_v3))
      (lapOf (W2 m ρ c (Proc.devRef .tc main_v1)) (W2 m ρ c (Proc.devRef .tc main_v3)) (W2 m ρ c (Proc.devRef .tc main_v12)) (W2 m ρ c (Proc.devRef .tc main_arg2))) t = P m c t := by
  rw [w2_src m ρ c, w2_dst m ρ c, w2_dinv m ρ c, w2_arg2 m ρ c]
  exact prop_ref (arg m c main_arg1) (arg m c main_arg2) t

/-- Likewise the second Chebyshev term. -/
theorem step22 (t : FeatT) :
    step2Of (W2 m ρ c (Proc.devRef .tc main_v1)) (W2 m ρ c (Proc.devRef .tc main_v3))
      (lapOf (W2 m ρ c (Proc.devRef .tc main_v1)) (W2 m ρ c (Proc.devRef .tc main_v3)) (W2 m ρ c (Proc.devRef .tc main_v12)) (W2 m ρ c (Proc.devRef .tc main_arg2))) t = step2 (P m c) t := by
  rw [w2_src m ρ c, w2_dst m ρ c, w2_dinv m ρ c, w2_arg2 m ρ c, step2Of_eq]
  exact congrArg (fun f => step2 f t) (prop_fun m c)

/-- The input features, their propagation and their second Chebyshev term. -/
theorem x0 : (V3 m ρ c main_v88 : Arr) = (arg m c main_arg0) := (s2_v88 (W2 m ρ c)).trans (w2_arg0 m ρ c)
theorem x1 : (V3 m ρ c main_v89 : Arr) = P m c (arg m c main_arg0) :=
  (s2_v89 (W2 m ρ c)).trans ((prop2 m ρ c _).trans (congrArg (P m c) (w2_arg0 m ρ c)))
theorem x2 : (V3 m ρ c main_v90 : Arr) = step2 (P m c) (arg m c main_arg0) :=
  (s2_v90 (W2 m ρ c)).trans ((step22 m ρ c _).trans (congrArg (step2 (P m c)) (w2_arg0 m ρ c)))
/-- The state, its propagation and its second Chebyshev term. -/
theorem h0 : (V3 m ρ c main_v91 : Arr) = (arg m c main_arg3) := (s2_v91 (W2 m ρ c)).trans (w2_arg3 m ρ c)
theorem h1 : (V3 m ρ c main_v92 : Arr) = P m c (arg m c main_arg3) :=
  (s2_v92 (W2 m ρ c)).trans ((prop2 m ρ c _).trans (congrArg (P m c) (w2_arg3 m ρ c)))
theorem h2 : (V3 m ρ c main_v93 : Arr) = step2 (P m c) (arg m c main_arg3) :=
  (s2_v93 (W2 m ρ c)).trans ((step22 m ρ c _).trans (congrArg (step2 (P m c)) (w2_arg3 m ρ c)))
/-- The six weight stacks. -/
theorem wt94 : (V3 m ρ c main_v94 : StackT) = (arg m c main_arg4) := (s2_v94 (W2 m ρ c)).trans (w2_arg4 m ρ c)
theorem wt95 : (V3 m ρ c main_v95 : StackT) = (arg m c main_arg5) := (s2_v95 (W2 m ρ c)).trans (w2_arg5 m ρ c)
theorem wt96 : (V3 m ρ c main_v96 : StackT) = (arg m c main_arg6) := (s2_v96 (W2 m ρ c)).trans (w2_arg6 m ρ c)
theorem wt97 : (V3 m ρ c main_v97 : StackT) = (arg m c main_arg7) := (s2_v97 (W2 m ρ c)).trans (w2_arg7 m ρ c)
theorem wt98 : (V3 m ρ c main_v98 : StackT) = (arg m c main_arg8) := (s2_v98 (W2 m ρ c)).trans (w2_arg8 m ρ c)
theorem wt99 : (V3 m ρ c main_v99 : StackT) = (arg m c main_arg9) := (s2_v99 (W2 m ρ c)).trans (w2_arg9 m ρ c)
/-- The six biases, as rows. -/
theorem bs100 : row (V3 m ρ c main_v100) = vec (arg m c main_arg10) :=
  (congrArg (row (n := 64)) ((s2_v100 (W2 m ρ c)).trans
    (congrArg (fun b : BiasT => shapeCast S1x64 b shapeCasts_S64_S1x64) (w2_arg10 m ρ c)))).trans (row_reshape _ _)
theorem bs101 : row (V3 m ρ c main_v101) = vec (arg m c main_arg11) :=
  (congrArg (row (n := 64)) ((s2_v101 (W2 m ρ c)).trans
    (congrArg (fun b : BiasT => shapeCast S1x64 b shapeCasts_S64_S1x64) (w2_arg11 m ρ c)))).trans (row_reshape _ _)
theorem bs102 : row (V3 m ρ c main_v102) = vec (arg m c main_arg12) :=
  (congrArg (row (n := 64)) ((s2_v102 (W2 m ρ c)).trans
    (congrArg (fun b : BiasT => shapeCast S1x64 b shapeCasts_S64_S1x64) (w2_arg12 m ρ c)))).trans (row_reshape _ _)
theorem bs103 : row (V3 m ρ c main_v103) = vec (arg m c main_arg13) :=
  (congrArg (row (n := 64)) ((s2_v103 (W2 m ρ c)).trans
    (congrArg (fun b : BiasT => shapeCast S1x64 b shapeCasts_S64_S1x64) (w2_arg13 m ρ c)))).trans (row_reshape _ _)
theorem bs104 : row (V3 m ρ c main_v104) = vec (arg m c main_arg14) :=
  (congrArg (row (n := 64)) ((s2_v104 (W2 m ρ c)).trans
    (congrArg (fun b : BiasT => shapeCast S1x64 b shapeCasts_S64_S1x64) (w2_arg14 m ρ c)))).trans (row_reshape _ _)
theorem bs105 : row (V3 m ρ c main_v105) = vec (arg m c main_arg15) :=
  (congrArg (row (n := 64)) ((s2_v105 (W2 m ρ c)).trans
    (congrArg (fun b : BiasT => shapeCast S1x64 b shapeCasts_S64_S1x64) (w2_arg15 m ρ c)))).trans (row_reshape _ _)

/-! ## What the first grid writes -/

theorem z_val : (dat0 (F := Ideal) (V3 m ρ) c).arrAt 16 cfg0.N = Zg m c :=
  (Region0.z_eq (V3 m ρ) c).trans (by
    rw [x0 m ρ c, x1 m ρ c, x2 m ρ c, h0 m ρ c, h1 m ρ c, h2 m ρ c, wt94 m ρ c, wt95 m ρ c, bs100 m ρ c, bs101 m ρ c])
theorem r_val : (dat0 (F := Ideal) (V3 m ρ) c).arrAt 17 cfg0.N = Rg m c :=
  (Region0.r_eq (V3 m ρ) c).trans (by
    rw [x0 m ρ c, x1 m ρ c, x2 m ρ c, h0 m ρ c, h1 m ρ c, h2 m ρ c, wt96 m ρ c, wt97 m ρ c, bs102 m ρ c, bs103 m ρ c])
theorem xh_val : (dat0 (F := Ideal) (V3 m ρ) c).arrAt 18 cfg0.N = XH m c :=
  (Region0.xh_eq (V3 m ρ) c).trans (by
    rw [x0 m ρ c, x1 m ρ c, x2 m ρ c, wt98 m ρ c, bs104 m ρ c])

/-! ## At the first grid's exit -/

theorem w4_src : W4 m ρ c (Proc.devRef .tc main_v1) = srcW (arg m c main_arg1) :=
  (W4_of_ne m ρ c main_v1 (by decide)).trans ((s2_v1 (W2 m ρ c)).trans (w2_src m ρ c))
theorem w4_dst : W4 m ρ c (Proc.devRef .tc main_v3) = dstW (arg m c main_arg1) :=
  (W4_of_ne m ρ c main_v3 (by decide)).trans ((s2_v3 (W2 m ρ c)).trans (w2_dst m ρ c))
theorem w4_lap : W4 m ρ c (Proc.devRef .tc main_v29) = lapW (arg m c main_arg1) (arg m c main_arg2) :=
  (W4_of_ne m ρ c main_v29 (by decide)).trans (lap3 m ρ c)
theorem w4_H : (W4 m ρ c (Proc.devRef .tc main_arg3) : Arr) = (arg m c main_arg3) :=
  (W4_of_ne m ρ c main_arg3 (by decide)).trans ((s2_arg3 (W2 m ρ c)).trans (w2_arg3 m ρ c))
theorem w4_R : (W4 m ρ c (Proc.devRef .tc main_v106_1) : Arr) = Rg m c := (W4_arr m ρ c 17).trans (r_val m ρ c)

/-! ## At the second grid's entry -/

/-- The state gated by the reset gate, its propagation and its second Chebyshev term. -/
theorem g0 : (V5 m ρ c main_v137 : Arr) = had (arg m c main_arg3) (Rg m c) :=
  (s3_v137 (W4 m ρ c)).trans (by rw [w4_H m ρ c, w4_R m ρ c, mul_had])
theorem g1 : (V5 m ρ c main_v138 : Arr) = P m c (had (arg m c main_arg3) (Rg m c)) :=
  (s3_v138 (W4 m ρ c)).trans (by
    rw [w4_src m ρ c, w4_dst m ρ c, w4_lap m ρ c, w4_H m ρ c, w4_R m ρ c, mul_had]
    exact prop_ref (arg m c main_arg1) (arg m c main_arg2) _)
theorem g2 : (V5 m ρ c main_v139 : Arr) = step2 (P m c) (had (arg m c main_arg3) (Rg m c)) :=
  (s3_v139 (W4 m ρ c)).trans (by
    rw [w4_src m ρ c, w4_dst m ρ c, w4_lap m ρ c, w4_H m ρ c, w4_R m ρ c, mul_had, step2Of_eq]
    exact congrArg (fun f => step2 f (had (arg m c main_arg3) (Rg m c))) (prop_fun m c))
/-- The candidate's state-side weight stack and bias, the input-side convolution, the update gate and the state. -/
theorem g_w : (V5 m ρ c main_v99 : StackT) = (arg m c main_arg9) :=
  (s3_v99 (W4 m ρ c)).trans ((W4_of_ne m ρ c main_v99 (by decide)).trans (wt99 m ρ c))
theorem g_b : row (V5 m ρ c main_v105) = vec (arg m c main_arg15) :=
  (congrArg (row (n := 64)) ((s3_v105 (W4 m ρ c)).trans (W4_of_ne m ρ c main_v105 (by decide)))).trans (bs105 m ρ c)
theorem g_xh : (V5 m ρ c main_v106_2 : Arr) = XH m c :=
  (s3_v106_2 (W4 m ρ c)).trans ((W4_arr m ρ c 18).trans (xh_val m ρ c))
theorem g_z : (V5 m ρ c main_v106_0 : Arr) = Zg m c :=
  (s3_v106_0 (W4 m ρ c)).trans ((W4_arr m ρ c 16).trans (z_val m ρ c))
theorem g_h : (V5 m ρ c main_arg3 : Arr) = (arg m c main_arg3) := (s3_arg3 (W4 m ρ c)).trans (w4_H m ρ c)

/-! ## The result -/

/-- The result array after the second grid is the specification's step of the argument arrays. -/
theorem value : W6 m ρ c (Proc.devRef .tc main_v140)
    = gru (P m c) (arg m c main_arg0) (arg m c main_arg3) (cube (arg m c main_arg4)) (cube (arg m c main_arg5)) (cube (arg m c main_arg6)) (cube (arg m c main_arg7)) (cube (arg m c main_arg8)) (cube (arg m c main_arg9))
        (vec (arg m c main_arg10)) (vec (arg m c main_arg11)) (vec (arg m c main_arg12)) (vec (arg m c main_arg13)) (vec (arg m c main_arg14)) (vec (arg m c main_arg15)) :=
  (W6_arr m ρ c 8).trans ((Region1.out_eq (V5 m ρ) c).trans (by
    rw [g0 m ρ c, g1 m ρ c, g2 m ρ c, g_w m ρ c, g_b m ρ c, g_xh m ρ c, g_z m ρ c, g_h m ρ c]
    rfl))

end Cert.KernelIdeal.KValue

end
-- ==== Proof.RefRunRead.lean ====
/-
  The reference's run and its read-back meet here: the term that the run states for the result buffer — the
  operations' composed term of the argument arrays — is the last stage of the read-back, `val_main_v309` of the
  sixteen arguments. Both are the same composition of the program's host operations, so the equation is by unfolding.
-/
import proofs.«120836_j21062519620361_1_alg».proof.Proof.RefRunP
import proofs.«120836_j21062519620361_1_alg».proof.Proof.RefReadP

noncomputable section

namespace Cert.ReferenceIdeal.ReadP

open Cert.ReferenceIdeal Cert.ReferenceIdeal.Gen Idealize.ShloMosaic Idealize.ShloMosaic.TcCoe Idealize.SL.Sem Idealize.ShloMosaic.StableHlo

variable {F : FTy → Type} [FloatOps F]

/-- The term the Run module names `res_main_v309` is the stage. -/
theorem val_main_v309_eq (m : (ℓ : Loc nD τ sig) → Buf (Elt F) ℓ) (c : Dev nD) :
    Cert.ReferenceIdeal.ValueP.res_main_v309 m c = val_main_v309 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold Cert.ReferenceIdeal.ValueP.res_main_v309; rfl

end Cert.ReferenceIdeal.ReadP

end
-- ==== Proof.RefProp.lean ====
/-
  The reference's sparse propagations are one function, and its second Chebyshev terms are that function's.

  For each of its twelve propagations the reference recomputes the same chain: gather the operand's rows at the
  edges' source nodes (node numbers below zero wrapped by adding 50000), scale each gathered row by its edge's
  Laplacian weight, and add the rows into a zero array at the edges' destination nodes. The twelve chains differ only
  in the operand and in which copy of the same constants and broadcasts they read; so each is the first chain, its
  operand made a variable, applied to that operand — an equation between two spellings of one term, with no gather or
  scatter ever opened. The second Chebyshev term 2 · P (P t) − t then follows entry by entry from the first.
-/
import proofs.«120836_j21062519620361_1_alg».proof.Proof.RefReadP
import proofs.«120836_j21062519620361_1_alg».proof.Proof.Spec

noncomputable section

namespace Cert.ReferenceIdeal.RefValue

open Cert.ReferenceIdeal Cert.ReferenceIdeal.Gen Cert.ReferenceIdeal.ReadP Cert.ChebGru Idealize.ShloMosaic Idealize.ShloMosaic.ValueIdx

/-- The types the reference's operations give the node-feature arrays, the edge list and the edge weights. -/
abbrev FeatC : Type := (⟨S50000x64, .f32⟩ : BufTy).Contents (Elt Ideal)
abbrev EdgeC : Type := (⟨S2x800000, .i32⟩ : BufTy).Contents (Elt Ideal)
abbrev WeightC : Type := (⟨S800000, .f32⟩ : BufTy).Contents (Elt Ideal)
/-- The types they give the weight stacks and the biases. -/
abbrev StackC : Type := (⟨S3x64x64, .f32⟩ : BufTy).Contents (Elt Ideal)
abbrev BiasC : Type := (⟨S64, .f32⟩ : BufTy).Contents (Elt Ideal)

/-- The propagation: the reference's first chain as a function of its operand. -/
abbrev prop (x1 : EdgeC) (x2 : WeightC) : Arr → Arr := fun t => val_main_v45 (F := Ideal) t x1 x2

/-! ## The twelve chains -/

section chains
variable (x0 x3 : FeatC) (x1 : EdgeC) (x2 : WeightC)

/-- Of the input features, a second time (for the update gate's input side). -/
theorem v62_eq : val_main_v62 (F := Ideal) x0 x1 x2 = prop x1 x2 (prop x1 x2 x0) := rfl
/-- Of the state, once and twice (for the update gate's state side). -/
theorem v88_eq : val_main_v88 (F := Ideal) x1 x2 x3 = prop x1 x2 x3 := rfl
theorem v105_eq : val_main_v105 (F := Ideal) x1 x2 x3 = prop x1 x2 (prop x1 x2 x3) := rfl
/-- Of the input features, once and twice (for the reset gate's input side). -/
theorem v138_eq : val_main_v138 (F := Ideal) x0 x1 x2 = prop x1 x2 x0 := rfl
theorem v155_eq : val_main_v155 (F := Ideal) x0 x1 x2 = prop x1 x2 (prop x1 x2 x0) := rfl
/-- Of the state, once and twice (for the reset gate's state side). -/
theorem v181_eq : val_main_v181 (F := Ideal) x1 x2 x3 = prop x1 x2 x3 := rfl
theorem v198_eq : val_main_v198 (F := Ideal) x1 x2 x3 = prop x1 x2 (prop x1 x2 x3) := rfl
/-- Of the input features, once and twice (for the candidate's input side). -/
theorem v231_eq : val_main_v231 (F := Ideal) x0 x1 x2 = prop x1 x2 x0 := rfl
theorem v248_eq : val_main_v248 (F := Ideal) x0 x1 x2 = prop x1 x2 (prop x1 x2 x0) := rfl

end chains

section gated
variable (x0 x3 : FeatC) (x1 : EdgeC) (x2 : WeightC) (x6 x7 : StackC) (x12 x13 : BiasC)

/-- Of the state gated by the reset gate, once and twice (for the candidate's state side): the operand is the
    reference's own product of the state and the reset gate, kept closed. -/
theorem v275_eq : val_main_v275 (F := Ideal) x0 x1 x2 x3 x6 x7 x12 x13
    = prop x1 x2 (val_main_v259 (F := Ideal) x0 x1 x2 x3 x6 x7 x12 x13) := rfl
theorem v292_eq : val_main_v292 (F := Ideal) x0 x1 x2 x3 x6 x7 x12 x13
    = prop x1 x2 (prop x1 x2 (val_main_v259 (F := Ideal) x0 x1 x2 x3 x6 x7 x12 x13)) := rfl

end gated

end Cert.ReferenceIdeal.RefValue

end
-- ==== Proof.RefConv.lean ====
/-
  One Chebyshev convolution as the reference spells it is the specification's convolution over whole arrays.

  The reference cuts slab s of a weight stack [3,64,64] out by a slice [s:s+1, 0:64, 0:64] and reshapes it to a
  matrix [64,64]; entry (k, c) of that matrix is entry (s, k, c) of the stack. A matrix product [50000,64] x [64,64]
  at (r, c) is the sum over k of the left operand at (r, k) times the right at (k, c). A bias [64] broadcast to
  [1,64] and then to [50000,64] reads, at (r, c), the bias at c. The three products are added left to right and the
  bias last, which is the order the specification's convolution uses, so the two agree entry by entry with no law
  of arithmetic needed.
-/
import proofs.«120836_j21062519620361_1_alg».proof.Proof.Gen.ReferenceIdeal
import proofs.«120836_j21062519620361_1_alg».proof.Proof.Spec
import proofs.«120836_j21062519620361_1_alg».proof.Proof.LibPlainDot
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ChebGru Idealize.ShloMosaic Idealize.ShloMosaic.ValueIdx

/-- A node-feature array, a weight stack, a weight matrix and a bias, as the reference's operations type them. -/
abbrev FeatT : Type := FVec Ideal S50000x64 .f32
abbrev StackT : Type := FVec Ideal S3x64x64 .f32
abbrev MatT : Type := FVec Ideal S64x64 .f32
abbrev BiasT : Type := FVec Ideal S64 .f32

/-! ## The matrix product at an entry -/

/-- The product's record contracts axis 1 of the left operand with axis 0 of the right: the operand indices at an
    output index and a contraction index. -/
theorem dot_lhs0 (i : S50000x64.Idx) (q : dot_S50000x64_S64x64_S50000x64_1_0_0_1_n_n.contr.Idx) :
    (dot_S50000x64_S64x64_S50000x64_1_0_0_1_n_n.lhsIdx i q 0).val = (i 0).val := by
  unfold DotDims.lhsIdx
  rw [dif_neg (show ¬(0 : Fin S50000x64.rank) ∈ dot_S50000x64_S64x64_S50000x64_1_0_0_1_n_n.lhsBatch by decide),
    dif_pos (show (0 : Fin S50000x64.rank) ∈ dot_S50000x64_S64x64_S50000x64_1_0_0_1_n_n.lhsNonContracting by decide)]
  rfl
theorem dot_lhs1 (i : S50000x64.Idx) (q : dot_S50000x64_S64x64_S50000x64_1_0_0_1_n_n.contr.Idx) :
    (dot_S50000x64_S64x64_S50000x64_1_0_0_1_n_n.lhsIdx i q 1).val = (q ⟨0, by decide⟩).val :=
  dot_S50000x64_S64x64_S50000x64_1_0_0_1_n_n.lhsIdx_val_of_single rfl i q
theorem dot_rhs0 (i : S50000x64.Idx) (q : dot_S50000x64_S64x64_S50000x64_1_0_0_1_n_n.contr.Idx) :
    (dot_S50000x64_S64x64_S50000x64_1_0_0_1_n_n.rhsIdx i q 0).val = (q ⟨0, by decide⟩).val :=
  dot_S50000x64_S64x64_S50000x64_1_0_0_1_n_n.rhsIdx_val_of_single rfl i q
theorem dot_rhs1 (i : S50000x64.Idx) (q : dot_S50000x64_S64x64_S50000x64_1_0_0_1_n_n.contr.Idx) :
    (dot_S50000x64_S64x64_S50000x64_1_0_0_1_n_n.rhsIdx i q 1).val = (i 1).val := by
  unfold DotDims.rhsIdx
  rw [dif_neg (show ¬(1 : Fin S64x64.rank) ∈ dot_S50000x64_S64x64_S50000x64_1_0_0_1_n_n.rhsBatch by decide),
    dif_pos (show (1 : Fin S64x64.rank) ∈ dot_S50000x64_S64x64_S50000x64_1_0_0_1_n_n.rhsNonContracting by decide)]
  rfl

/-- The product at (r, c): the sum over k of the left operand at (r, k) times the right at (k, c). -/
theorem dot_apply (t : FeatT) (m : MatT) (r : Fin 50000) (c : Fin 64) :
    Host.dotGeneral (F := Ideal) dot_S50000x64_S64x64_S50000x64_1_0_0_1_n_n none t m (ix2 r c)
      = ∑ k : Fin 64, t (ix2 r k) * m (ix2 k c) := by
  simp only [Host.dotGeneral]
  rw [Ideal.dotGeneral_apply]
  exact Cert.Lib.PlainDot.sum_rows_cols dot_S50000x64_S64x64_S50000x64_1_0_0_1_n_n rfl rfl
    dot_lhs0 dot_lhs1 dot_rhs0 dot_rhs1 t m (ix2 r c)

/-! ## A slab of a weight stack, and the bias over the rows -/

/-- Slab o of a stack, cut out by the slice [o:o+1, 0:64, 0:64] and reshaped to a matrix: its entry (k, c) is the
    stack's entry (o, k, c). The reshape keeps the row-major position, (0 * 64 + k) * 64 + c = k * 64 + c. -/
theorem slab_apply (o : Nat) (ho : o < 3) (h : S3x64x64.Slices ![o, 0, 0] S1x64x64) (w : StackT) (k c : Fin 64) :
    shapeCast S64x64 (extractStridedSlice S1x64x64 ![o, 0, 0] w h) shapeCasts_S1x64x64_S64x64 (ix2 k c)
      = w (ix3 ⟨o, ho⟩ k c) := by
  rw [shapeCast_apply _ shapeCasts_S1x64x64_S64x64 (ix2 k c) (ix3 (0 : Fin 1) k c) (by
    rw [Shape.rowMajor_val_three, Shape.rowMajor_val_two]
    show (0 * 64 + k.val) * 64 + c.val = k.val * 64 + c.val
    omega)]
  exact extractStridedSlice_apply ![o, 0, 0] w h (ix3 (0 : Fin 1) k c) (ix3 ⟨o, ho⟩ k c) (fun a => match a with
    | ⟨0, _⟩ => by show o = o + 0; omega
    | ⟨1, _⟩ => by show k.val = 0 + k.val; omega
    | ⟨2, _⟩ => by show c.val = 0 + c.val; omega)

/-- A bias [64] broadcast to [1,64] and then over the 50000 rows reads, at (r, c), the bias at c. -/
theorem bias_apply (b : BiasT) (r : Fin 50000) (c : Fin 64) :
    broadcastInDim S50000x64 ![0, 1] bcast_S1x64_S50000x64_0_1 (broadcastInDim S1x64 ![1] bcast_S64_S1x64_1 b) (ix2 r c)
      = b (ix1 c) := by
  rw [broadcastInDim_apply ![0, 1] bcast_S1x64_S50000x64_0_1 _ (ix2 r c) (ix2 (0 : Fin 1) c) (fun a => match a with
    | ⟨0, _⟩ => by show (0 : Nat) = if (1 : Nat) = 1 then 0 else r.val; rw [if_pos rfl]
    | ⟨1, _⟩ => by show c.val = if (64 : Nat) = 1 then 0 else c.val; rw [if_neg (by decide)])]
  exact broadcastInDim_apply ![1] bcast_S64_S1x64_1 b (ix2 (0 : Fin 1) c) (ix1 c) (fun a => match a with
    | ⟨0, _⟩ => by show c.val = if (64 : Nat) = 1 then 0 else c.val; rw [if_neg (by decide)])

/-! ## The convolution -/

/-- One convolution in the reference's spelling: the three products with the three slabs added left to right, then
    the bias. -/
def refConv (t0 t1 t2 : FeatT) (w : StackT) (b : BiasT) : FeatT :=
  addf (addf (addf
      (Host.dotGeneral dot_S50000x64_S64x64_S50000x64_1_0_0_1_n_n none t0
        (shapeCast S64x64 (extractStridedSlice S1x64x64 ![0, 0, 0] w slices_S3x64x64_S1x64x64_0_0_0) shapeCasts_S1x64x64_S64x64))
      (Host.dotGeneral dot_S50000x64_S64x64_S50000x64_1_0_0_1_n_n none t1
        (shapeCast S64x64 (extractStridedSlice S1x64x64 ![1, 0, 0] w slices_S3x64x64_S1x64x64_1_0_0) shapeCasts_S1x64x64_S64x64)))
      (Host.dotGeneral dot_S50000x64_S64x64_S50000x64_1_0_0_1_n_n none t2
        (shapeCast S64x64 (extractStridedSlice S1x64x64 ![2, 0, 0] w slices_S3x64x64_S1x64x64_2_0_0) shapeCasts_S1x64x64_S64x64)))
    (broadcastInDim S50000x64 ![0, 1] bcast_S1x64_S50000x64_0_1 (broadcastInDim S1x64 ![1] bcast_S64_S1x64_1 b))

/-- It is the specification's convolution of the three feature arrays with the stack read at its three coordinates and
    the bias read at its coordinate: the same sums, added in the same order. -/
theorem refConv_eq (t0 t1 t2 : FeatT) (w : StackT) (b : BiasT) :
    refConv t0 t1 t2 w b = chebA t0 t1 t2 (cube w) (vec b) := by
  funext i
  obtain ⟨r, c, rfl⟩ : ∃ r c, i = ix2 r c := ⟨i 0, i 1, eq_ix2 i⟩
  unfold refConv
  rw [addf_apply, addf_apply, addf_apply, dot_apply, dot_apply, dot_apply, bias_apply]
  simp only [slab_apply 0 (by decide), slab_apply 1 (by decide), slab_apply 2 (by decide)]
  rfl

end Cert.ReferenceIdeal.RefValue

end
-- ==== Proof.RefValue.lean ====
/-
  The reference computes the specification's step.

  Each of the reference's six convolutions is, once its definitions are opened, the reference's one spelling of a
  convolution applied to a feature array, that array's propagation and its second Chebyshev term; the spelling is the
  specification's convolution. The two gates are 1 / (1 + exp (−s)) of the sum s of an input-side and a state-side
  convolution, which is the logistic function of s because the printed word 0x3F800000 is the number one. The
  candidate is tanh of the input-side convolution plus the convolution of the state gated by the reset gate, and the
  result is z · h + (1 − z) · candidate, entry by entry: the specification's step with the reference's first
  propagation as the propagation.
-/
import proofs.«120836_j21062519620361_1_alg».proof.Proof.RefProp
import proofs.«120836_j21062519620361_1_alg».proof.Proof.RefConv
import Idealize.ShloMosaic.Lib.IdealHost

noncomputable section

namespace Cert.ReferenceIdeal.RefValue

open Cert.ReferenceIdeal Cert.ReferenceIdeal.Gen Cert.ReferenceIdeal.ReadP Cert.ChebGru Idealize.ShloMosaic Idealize.ShloMosaic.ValueIdx

/-! ## The second Chebyshev terms -/

section terms
variable (x0 x3 : FeatC) (x1 : EdgeC) (x2 : WeightC)

/-- 2 · P (P X) − X, three times (one per convolution of the input features). -/
theorem v65_eq : val_main_v65 (F := Ideal) x0 x1 x2 = step2 (prop x1 x2) x0 := by
  funext i
  rw [val_main_v65_apply, val_main_v64_apply, val_main_v63_apply, val_main_cst_12_apply, v62_eq]
  rfl
theorem v158_eq : val_main_v158 (F := Ideal) x0 x1 x2 = step2 (prop x1 x2) x0 := by
  funext i
  rw [val_main_v158_apply, val_main_v157_apply, val_main_v156_apply, val_main_cst_28_apply, v155_eq]
  rfl
theorem v251_eq : val_main_v251 (F := Ideal) x0 x1 x2 = step2 (prop x1 x2) x0 := by
  funext i
  rw [val_main_v251_apply, val_main_v250_apply, val_main_v249_apply, val_main_cst_44_apply, v248_eq]
  rfl
/-- 2 · P (P H) − H, twice (one per gate). -/
theorem v108_eq : val_main_v108 (F := Ideal) x1 x2 x3 = step2 (prop x1 x2) x3 := by
  funext i
  rw [val_main_v108_apply, val_main_v107_apply, val_main_v106_apply, val_main_cst_19_apply, v105_eq]
  rfl
theorem v201_eq : val_main_v201 (F := Ideal) x1 x2 x3 = step2 (prop x1 x2) x3 := by
  funext i
  rw [val_main_v201_apply, val_main_v200_apply, val_main_v199_apply, val_main_cst_35_apply, v198_eq]
  rfl

end terms

section gatedTerm
variable (x0 x3 : FeatC) (x1 : EdgeC) (x2 : WeightC) (x6 x7 : StackC) (x12 x13 : BiasC)

/-- 2 · P (P G) − G for the state gated by the reset gate, G kept closed. -/
theorem v295_eq : val_main_v295 (F := Ideal) x0 x1 x2 x3 x6 x7 x12 x13
    = step2 (prop x1 x2) (val_main_v259 (F := Ideal) x0 x1 x2 x3 x6 x7 x12 x13) := by
  funext i
  rw [val_main_v295_apply, val_main_v294_apply, val_main_v293_apply, val_main_cst_51_apply, v292_eq]
  rfl

end gatedTerm

/-! ## The six convolutions

Each is the reference's one spelling of a convolution (the two sides are the same term once the stages' definitions
are opened) and hence the specification's. -/

section convs
variable (x0 x3 : FeatC) (x1 : EdgeC) (x2 : WeightC)

/-- The update gate's input side and state side. -/
theorem v72_eq (x4 : StackC) (x10 : BiasC) : val_main_v72 (F := Ideal) x0 x1 x2 x4 x10
    = chebA x0 (prop x1 x2 x0) (step2 (prop x1 x2) x0) (cube x4) (vec x10) :=
  (show val_main_v72 (F := Ideal) x0 x1 x2 x4 x10
      = refConv x0 (val_main_v45 (F := Ideal) x0 x1 x2) (val_main_v65 (F := Ideal) x0 x1 x2) x4 x10 from rfl).trans
    (by rw [refConv_eq, v65_eq])
theorem v115_eq (x5 : StackC) (x11 : BiasC) : val_main_v115 (F := Ideal) x1 x2 x3 x5 x11
    = chebA x3 (prop x1 x2 x3) (step2 (prop x1 x2) x3) (cube x5) (vec x11) :=
  (show val_main_v115 (F := Ideal) x1 x2 x3 x5 x11
      = refConv x3 (val_main_v88 (F := Ideal) x1 x2 x3) (val_main_v108 (F := Ideal) x1 x2 x3) x5 x11 from rfl).trans
    (by rw [refConv_eq, v88_eq, v108_eq])
/-- The reset gate's input side and state side. -/
theorem v165_eq (x6 : StackC) (x12 : BiasC) : val_main_v165 (F := Ideal) x0 x1 x2 x6 x12
    = chebA x0 (prop x1 x2 x0) (step2 (prop x1 x2) x0) (cube x6) (vec x12) :=
  (show val_main_v165 (F := Ideal) x0 x1 x2 x6 x12
      = refConv x0 (val_main_v138 (F := Ideal) x0 x1 x2) (val_main_v158 (F := Ideal) x0 x1 x2) x6 x12 from rfl).trans
    (by rw [refConv_eq, v138_eq, v158_eq])
theorem v208_eq (x7 : StackC) (x13 : BiasC) : val_main_v208 (F := Ideal) x1 x2 x3 x7 x13
    = chebA x3 (prop x1 x2 x3) (step2 (prop x1 x2) x3) (cube x7) (vec x13) :=
  (show val_main_v208 (F := Ideal) x1 x2 x3 x7 x13
      = refConv x3 (val_main_v181 (F := Ideal) x1 x2 x3) (val_main_v201 (F := Ideal) x1 x2 x3) x7 x13 from rfl).trans
    (by rw [refConv_eq, v181_eq, v201_eq])
/-- The candidate's input side. -/
theorem v258_eq (x8 : StackC) (x14 : BiasC) : val_main_v258 (F := Ideal) x0 x1 x2 x8 x14
    = chebA x0 (prop x1 x2 x0) (step2 (prop x1 x2) x0) (cube x8) (vec x14) :=
  (show val_main_v258 (F := Ideal) x0 x1 x2 x8 x14
      = refConv x0 (val_main_v231 (F := Ideal) x0 x1 x2) (val_main_v251 (F := Ideal) x0 x1 x2) x8 x14 from rfl).trans
    (by rw [refConv_eq, v231_eq, v251_eq])
/-- The candidate's state side, over the state gated by the reset gate (kept closed). -/
theorem v302_eq (x6 x7 x9 : StackC) (x12 x13 x15 : BiasC) : val_main_v302 (F := Ideal) x0 x1 x2 x3 x6 x7 x9 x12 x13 x15
    = chebA (val_main_v259 (F := Ideal) x0 x1 x2 x3 x6 x7 x12 x13)
        (prop x1 x2 (val_main_v259 (F := Ideal) x0 x1 x2 x3 x6 x7 x12 x13))
        (step2 (prop x1 x2) (val_main_v259 (F := Ideal) x0 x1 x2 x3 x6 x7 x12 x13)) (cube x9) (vec x15) :=
  (show val_main_v302 (F := Ideal) x0 x1 x2 x3 x6 x7 x9 x12 x13 x15
      = refConv (val_main_v259 (F := Ideal) x0 x1 x2 x3 x6 x7 x12 x13) (val_main_v275 (F := Ideal) x0 x1 x2 x3 x6 x7 x12 x13)
          (val_main_v295 (F := Ideal) x0 x1 x2 x3 x6 x7 x12 x13) x9 x15 from rfl).trans
    (by rw [refConv_eq, v275_eq, v295_eq])

end convs

/-! ## The gates -/

/-- 1 / (1 + exp (−s)), the ones spelt by the printed word 0x3F800000, is the logistic function of s. -/
theorem logistic_entry (s : Ideal .f32) :
    FloatOps.hostDivf (F := Ideal) (FloatOps.ofBits .f32 0x3F800000#32)
        (FloatOps.addf (FloatOps.ofBits .f32 0x3F800000#32) (FloatOps.hostUnary .exp (FloatOps.hostNegf s)))
      = Ideal.logistic s := by
  show Ideal.div (Ideal.ofBits .f32 0x3F800000#32) (Ideal.ofBits .f32 0x3F800000#32 + Ideal.exp (-s)) = Ideal.logistic s
  rw [Ideal.ofBits_one_f32]
  rfl

section gates
variable (x0 x3 : FeatC) (x1 : EdgeC) (x2 : WeightC)

/-- The update gate. -/
theorem v122_eq (x4 x5 : StackC) (x10 x11 : BiasC) : val_main_v122 (F := Ideal) x0 x1 x2 x3 x4 x5 x10 x11
    = gateA x0 (prop x1 x2 x0) (step2 (prop x1 x2) x0) x3 (prop x1 x2 x3) (step2 (prop x1 x2) x3)
        (cube x4) (cube x5) (vec x10) (vec x11) := by
  funext i
  obtain ⟨r, c, rfl⟩ : ∃ r c, i = ix2 r c := ⟨i 0, i 1, eq_ix2 i⟩
  rw [val_main_v122_apply, val_main_v120_apply, val_main_v118_apply, val_main_v117_apply, val_main_v116_apply,
    v72_eq, v115_eq,
    val_main_v121_apply, val_main_cst_21_apply, val_main_v119_apply, val_main_cst_20_apply]
  exact logistic_entry _

/-- The reset gate. -/
theorem v215_eq (x6 x7 : StackC) (x12 x13 : BiasC) : val_main_v215 (F := Ideal) x0 x1 x2 x3 x6 x7 x12 x13
    = gateA x0 (prop x1 x2 x0) (step2 (prop x1 x2) x0) x3 (prop x1 x2 x3) (step2 (prop x1 x2) x3)
        (cube x6) (cube x7) (vec x12) (vec x13) := by
  funext i
  obtain ⟨r, c, rfl⟩ : ∃ r c, i = ix2 r c := ⟨i 0, i 1, eq_ix2 i⟩
  rw [val_main_v215_apply, val_main_v213_apply, val_main_v211_apply, val_main_v210_apply, val_main_v209_apply,
    v165_eq, v208_eq,
    val_main_v214_apply, val_main_cst_37_apply, val_main_v212_apply, val_main_cst_36_apply]
  exact logistic_entry _

/-- The state gated by the reset gate. -/
theorem v259_eq (x6 x7 : StackC) (x12 x13 : BiasC) : val_main_v259 (F := Ideal) x0 x1 x2 x3 x6 x7 x12 x13
    = had x3 (gateA x0 (prop x1 x2 x0) (step2 (prop x1 x2) x0) x3 (prop x1 x2 x3) (step2 (prop x1 x2) x3)
        (cube x6) (cube x7) (vec x12) (vec x13)) := by
  funext i
  rw [val_main_v259_apply, v215_eq]
  rfl

end gates

/-! ## The step -/

/-- The reference's result is the specification's step, the propagation being the reference's first propagation as a
    function of its operand. -/
theorem ref_eq (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S50000x64, .f32⟩ : BufTy).Contents (Elt Ideal))
    (x4 x5 x6 x7 x8 x9 : (⟨S3x64x64, .f32⟩ : BufTy).Contents (Elt Ideal))
    (x10 x11 x12 x13 x14 x15 : (⟨S64, .f32⟩ : BufTy).Contents (Elt Ideal)) :
    val_main_v309 (F := Ideal) x0 x1 x2 x3 x4 x5 x6 x7 x8 x9 x10 x11 x12 x13 x14 x15
      = gru (fun t => val_main_v45 (F := Ideal) t x1 x2) x0 x3 (cube x4) (cube x5) (cube x6) (cube x7) (cube x8) (cube x9)
          (vec x10) (vec x11) (vec x12) (vec x13) (vec x14) (vec x15) := by
  funext i
  obtain ⟨r, c, rfl⟩ : ∃ r c, i = ix2 r c := ⟨i 0, i 1, eq_ix2 i⟩
  rw [val_main_v309_apply, val_main_v308_apply, val_main_v307_apply, val_main_v305_apply, val_main_v304_apply,
    val_main_v303_apply, v122_eq, v258_eq, v302_eq, v259_eq, val_main_v306_apply, val_main_cst_52_apply]
  rfl

end Cert.ReferenceIdeal.RefValue

end
-- ==== Proof.lean ====
/-
  One step of a gated recurrent unit over a graph, whose six linear maps are Chebyshev graph convolutions of order
  three: a tiled kernel program against a plain reference.

  Both programs first turn the edge list and the edge weights into Laplacian weights and propagate node-feature
  arrays along the edges by the same chain of operations (gather at the source nodes, scale, sum into the destination
  nodes); the propagation therefore enters the proof as one function, never opened. With it, both compute
      z = σ(conv X + conv H),   r = σ(conv X + conv H),   h̃ = tanh(conv X + conv (H ⊙ r)),   z ⊙ H + (1 − z) ⊙ h̃,
  each convolution being three products of a feature array, its propagation and its second Chebyshev term
  2 · P (P t) − t with the three slabs of a weight stack, plus a bias. The reference does this on whole arrays. The
  kernel program does it in two grids of ten tiles of 5000 rows: the first writes z, r and the candidate's input-side
  convolution, host operations between the grids form H ⊙ r and its two further Chebyshev terms, and the second grid
  writes the result. A convolution at a row reads only that row of its three feature arrays, so the tiles assemble
  into the whole-array formula; changes of float format are the identity on the extended reals; and the sums are
  added in the same order on both sides, so no law of arithmetic beyond this is used and the inputs' finiteness is
  never needed.

  The modules: Spec (the step as one function of the propagation and the arguments), KCheb / Body0 / Region0 / Region1
  (what each grid writes), KHost / KHostB / KHost1 (what the host stretches leave), KRun (the kernel program's run with
  its result named), KValue (the kernel program's result is the step), RefConv / RefProp / RefValue (the reference's
  result is the step), RefRunP / RefReadP / RefRunRead (the reference's run and its stages).
-/
import proofs.«120836_j21062519620361_1_alg».proof.Defs
import proofs.«120836_j21062519620361_1_alg».proof.Proof.Gen.Kernel
import proofs.«120836_j21062519620361_1_alg».proof.Proof.Gen.Kernel.Skeleton
import proofs.«120836_j21062519620361_1_alg».proof.Proof.Gen.Kernel.Launch
import proofs.«120836_j21062519620361_1_alg».proof.Proof.Gen.Kernel.Points
import proofs.«120836_j21062519620361_1_alg».proof.Proof.Gen.Kernel.Frame
import proofs.«120836_j21062519620361_1_alg».proof.Proof.Gen.KernelIdeal
import proofs.«120836_j21062519620361_1_alg».proof.Proof.Gen.KernelIdeal.Skeleton
import proofs.«120836_j21062519620361_1_alg».proof.Proof.Gen.KernelIdeal.Launch
import proofs.«120836_j21062519620361_1_alg».proof.Proof.Gen.KernelIdeal.Points
import proofs.«120836_j21062519620361_1_alg».proof.Proof.Gen.KernelIdeal.Frame
import proofs.«120836_j21062519620361_1_alg».proof.Proof.Gen.ReferenceIdeal
import proofs.«120836_j21062519620361_1_alg».proof.Proof.Gen.Pre_finite_inputs
import proofs.«120836_j21062519620361_1_alg».proof.Proof.KRun
import proofs.«120836_j21062519620361_1_alg».proof.Proof.KValue
import proofs.«120836_j21062519620361_1_alg».proof.Proof.RefRunRead
import proofs.«120836_j21062519620361_1_alg».proof.Proof.RefValue
import Idealize.ShloMosaic.Adequacy
import Idealize.ShloMosaic.Init

noncomputable section

namespace Cert.Proof

open Idealize.ShloMosaic Idealize.SL.Sem

/-- The kernel program runs and leaves its arguments unchanged, at the word level and on the extended reals. -/
theorem frame_k : Cert.frame_Kernel := fun m ρ _ => Cert.Kernel.Gen.frame m ρ
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- On the extended reals, from memories agreeing on the sixteen arguments, both programs end with the
    specification's step of those arguments in their result arrays. -/
theorem algebraic : Cert.algebraic_KernelIdeal_ReferenceIdeal := by
  intro m ρ m' ρ' _ hagree
  refine ⟨fun c => Cert.KernelIdeal.Gen.W6 m ρ c (Proc.devRef .tc Cert.KernelIdeal.main_v140),
    Cert.KernelIdeal.KRun.run_value m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v309_eq, Cert.ReferenceIdeal.RefValue.ref_eq,
    (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2]
  exact (Cert.KernelIdeal.KValue.value m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
